-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S8x1024x1024 : Shape := ⟨3, ![8, 1024, 1024]⟩
abbrev S8x1024 : Shape := ⟨2, ![8, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v13 : IVec S_ 1) (main_v15 : IVec S4x4096 1) (main_c_5 : IVec S_ 32) : IVec S_ 1 :=
  let main_v16 : IVec S4x4096 32 := broadcastInDim S4x4096 ![] bcast_S_S4x4096 main_c_5
  let main_v17 : IVec S4x4096 1 := cmpi .slt main_arg1 main_v16
  let main_v18 : IVec S4x4096 1 := andi main_v15 main_v17
  let main_c_6 : IVec S_ 1 := constantI S_ 1 1#1
  let main_v19 : IVec S_ 1 := (fun x v => Host.reduce IntOp.andi x v reducesTo_S4x4096_S_d0_1 h_S_) main_v18 main_c_6
  let main_v20 : IVec S_ 1 := andi main_v13 main_v19
  main_v20

def fn {F : FTy → Type} [FloatOps F] (main_arg0 : FVec F S4x4096x1024 .f32) (main_arg1 : IVec S4x4096 32) (main_arg2 : FVec F S8x1024x1024 .f32) (main_arg3 : FVec F S8x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S4x4096 32 := broadcastInDim S4x4096 ![] bcast_S_S4x4096 main_c_4
  let main_v15 : IVec S4x4096 1 := cmpi .sge main_arg1 main_v14
  let main_c_5 : IVec S_ 32 := constantI S_ 32 8#32
  fn_part1 (F := F) main_arg1 main_v13 main_v15 main_c_5
-- ==== Kernel.lean ====
abbrev S4x4096x1024 : Shape := ⟨3, ![4, 4096, 1024]⟩
abbrev S4x4096 : Shape := ⟨2, ![4, 4096]⟩
abbrev S8x1024x1024 : Shape := ⟨3, ![8, 1024, 1024]⟩
abbrev S8x1024 : Shape := ⟨2, ![8, 1024]⟩
abbrev S16384x1024 : Shape := ⟨2, ![16384, 1024]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S_ : Shape := ⟨0, ![]⟩
abbrev S1 : Shape := ⟨1, ![1]⟩
abbrev S9 : Shape := ⟨1, ![9]⟩
abbrev S24576 : Shape := ⟨1, ![24576]⟩
abbrev S24576x1 : Shape := ⟨2, ![24576, 1]⟩
abbrev S24576x1024 : Shape := ⟨2, ![24576, 1024]⟩
abbrev S24 : Shape := ⟨1, ![24]⟩
abbrev S24x1 : Shape := ⟨2, ![24, 1]⟩
abbrev S24x8 : Shape := ⟨2, ![24, 8]⟩
abbrev S8x1x1024 : Shape := ⟨3, ![8, 1, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 156
  | .vmem => 8
  | .smem => 1
  | _ => 0

abbrev hbmTy0_0 (i : Nat) : BufTy := match i % 128 with
  | 0 => ⟨S4x4096x1024, .f32⟩
  | 1 => ⟨S4x4096, .i32⟩
  | 2 => ⟨S8x1024x1024, .f32⟩
  | 3 => ⟨S8x1024, .f32⟩
  | 4 => ⟨S16384x1024, .f32⟩
  | 5 => ⟨S16384, .i32⟩
  | 6 => ⟨S8, .i32⟩
  | 7 => ⟨S16384x1, .i32⟩
  | 8 => ⟨S1x8, .i32⟩
  | 9 => ⟨S16384x8, .i32⟩
  | 10 => ⟨S16384x8, .i32⟩
  | 11 => ⟨S16384x8, .i1⟩
  | 12 => ⟨S16384x8, .i32⟩
  | 13 => ⟨S_, .i32⟩
  | 14 => ⟨S8, .i32⟩
  | 15 => ⟨S_, .i32⟩
  | 16 => ⟨S8, .i32⟩
  | 17 => ⟨S8, .i32⟩
  | 18 => ⟨S_, .i32⟩
  | 19 => ⟨S8, .i32⟩
  | 20 => ⟨S8, .i32⟩
  | 21 => ⟨S_, .i32⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i1⟩
  | 29 => ⟨S8, .i32⟩
  | 30 => ⟨S8, .i32⟩
  | 31 => ⟨S_, .i32⟩
  | 32 => ⟨S8, .i32⟩
  | 33 => ⟨S8, .i1⟩
  | 34 => ⟨S8, .i1⟩
  | 35 => ⟨S_, .i32⟩
  | 36 => ⟨S8, .i32⟩
  | 37 => ⟨S8, .i32⟩
  | 38 => ⟨S8, .i32⟩
  | 39 => ⟨S_, .i32⟩
  | 40 => ⟨S8, .i32⟩
  | 41 => ⟨S8, .i32⟩
  | 42 => ⟨S_, .i32⟩
  | 43 => ⟨S1, .i32⟩
  | 44 => ⟨S_, .i32⟩
  | 45 => ⟨S_, .i32⟩
  | 46 => ⟨S8, .i32⟩
  | 47 => ⟨S9, .i32⟩
  | 48 => ⟨S8, .i32⟩
  | 49 => ⟨S_, .i32⟩
  | 50 => ⟨S1, .i32⟩
  | 51 => ⟨S_, .i32⟩
  | 52 => ⟨S_, .i32⟩
  | 53 => ⟨S8, .i32⟩
  | 54 => ⟨S9, .i32⟩
  | 55 => ⟨S8, .i32⟩
  | 56 => ⟨S8, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S16384, .i32⟩
  | 79 => ⟨S16384, .i32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S16384, .i32⟩
  | 89 => ⟨S16384, .i32⟩
  | 90 => ⟨S_, .i32⟩
  | 91 => ⟨S24576, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S24576, .i32⟩
  | 101 => ⟨S_, .i32⟩
  | 102 => ⟨S24576, .i32⟩
  | 103 => ⟨S24576, .i1⟩
  | 104 => ⟨S_, .i32⟩
  | 105 => ⟨S_, .i32⟩
  | 106 => ⟨S24576, .i32⟩
  | 107 => ⟨S24576, .i32⟩
  | 108 => ⟨S16384x1024, .bf16⟩
  | 109 => ⟨S_, .i32⟩
  | 110 => ⟨S24576, .i32⟩
  | 111 => ⟨S24576, .i1⟩
  | 112 => ⟨S_, .i32⟩
  | 113 => ⟨S24576, .i32⟩
  | 114 => ⟨S24576, .i32⟩
  | 115 => ⟨S24576, .i32⟩
  | 116 => ⟨S24576x1, .i32⟩
  | 117 => ⟨S24576x1024, .bf16⟩
  | 118 => ⟨S24, .i32⟩
  | 119 => ⟨S_, .i32⟩
  | 120 => ⟨S24, .i32⟩
  | 121 => ⟨S24, .i32⟩
  | 122 => ⟨S1x8, .i32⟩
  | 123 => ⟨S24x1, .i32⟩
  | 124 => ⟨S24x8, .i32⟩
  | 125 => ⟨S24x8, .i32⟩
  | 126 => ⟨S24x8, .i1⟩
  | 127 => ⟨S24x8, .i32⟩
  | _ => ⟨S4x4096x1024, .f32⟩

abbrev hbmTy0_1 (i : Nat) : BufTy := match i % 128 with
  | 0 => ⟨S_, .i32⟩
  | 1 => ⟨S24, .i32⟩
  | 2 => ⟨S_, .i32⟩
  | 3 => ⟨S24, .i32⟩
  | 4 => ⟨S_, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384, .i32⟩
  | 15 => ⟨S8x1024x1024, .bf16⟩
  | 16 => ⟨S8x1x1024, .f32⟩
  | 17 => ⟨S24576x1024, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x1024, .f32⟩
  | 27 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .smem, ⟨0, _⟩ => ⟨S24, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_call1_call0_c : Ref sig .tc := ⟨.hbm, 44, rfl⟩
abbrev main_call1_call0_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_call2_call0_c : Ref sig .tc := ⟨.hbm, 51, rfl⟩
abbrev main_call2_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_call3_v0 : Ref sig .tc := ⟨.hbm, 57, rfl⟩
abbrev main_call3_v1_0 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_c_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_10 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_12 : Ref sig .tc := ⟨.hbm, 90, rfl⟩
abbrev main_v51 : Ref sig .tc := ⟨.hbm, 91, rfl⟩
abbrev main_c_13 : Ref sig .tc := ⟨.hbm, 92, rfl⟩
abbrev main_v52 : Ref sig .tc := ⟨.hbm, 93, rfl⟩
abbrev main_v53 : Ref sig .tc := ⟨.hbm, 94, rfl⟩
abbrev main_c_14 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_15 : Ref sig .tc := ⟨.hbm, 101, rfl⟩
abbrev main_v59 : Ref sig .tc := ⟨.hbm, 102, rfl⟩
abbrev main_v60 : Ref sig .tc := ⟨.hbm, 103, rfl⟩
abbrev main_c_16 : Ref sig .tc := ⟨.hbm, 104, rfl⟩
abbrev main_call4_v0 : Ref sig .tc := ⟨.hbm, 105, rfl⟩
abbrev main_call4_v1 : Ref sig .tc := ⟨.hbm, 106, rfl⟩
abbrev main_v61 : Ref sig .tc := ⟨.hbm, 107, rfl⟩
abbrev main_v62 : Ref sig .tc := ⟨.hbm, 108, rfl⟩
abbrev main_c_17 : Ref sig .tc := ⟨.hbm, 109, rfl⟩
abbrev main_v63 : Ref sig .tc := ⟨.hbm, 110, rfl⟩
abbrev main_v64 : Ref sig .tc := ⟨.hbm, 111, rfl⟩
abbrev main_c_18 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_19 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_20 : Ref sig .tc := ⟨.hbm, 128, rfl⟩
abbrev main_v79 : Ref sig .tc := ⟨.hbm, 129, rfl⟩
abbrev main_c_21 : Ref sig .tc := ⟨.hbm, 130, rfl⟩
abbrev main_v80 : Ref sig .tc := ⟨.hbm, 131, rfl⟩
abbrev main_c_22 : Ref sig .tc := ⟨.hbm, 132, rfl⟩
abbrev main_v82 : Ref sig .tc := ⟨.hbm, 133, rfl⟩
abbrev main_c_23 : Ref sig .tc := ⟨.hbm, 134, rfl⟩
abbrev main_v83 : Ref sig .tc := ⟨.hbm, 135, rfl⟩
abbrev main_v84 : Ref sig .tc := ⟨.hbm, 136, rfl⟩
abbrev main_c_24 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_25 : Ref sig .tc := ⟨.hbm, 146, rfl⟩
abbrev main_v93 : Ref sig .tc := ⟨.hbm, 147, rfl⟩
abbrev main_v94 : Ref sig .tc := ⟨.hbm, 148, rfl⟩
abbrev main_c_26 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v81 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

abbrev pre0 : Pipeline.Prefetch sig := ⟨1, ![main_v81.idx], fun | 0 => main_v81.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  shapeCasts_S4x4096_S16384 : S4x4096.ShapeCasts S16384
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  reducesTo_S16384x8_S8_d0 : S16384x8.ReducesTo [0] S8
  h_S_ : 0 < S_.numel
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  concatenates_S1_S8_S9_d0 : Shape.Concatenates [S1, S8] S9 0
  slices_S9_S8_0 : S9.Slices ![0] S8
  bcast_S_S16384 : S_.BroadcastsInDim S16384 (![] : Fin 0 → Fin S16384.rank)
  bcast_S_S24576 : S_.BroadcastsInDim S24576 (![] : Fin 0 → Fin S24576.rank)
  bitsLt_bf16_f32 : FTy.bits .bf16 < FTy.bits .f32
  bcast_S24576_S24576x1_0 : S24576.BroadcastsInDim S24576x1 (![0] : Fin 1 → Fin S24576x1.rank)
  bcast_S_S24 : S_.BroadcastsInDim S24 (![] : Fin 0 → Fin S24.rank)
  bcast_S24_S24x1_0 : S24.BroadcastsInDim S24x1 (![0] : Fin 1 → Fin S24x1.rank)
  bcast_S1x8_S24x8_0_1 : S1x8.BroadcastsInDim S24x8 (![0, 1] : Fin 2 → Fin S24x8.rank)
  bcast_S24x1_S24x8_0_1 : S24x1.BroadcastsInDim S24x8 (![0, 1] : Fin 2 → Fin S24x8.rank)
  reducesTo_S24x8_S24_d1 : S24x8.ReducesTo [1] S24
  shapeCasts_S8x1024_S8x1x1024 : S8x1024.ShapeCasts S8x1x1024
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S16384x1024_S4x4096x1024 : S16384x1024.ShapeCasts S4x4096x1024
  gather_S16384_S16384x1_S16384_n_0_n_n_0_1_1_wf : GatherDims.WF S16384 S16384x1 S16384 [] [0] [] [0] [] 1 ![1]
  gather_S8_S16384x1_S16384_n_0_n_n_0_1_1_wf : GatherDims.WF S8 S16384x1 S16384 [] [0] [] [0] [] 1 ![1]
  scatter_S24576_S16384x1_S16384_n_0_0_1_wf : ScatterDims.WF S24576 S16384x1 S16384 [] [0] [0] 1
  gather_S16384x1024_S24576x1_S24576x1024_1_0_n_n_0_1_11024_wf : GatherDims.WF S16384x1024 S24576x1 S24576x1024 [1] [0] [] [0] [] 1 ![1, 1024]
  scatter_S16384_S16384x1_S16384_n_0_0_1_wf : ScatterDims.WF S16384 S16384x1 S16384 [] [0] [0] 1
  dot_S1024x1024_S1024x1024_S1024x1024_1_0_0_1_n_n_wf : DotDims.WF S1024x1024 S1024x1024 S1024x1024 [1] [0] [0] [1] [] []
  gather_S24576x1024_S16384x1_S16384x1024_1_0_n_n_0_1_11024_wf : GatherDims.WF S24576x1024 S16384x1 S16384x1024 [1] [0] [] [0] [] 1 ![1, 1024]
  hrank0 : 0 < grid0.rank
  k0_off1_inb : ∀ i : grid0.Coords, ∀ a, (k0_off1 i) a + S1.size a ≤ S24.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S24576x1024.size a
  hwx0_0 : ∀ i : grid0.Coords, EltTy.bits .bf16 = 32 ∨ (Rect.block (s := S24576x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S24576x1024.size a
  hwx0_3 : ∀ i : grid0.Coords, EltTy.bits .f32 = 32 ∨ (Rect.block (s := S24576x1024) S1024x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def scatter_S24576_S16384x1_S16384_n_0_0_1 : ScatterDims S24576 S16384x1 S16384 where
  updateWindowDims := []
  insertedWindowDims := [0]
  scatterDimsToOperandDims := [0]
  indexVectorDim := 1
  wf := scatter_S24576_S16384x1_S16384_n_0_0_1_wf
def gather_S16384x1024_S24576x1_S24576x1024_1_0_n_n_0_1_11024 : GatherDims S16384x1024 S24576x1 S24576x1024 where
  offsetDims := [1]
  collapsedSliceDims := [0]
  operandBatchingDims := []
  startIndicesBatchingDims := []
  startIndexMap := [0]
  indexVectorDim := 1
  sliceSizes := ![1, 1024]
  wf := gather_S16384x1024_S24576x1_S24576x1024_1_0_n_n_0_1_11024_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S24576x1024_S16384x1_S16384x1024_1_0_n_n_0_1_11024 : GatherDims S24576x1024 S16384x1 S16384x1024 where
  offsetDims := [1]
  collapsedSliceDims := [0]
  operandBatchingDims := []
  startIndicesBatchingDims := []
  startIndexMap := [0]
  indexVectorDim := 1
  sliceSizes := ![1, 1024]
  wf := gather_S24576x1024_S16384x1_S16384x1024_1_0_n_n_0_1_11024_wf

abbrev spec0_0 : Pipeline.WinSpec sig grid0.rank :=
  Pipeline.WinSpec.ofSpec (Memref.whole main_v69) S1024x1024.size reads0_0 false false 2 stage0_0 sem0_0 nbuf0_0 hstage0_0

abbrev spec0_1 : Pipeline.WinSpec sig grid0.rank :=
  Pipeline.WinSpec.ofSpec (Memref.whole main_v90) S1x1024x1024.size reads0_1 false false 2 stage0_1 sem0_1 nbuf0_1 hstage0_1

abbrev spec0_2 : Pipeline.WinSpec sig grid0.rank :=
  Pipeline.WinSpec.ofSpec (Memref.whole main_v91) S1x1x1024.size reads0_2 false false 2 stage0_2 sem0_2 nbuf0_2 hstage0_2

abbrev spec0_3 : Pipeline.WinSpec sig grid0.rank :=
  Pipeline.WinSpec.ofSpec (Memref.whole main_v92) S1024x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x1024.size a ≤ S8x1x1024.size a), EltTy.bits .f32 = 32 ∨ (Rect.block (s := S8x1x1024) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x4096x1024 : Shape := ⟨3, ![4, 4096, 1024]⟩
abbrev S4x4096 : Shape := ⟨2, ![4, 4096]⟩
abbrev S8x1024x1024 : Shape := ⟨3, ![8, 1024, 1024]⟩
abbrev S8x1024 : Shape := ⟨2, ![8, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S4x4096x1 : Shape := ⟨3, ![4, 4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S8x1024x1024, .f32⟩
  | .hbm, ⟨3, _⟩ => ⟨S8x1024, .f32⟩
  | .hbm, ⟨4, _⟩ => ⟨S_, .f32⟩
  | .hbm, ⟨5, _⟩ => ⟨S4x4096x1024, .f32⟩
  | .hbm, ⟨6, _⟩ => ⟨S1x1024x1024, .f32⟩
  | .hbm, ⟨7, _⟩ => ⟨S1024x1024, .f32⟩
  | .hbm, ⟨8, _⟩ => ⟨S4x4096x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S4x4096x1024, .f32⟩
  | .hbm, ⟨13, _⟩ => ⟨S4x4096x1024, .f32⟩
  | .hbm, ⟨14, _⟩ => ⟨S_, .i32⟩
  | .hbm, ⟨15, _⟩ => ⟨S4x4096, .i32⟩
  | .hbm, ⟨16, _⟩ => ⟨S4x4096, .i1⟩
  | .hbm, ⟨17, _⟩ => ⟨S4x4096x1, .i1⟩
  | .hbm, ⟨18, _⟩ => ⟨S4x4096x1024, .i1⟩
  | .hbm, ⟨19, _⟩ => ⟨S4x4096x1024, .f32⟩
  | .hbm, ⟨20, _⟩ => ⟨S1x1024x1024, .f32⟩
  | .hbm, ⟨21, _⟩ => ⟨S1024x1024, .f32⟩
  | .hbm, ⟨22, _⟩ => ⟨S4x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .i32⟩
  | .hbm, ⟨29, _⟩ => ⟨S4x4096, .i32⟩
  | .hbm, ⟨30, _⟩ => ⟨S4x4096, .i1⟩
  | .hbm, ⟨31, _⟩ => ⟨S4x4096x1, .i1⟩
  | .hbm, ⟨32, _⟩ => ⟨S4x4096x1024, .i1⟩
  | .hbm, ⟨33, _⟩ => ⟨S4x4096x1024, .f32⟩
  | .hbm, ⟨34, _⟩ => ⟨S1x1024x1024, .f32⟩
  | .hbm, ⟨35, _⟩ => ⟨S1024x1024, .f32⟩
  | .hbm, ⟨36, _⟩ => ⟨S4x4096x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S_, .i32⟩
  | .hbm, ⟨43, _⟩ => ⟨S4x4096, .i32⟩
  | .hbm, ⟨44, _⟩ => ⟨S4x4096, .i1⟩
  | .hbm, ⟨45, _⟩ => ⟨S4x4096x1, .i1⟩
  | .hbm, ⟨46, _⟩ => ⟨S4x4096x1024, .i1⟩
  | .hbm, ⟨47, _⟩ => ⟨S4x4096x1024, .f32⟩
  | .hbm, ⟨48, _⟩ => ⟨S1x1024x1024, .f32⟩
  | .hbm, ⟨49, _⟩ => ⟨S1024x1024, .f32⟩
  | .hbm, ⟨50, _⟩ => ⟨S4x4096x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S_, .i32⟩
  | .hbm, ⟨57, _⟩ => ⟨S4x4096, .i32⟩
  | .hbm, ⟨58, _⟩ => ⟨S4x4096, .i1⟩
  | .hbm, ⟨59, _⟩ => ⟨S4x4096x1, .i1⟩
  | .hbm, ⟨60, _⟩ => ⟨S4x4096x1024, .i1⟩
  | .hbm, ⟨61, _⟩ => ⟨S4x4096x1024, .f32⟩
  | .hbm, ⟨62, _⟩ => ⟨S1x1024x1024, .f32⟩
  | .hbm, ⟨63, _⟩ => ⟨S1024x1024, .f32⟩
  | .hbm, ⟨64, _⟩ => ⟨S4x4096x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S_, .i32⟩
  | .hbm, ⟨71, _⟩ => ⟨S4x4096, .i32⟩
  | .hbm, ⟨72, _⟩ => ⟨S4x4096, .i1⟩
  | .hbm, ⟨73, _⟩ => ⟨S4x4096x1, .i1⟩
  | .hbm, ⟨74, _⟩ => ⟨S4x4096x1024, .i1⟩
  | .hbm, ⟨75, _⟩ => ⟨S4x4096x1024, .f32⟩
  | .hbm, ⟨76, _⟩ => ⟨S1x1024x1024, .f32⟩
  | .hbm, ⟨77, _⟩ => ⟨S1024x1024, .f32⟩
  | .hbm, ⟨78, _⟩ => ⟨S4x4096x1024, .f32⟩
  | .hbm, ⟨79, _⟩ => ⟨S1x1024, .f32⟩
  | .hbm, ⟨80, _⟩ => ⟨S1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S_, .i32⟩
  | .hbm, ⟨85, _⟩ => ⟨S4x4096, .i32⟩
  | .hbm, ⟨86, _⟩ => ⟨S4x4096, .i1⟩
  | .hbm, ⟨87, _⟩ => ⟨S4x4096x1, .i1⟩
  | .hbm, ⟨88, _⟩ => ⟨S4x4096x1024, .i1⟩
  | .hbm, ⟨89, _⟩ => ⟨S4x4096x1024, .f32⟩
  | .hbm, ⟨90, _⟩ => ⟨S1x1024x1024, .f32⟩
  | .hbm, ⟨91, _⟩ => ⟨S1024x1024, .f32⟩
  | .hbm, ⟨92, _⟩ => ⟨S4x4096x1024, .f32⟩
  | .hbm, ⟨93, _⟩ => ⟨S1x1024, .f32⟩
  | .hbm, ⟨94, _⟩ => ⟨S1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | .hbm, ⟨98, _⟩ => ⟨S_, .i32⟩
  | .hbm, ⟨99, _⟩ => ⟨S4x4096, .i32⟩
  | .hbm, ⟨100, _⟩ => ⟨S4x4096, .i1⟩
  | .hbm, ⟨101, _⟩ => ⟨S4x4096x1, .i1⟩
  | .hbm, ⟨102, _⟩ => ⟨S4x4096x1024, .i1⟩
  | .hbm, ⟨103, _⟩ => ⟨S4x4096x1024, .f32⟩
  | .hbm, ⟨104, _⟩ => ⟨S1x1024x1024, .f32⟩
  | .hbm, ⟨105, _⟩ => ⟨S1024x1024, .f32⟩
  | .hbm, ⟨106, _⟩ => ⟨S4x4096x1024, .f32⟩
  | .hbm, ⟨107, _⟩ => ⟨S1x1024, .f32⟩
  | .hbm, ⟨108, _⟩ => ⟨S1024, .f32⟩
  | .hbm, ⟨109, _⟩ => ⟨S1x1x1024, .f32⟩
  | .hbm, ⟨110, _⟩ => ⟨S4x4096x1024, .f32⟩
  | .hbm, ⟨111, _⟩ => ⟨S4x4096x1024, .f32⟩
  | .hbm, ⟨112, _⟩ => ⟨S_, .i32⟩
  | .hbm, ⟨113, _⟩ => ⟨S4x4096, .i32⟩
  | .hbm, ⟨114, _⟩ => ⟨S4x4096, .i1⟩
  | .hbm, ⟨115, _⟩ => ⟨S4x4096x1, .i1⟩
  | .hbm, ⟨116, _⟩ => ⟨S4x4096x1024, .i1⟩
  | .hbm, ⟨117, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call2_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call4_v0 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_4 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call5_v0 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_5 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call6_v0 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c_6 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_call7_v0 : Ref sig .tc := ⟨.hbm, 116, rfl⟩
abbrev main_v96 : Ref sig .tc := ⟨.hbm, 117, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x1024_0_1_2 : S4x4096x1.BroadcastsInDim S4x4096x1024 (![0, 1, 2] : Fin 3 → Fin S4x4096x1024.rank)
  slices_S8x1024x1024_S1x1024x1024_1_0_0 : S8x1024x1024.Slices ![1, 0, 0] S1x1024x1024
  slices_S8x1024_S1x1024_1_0 : S8x1024.Slices ![1, 0] S1x1024
  slices_S8x1024x1024_S1x1024x1024_2_0_0 : S8x1024x1024.Slices ![2, 0, 0] S1x1024x1024
  slices_S8x1024_S1x1024_2_0 : S8x1024.Slices ![2, 0] S1x1024
  slices_S8x1024x1024_S1x1024x1024_3_0_0 : S8x1024x1024.Slices ![3, 0, 0] S1x1024x1024
  slices_S8x1024_S1x1024_3_0 : S8x1024.Slices ![3, 0] S1x1024
  slices_S8x1024x1024_S1x1024x1024_4_0_0 : S8x1024x1024.Slices ![4, 0, 0] S1x1024x1024
  slices_S8x1024_S1x1024_4_0 : S8x1024.Slices ![4, 0] S1x1024
  slices_S8x1024x1024_S1x1024x1024_5_0_0 : S8x1024x1024.Slices ![5, 0, 0] S1x1024x1024
  slices_S8x1024_S1x1024_5_0 : S8x1024.Slices ![5, 0] S1x1024
  slices_S8x1024x1024_S1x1024x1024_6_0_0 : S8x1024x1024.Slices ![6, 0, 0] S1x1024x1024
  slices_S8x1024_S1x1024_6_0 : S8x1024.Slices ![6, 0] S1x1024
  slices_S8x1024x1024_S1x1024x1024_7_0_0 : S8x1024x1024.Slices ![7, 0, 0] S1x1024x1024
  slices_S8x1024_S1x1024_7_0 : S8x1024.Slices ![7, 0] S1x1024
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.LibAfter.lean ====
/-
  A line of host operations run in two parts: the buffers after the whole line are the buffers after the second part,
  started from the buffers after the first.
-/
import Idealize.ShloMosaic.Lib.StableHlo.Run

namespace Idealize.ShloMosaic.StableHlo

variable {τ : Topo} {sig : RefSig} {Val : EltTy → Type}

theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Idealize.ShloMosaic.StableHlo
-- ==== Proof.LibWordSum.lean ====
/-
  Sums of 32-bit words. Adding up a finite family of words from zero gives the word of the sum of their values; a
  family of one-bit flags widened to 32 bits adds up to at most the size of the family; the signed minimum of such a
  sum (of at most 8 flags) and 7 is a natural number below 8.
-/
import Idealize.ShloMosaic.PureOps.Reduce
import Mathlib

namespace Cert.WordSum

open Idealize.ShloMosaic

/-- A fold of word additions from zero is the word of the sum of the values. -/
theorem fold_addi {n : Nat} (f : Fin n → BitVec 32) :
    (Finset.univ : Finset (Fin n)).fold IntOp.addi 0#32 f = BitVec.ofNat 32 (∑ k, (f k).toNat) := by
  have key : ∀ s : Finset (Fin n), s.fold IntOp.addi 0#32 f = BitVec.ofNat 32 (∑ k ∈ s, (f k).toNat) := by
    intro s
    induction s using Finset.induction_on with
    | empty => rfl
    | insert a s ha ih =>
      rw [Finset.fold_insert ha, ih, Finset.sum_insert ha, BitVec.ofNat_add, BitVec.ofNat_toNat, BitVec.setWidth_eq]
      rfl
  exact key _

/-- A one-bit flag widened to 32 bits is 0 or 1. -/
theorem setWidth_le_one (x : BitVec 1) : (x.setWidth 32).toNat ≤ 1 := by
  revert x; decide

/-- Eight flags add up to at most 8, and the signed minimum of that sum and 7 is a natural number below 8. -/
theorem minsi_flags_lt (f : Fin 8 → BitVec 1) :
    (IntOp.minsi ((Finset.univ : Finset (Fin 8)).fold IntOp.addi 0#32 (fun k => (f k).setWidth 32)) 7#32).toNat < 8 := by
  rw [fold_addi]
  have hs : (∑ k : Fin 8, ((f k).setWidth 32).toNat) ≤ 8 := by
    calc (∑ k : Fin 8, ((f k).setWidth 32).toNat) ≤ ∑ _k : Fin 8, 1 := Finset.sum_le_sum fun k _ => setWidth_le_one (f k)
      _ = 8 := by simp
  generalize (∑ k : Fin 8, ((f k).setWidth 32).toNat) = S at hs
  unfold IntOp.minsi
  interval_cases S <;> decide

end Cert.WordSum
-- ==== Proof.OkKernel.lean ====
/-
  The side condition of the launch: the type of every tile, read from the prefetched table, names one of the eight
  matrices and bias rows. The table is computed by the program itself as the signed minimum of a count of at most
  eight flags and 7, so every entry is a natural number below 8, whatever the inputs are.
-/
import proofs.«167811_j5703716569224_2_alg».proof.Proof.Gen.Kernel.Frame
import proofs.«167811_j5703716569224_2_alg».proof.Proof.LibAfter
import proofs.«167811_j5703716569224_2_alg».proof.Proof.LibWordSum
import Idealize.ShloMosaic.Lib.ValueIdx

set_option maxRecDepth 65536

noncomputable section

namespace Cert.Kernel.OkOf

open Cert.Kernel Cert.Kernel.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- Whatever the buffers hold before them, the last host operations before the launch leave in the table the signed
    minimum of a row sum of flags and 7. -/
theorem table_form (W : Valuation τ sig (Elt F)) : ∃ X : IVec S24x8 1,
    StableHlo.after (hostOps0_10 (F := F)) W (Proc.devRef .tc main_v81)
      = minsi (Host.reduce IntOp.addi (extui 32 X natLt_1_32) (constantI S_ 32 0#32) reducesTo_S24x8_S24_d1 h_S_)
          (broadcastInDim S24 ![] bcast_S_S24 (constantI S_ 32 7#32)) := by
  simp only [hostOps0_10, TRef.binary, TRef.unary, TRef.nullary, TRef.ternary]
  after_results_simp
  exact ⟨_, rfl⟩

theorem reduces_S24x8 : S24x8.Reduces [1] S24 := by decide

/-- Every entry of the table is a natural number below 8. -/
theorem table_lt (p : Fin 24) : ((tbl m 0 : IVec S24 32) (ix1 p)).toNat < 8 := by
  have e : (tbl m 0 : IVec S24 32) = StableHlo.after (hostOps0_10 (F := F)) (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m ((0 : Dev nD), b)))))))))))) (Proc.devRef .tc main_v81) := by
    show StableHlo.after (List.flatten [hostOps0, hostOps0_1, hostOps0_2, hostOps0_3, hostOps0_4, hostOps0_5, hostOps0_6, hostOps0_7, hostOps0_8, hostOps0_9, hostOps0_10]) (fun b => m ((0 : Dev nD), b)) (Proc.devRef .tc main_v81) = _
    simp only [List.flatten_cons, List.flatten_nil, StableHlo.after_append, List.append_nil, StableHlo.after_nil]
  obtain ⟨X, hX⟩ := table_form (F := F) (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m ((0 : Dev nD), b))))))))))))
  rw [e, hX]
  show (IntOp.minsi (Host.reduce IntOp.addi (extui 32 X natLt_1_32) (constantI S_ 32 0#32) reducesTo_S24x8_S24_d1 h_S_ (ix1 p)) 7#32).toNat < 8
  rw [Host.reduce_eq_fold_single IntOp.addi _ _ reducesTo_S24x8_S24_d1 reduces_S24x8 h_S_ (ix1 p)]
  exact Cert.WordSum.minsi_flags_lt fun k => X (reduces_S24x8.lift (ix1 p) k)

/-- The launch's side condition holds: each tile's matrix and bias row lie inside their arrays. -/
theorem ok : Ok m := by
  have hl : ∀ x : S24.Idx, ((tbl m 0 : IVec S24 32) x).toNat < 8 := fun x => by rw [eq_ix1 x]; exact table_lt m (x 0)
  refine ⟨fun i => ?_, fun i => ?_⟩
  · obtain ⟨w, hw, e⟩ : ∃ w : BitVec 32, w.toNat < 8 ∧ cc0_transform_1 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1024x1024, S8x1024x1024] <;> omega
  · obtain ⟨w, hw, e⟩ : ∃ w : BitVec 32, w.toNat < 8 ∧ cc0_transform_2 k0_off1_inb numel1_S1 (tbl m) i = ![w.toNat, 0, 0] :=
      ⟨_, hl _, rfl⟩
    refine ⟨fun a => ?_, Or.inl rfl⟩
    rw [e]
    fin_cases a <;> simp [S1x1x1024, S8x1x1024] <;> omega

end Cert.Kernel.OkOf

end
-- ==== Proof.OkKernelIdeal.lean ====
/-
  The side condition of the launch: the type of every tile, read from the prefetched table, names one of the eight
  matrices and bias rows. The table is computed by the program itself as the signed minimum of a count of at most
  eight flags and 7, so every entry is a natural number below 8, whatever the inputs are.
-/
import proofs.«167811_j5703716569224_2_alg».proof.Proof.Gen.KernelIdeal.Frame
import proofs.«167811_j5703716569224_2_alg».proof.Proof.LibAfter
import proofs.«167811_j5703716569224_2_alg».proof.Proof.LibWordSum
import Idealize.ShloMosaic.Lib.ValueIdx

set_option maxRecDepth 65536

noncomputable section

namespace Cert.KernelIdeal.OkOf

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- Whatever the buffers hold before them, the last host operations before the launch leave in the table the signed
    minimum of a row sum of flags and 7. -/
theorem table_form (W : Valuation τ sig (Elt F)) : ∃ X : IVec S24x8 1,
    StableHlo.after (hostOps0_10 (F := F)) W (Proc.devRef .tc main_v81)
      = minsi (Host.reduce IntOp.addi (extui 32 X natLt_1_32) (constantI S_ 32 0#32) reducesTo_S24x8_S24_d1 h_S_)
          (broadcastInDim S24 ![] bcast_S_S24 (constantI S_ 32 7#32)) := by
  simp only [hostOps0_10, TRef.binary, TRef.unary, TRef.nullary, TRef.ternary]
  after_results_simp
  exact ⟨_, rfl⟩

theorem reduces_S24x8 : S24x8.Reduces [1] S24 := by decide

/-- Every entry of the table is a natural number below 8. -/
theorem table_lt (p : Fin 24) : ((tbl m 0 : IVec S24 32) (ix1 p)).toNat < 8 := by
  have e : (tbl m 0 : IVec S24 32) = StableHlo.after (hostOps0_10 (F := F)) (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m ((0 : Dev nD), b)))))))))))) (Proc.devRef .tc main_v81) := by
    show StableHlo.after (List.flatten [hostOps0, hostOps0_1, hostOps0_2, hostOps0_3, hostOps0_4, hostOps0_5, hostOps0_6, hostOps0_7, hostOps0_8, hostOps0_9, hostOps0_10]) (fun b => m ((0 : Dev nD), b)) (Proc.devRef .tc main_v81) = _
    simp only [List.flatten_cons, List.flatten_nil, StableHlo.after_append, List.append_nil, StableHlo.after_nil]
  obtain ⟨X, hX⟩ := table_form (F := F) (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m ((0 : Dev nD), b))))))))))))
  rw [e, hX]
  show (IntOp.minsi (Host.reduce IntOp.addi (extui 32 X natLt_1_32) (constantI S_ 32 0#32) reducesTo_S24x8_S24_d1 h_S_ (ix1 p)) 7#32).toNat < 8
  rw [Host.reduce_eq_fold_single IntOp.addi _ _ reducesTo_S24x8_S24_d1 reduces_S24x8 h_S_ (ix1 p)]
  exact Cert.WordSum.minsi_flags_lt fun k => X (reduces_S24x8.lift (ix1 p) k)

/-- The launch's side condition holds: each tile's matrix and bias row lie inside their arrays. -/
theorem ok : Ok m := by
  have hl : ∀ x : S24.Idx, ((tbl m 0 : IVec S24 32) x).toNat < 8 := fun x => by rw [eq_ix1 x]; exact table_lt m (x 0)
  refine ⟨fun i => ?_, fun i => ?_⟩
  · obtain ⟨w, hw, e⟩ : ∃ w : BitVec 32, w.toNat < 8 ∧ cc0_transform_1 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1024x1024, S8x1024x1024] <;> omega
  · obtain ⟨w, hw, e⟩ : ∃ w : BitVec 32, w.toNat < 8 ∧ cc0_transform_2 k0_off1_inb numel1_S1 (tbl m) i = ![w.toNat, 0, 0] :=
      ⟨_, hl _, rfl⟩
    refine ⟨fun a => ?_, Or.inl rfl⟩
    rw [e]
    fin_cases a <;> simp [S1x1x1024, S8x1x1024] <;> omega

end Cert.KernelIdeal.OkOf

end
-- ==== Proof.KernelSpec.lean ====
/-
  The value the kernel program computes, as functions of the arrays the region finds.

  The padded input has 24576 rows in 24 blocks of 1024 rows; a table of 24 words assigns each row block one of 8
  experts.  Row `r` of the region's output is row `r` of the padded input times the weight matrix of the expert
  of `r`'s block, plus that expert's bias row: entry `(r, j)` is `∑ k, x (r, k) · W (e, k, j) + b (e, 0, j)`
  with `e` the expert of block `r / 1024`.  The operations after the region pick rows of that array: an index
  vector, its negative entries shifted up by 24576, names 16384 rows, and the result is those rows as a
  `4 × 4096 × 1024` array.
-/
import proofs.«167811_j5703716569224_2_alg».proof.Proof.Gen.KernelIdeal.Frame
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx

namespace Cert.KernelSide

open Cert.KernelIdeal Cert.KernelIdeal.Gen

variable (m : (ℓ : Loc nD τ sig) → Buf (Elt Ideal) ℓ)

/-- The expert the table assigns to row block `p`: the table's word at `p`, capped at the last expert. -/
def bt (p : Fin 24) : Fin 8 := ⟨min ((tbl m 0 : S24.Idx → BitVec 32) (ix1 p)).toNat 7, by omega⟩

/-- The row block of row `r`. -/
def rowBlock (r : Fin 24576) : Fin 24 := ⟨r.val / 1024, by omega⟩

/-- The padded input, the weights and the biases as the region finds them, their entries read as extended reals. -/
abbrev xArr (c : Dev nD) : S24576x1024.Idx → EReal := V m c main_v69
abbrev wArr (c : Dev nD) : S8x1024x1024.Idx → EReal := V m c main_v90
abbrev bArr (c : Dev nD) : S8x1x1024.Idx → EReal := V m c main_v91

/-- Entry `(r, j)` of the region's output: row `r` of the padded input against column `j` of the weight matrix of
    the expert of `r`'s block, plus that expert's bias at `j`. -/
def outEntry (c : Dev nD) (r : Fin 24576) (j : Fin 1024) : EReal :=
  (∑ k : Fin 1024, xArr m c (ix2 r k) * wArr m c (ix3 (bt m (rowBlock r)) k j)) + bArr m c (ix3 (bt m (rowBlock r)) 0 j)

/-- The region's output array: `outEntry` at every index. -/
def outPadded (hO : Ok m) (c : Dev nD) : FVec Ideal S24576x1024 .f32 := fun i => outEntry m c (i 0) (i 1)

/-- The operations after the region, applied to the region's output `o` and the index vector `idx`: negative entries
    of `idx` are shifted up by 24576, the named rows of `o` are gathered, and the rows are laid out as
    `4 × 4096 × 1024`. -/
def tail (o : FVec Ideal S24576x1024 .f32) (idx : IVec S16384 32) : FVec Ideal S4x4096x1024 .f32 :=
  shapeCast S4x4096x1024
    (Host.gather gather_S24576x1024_S16384x1_S16384x1024_1_0_n_n_0_1_11024 o
      (broadcastInDim S16384x1 ![0] bcast_S16384_S16384x1_0
        (select
          (cmpi CmpIPredicate.slt idx (broadcastInDim S16384 ![] bcast_S_S16384 (constantI S_ 32 0#32)))
          (addi idx (broadcastInDim S16384 ![] bcast_S_S16384 (constantI S_ 32 24576#32)))
          idx)))
    shapeCasts_S16384x1024_S4x4096x1024

end Cert.KernelSide

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.KernelBody.lean ====
/-
  What one grid point computes.  The body loads its three input blocks whole, and stores once, over the whole output
  block, the value `x · W + b`: entry `(p, q)` of the stored block is `∑ k, x (p, k) · W (0, k, q) + b (0, 0, q)`, where
  `x` is the point's 1024 × 1024 block of the padded input, `W` the one 1024 × 1024 weight matrix the point was handed
  (a block with a leading unit axis) and `b` the matching bias row.
-/
import proofs.«167811_j5703716569224_2_alg».proof.Proof.Gen.KernelIdeal.Frame
import proofs.«167811_j5703716569224_2_alg».proof.Proof.LibDotSum
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.Tactic
open Idealize.ShloMosaic.ValueIdx

namespace Cert.KernelSide

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section AnyInstance
variable {F : FTy → Type} [FloatOps F]

/-- What the body leaves in the output's staging buffer: its one store covers the block, so the buffer holds the
    stored value, a function of the three loaded blocks alone. -/
theorem out_eq (c : Dev nD) (i : grid0.Coords) (arg2 : Memref sig .tc .vmem S1024x1024 .bf16) (harg2 : arg2.IsWhole) (arg3 : Memref sig .tc .vmem S1x1024x1024 .bf16) (harg3 : arg3.IsWhole) (arg4 : Memref sig .tc .vmem S1x1x1024 .f32) (harg4 : arg4.IsWhole) (arg5 : Memref sig .tc .vmem S1024x1024 .f32) (harg5 : arg5.IsWhole)
    (x0 : Vec F S1024x1024 .bf16) (x1 : Vec F S1x1024x1024 .bf16) (x2 : Vec F S1x1x1024 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  try sl_unfold_words
  rw [View.canon_unit_zero hz2]
  simp only [View.readAt_eq_ld, harg2.read_unread, harg3.read_unread, harg4.read_unread,
    View.ld_unit_zero (S := S1024x1024) hz2, View.ld_unit_zero (S := S1x1024x1024) hz3, View.ld_unit_zero (S := S1x1x1024) hz3]

end AnyInstance

/-! ## The product's index maps: rows of the left factor against columns of the right one -/

local notation "DD" => dot_S1024x1024_S1024x1024_S1024x1024_1_0_0_1_n_n

theorem dot_l0 (i : S1024x1024.Idx) (q : DotDims.contr DD |>.Idx) : (DotDims.lhsIdx DD i q 0).val = (i 0).val := by
  unfold DotDims.lhsIdx
  rw [dif_neg (show ¬(0 : Fin S1024x1024.rank) ∈ DotDims.lhsBatch DD by decide), dif_pos (show (0 : Fin S1024x1024.rank) ∈ DotDims.lhsNonContracting DD by decide)]
  rfl
theorem dot_l1 (i : S1024x1024.Idx) (q : DotDims.contr DD |>.Idx) : (DotDims.lhsIdx DD i q 1).val = (q ⟨0, by decide⟩).val :=
  DotDims.lhsIdx_val_of_single DD rfl i q
theorem dot_r0 (i : S1024x1024.Idx) (q : DotDims.contr DD |>.Idx) : (DotDims.rhsIdx DD i q 0).val = (q ⟨0, by decide⟩).val :=
  DotDims.rhsIdx_val_of_single DD rfl i q
theorem dot_r1 (i : S1024x1024.Idx) (q : DotDims.contr DD |>.Idx) : (DotDims.rhsIdx DD i q 1).val = (i 1).val := by
  unfold DotDims.rhsIdx
  rw [dif_neg (show ¬(1 : Fin S1024x1024.rank) ∈ DotDims.rhsBatch DD by decide), dif_pos (show (1 : Fin S1024x1024.rank) ∈ DotDims.rhsNonContracting DD by decide)]
  rfl

/-! ## The stored value at an entry -/

/-- Entry `(p, q)` of the stored block: row `p` of the input block against column `q` of the weight matrix, plus the
    bias at `q`. -/
theorem pay_apply (x0 : S1024x1024.Idx → EReal) (x1 : S1x1024x1024.Idx → EReal) (x2 : S1x1x1024.Idx → EReal) (p q : Fin 1024) :
    k0_pay1 (F := Ideal) x0 x1 x2 (ix2 p q) = (∑ k : Fin 1024, x0 (ix2 p k) * x1 (ix3 0 k q)) + x2 (ix3 0 0 q) := by
  unfold k0_pay1
  show FloatOps.matmul (F := Ideal) DD none (shapeCast S1024x1024 x0 shapeCasts_S1024x1024_S1024x1024) (shapeCast S1024x1024 x1 shapeCasts_S1x1024x1024_S1024x1024) (constant S1024x1024 .f32 0x00000000#32) (ix2 p q)
      + broadcastTo S1024x1024 (shapeCast S1x1024 x2 shapeCasts_S1x1x1024_S1x1024) broadcasts_S1x1024_S1024x1024 (ix2 p q) = _
  refine congrArg₂ (· + ·) ?_ ?_
  · refine (Ideal.matmul_constant_zero_apply DD none _ _ (ix2 p q)).trans ?_
    refine (Cert.DotSum.contr_sum DD rfl rfl dot_l0 dot_l1 dot_r0 dot_r1 _ _ p q).trans ?_
    refine Finset.sum_congr rfl fun k _ => congrArg₂ (· * ·) ?_ ?_
    · exact congrFun (shapeCast_self x0 _) _
    · exact shapeCast_apply x1 shapeCasts_S1x1024x1024_S1024x1024 (ix2 k q) (ix3 0 k q)
        (by rewrite [Shape.rowMajor_val_three, Shape.rowMajor_val_two]; show (0 * 1024 + k.val) * 1024 + q.val = k.val * 1024 + q.val; omega)
  · refine (broadcastTo_apply _ broadcasts_S1x1024_S1024x1024 (ix2 p q) (ix2 0 q) (fun a => ?_)).trans ?_
    · match a with
      | ⟨0, _⟩ => rfl
      | ⟨1, _⟩ => rfl
    · exact shapeCast_apply x2 shapeCasts_S1x1x1024_S1x1024 (ix2 0 q) (ix3 0 0 q)
        (by rewrite [Shape.rowMajor_val_three, Shape.rowMajor_val_two]; show (0 * 1 + 0) * 1024 + q.val = 0 * 1024 + q.val; omega)

end Cert.KernelSide

end
-- ==== Proof.KernelBlocks.lean ====
/-
  The region's output array after the run is `outPadded`.

  The grid has 24 points; point `t` reads rows `1024 t … 1024 t + 1023` of the padded input, the weight matrix and the
  bias row of the expert the table names at `t`, and writes rows `1024 t … 1024 t + 1023` of the output.  The side
  condition on the table says each of its words is below 8, so the expert read is the one `outPadded` names.  What a
  point writes back is therefore its block of `outPadded`; the 24 blocks tile the output array, so the array ends
  holding `outPadded`.
-/
import proofs.«167811_j5703716569224_2_alg».proof.Proof.Gen.KernelIdeal.Frame
import proofs.«167811_j5703716569224_2_alg».proof.Proof.KernelSpec
import proofs.«167811_j5703716569224_2_alg».proof.Proof.KernelBody
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx

namespace Cert.KernelSide

open Cert.KernelIdeal Cert.KernelIdeal.Gen

variable (m : (ℓ : Loc nD τ sig) → Buf (Elt Ideal) ℓ)

/-! ## The index maps -/

/-- The grid is one axis of 24 points: point `t` has coordinate `t`. -/
theorem coords_val : ∀ t : Fin grid0.N, (grid0.coords t 0).val = t.val := by decide +kernel

/-- The padded input's and the output's block at coordinate `i` is row block `i`, all columns. -/
theorem idx0 : ∀ i : grid0.Coords, cc0_transform_0 i = ![(i 0).val, 0] := by decide +kernel
theorem idx3 : ∀ i : grid0.Coords, cc0_transform_3 i = ![(i 0).val, 0] := by decide +kernel

/-- The word the table holds for coordinate `i`. -/
def word (pf : pre0.Contents (Elt Ideal)) (i : grid0.Coords) : ℕ := ((pf 0 : S24.Idx → BitVec 32) (ix1 (i 0))).toNat

/-- The weights' block at coordinate `i` is the whole matrix of the expert the table names there, -/
theorem idx1 (pf : pre0.Contents (Elt Ideal)) (i : grid0.Coords) :
    cc0_transform_1 k0_off1_inb numel1_S1 pf i = ![word pf i, 0, 0] := by
  have e : k0_off1 i 0 = (i 0).val := by rw [k0_off1_eq i]; rfl
  funext a
  match a with
  | ⟨0, _⟩ =>
    refine congrArg BitVec.toNat (congrArg (pf 0) (funext fun b => Fin.ext ?_))
    match b with
    | ⟨0, _⟩ => show k0_off1 i 0 + 1 * 0 = (i 0).val; rw [e]; omega
  | ⟨1, _⟩ => rfl
  | ⟨2, _⟩ => rfl
/-- and the biases' block is that expert's row. -/
theorem idx2 (pf : pre0.Contents (Elt Ideal)) (i : grid0.Coords) :
    cc0_transform_2 k0_off1_inb numel1_S1 pf i = ![word pf i, 0, 0] := by
  have e : k0_off1 i 0 = (i 0).val := by rw [k0_off1_eq i]; rfl
  funext a
  match a with
  | ⟨0, _⟩ =>
    refine congrArg BitVec.toNat (congrArg (pf 0) (funext fun b => Fin.ext ?_))
    match b with
    | ⟨0, _⟩ => show k0_off1 i 0 + 1 * 0 = (i 0).val; rw [e]; omega
  | ⟨1, _⟩ => rfl
  | ⟨2, _⟩ => rfl

/-- Under the side condition on the table every word names one of the 8 experts. -/
theorem word_lt (hO : Ok m) (i : grid0.Coords) : word (tbl m) i < 8 := by
  have h := (hO.1 i).elim fun h _ => h 0
  rw [idx1] at h
  have h' : (word (tbl m) i + 1) * 1 ≤ 8 := h
  omega

/-- The word for coordinate `i` is the table's entry at `i`'s value. -/
theorem word_eq (pf : pre0.Contents (Elt Ideal)) (i : grid0.Coords) (p : Fin 24) (h : (i 0).val = p.val) :
    word pf i = ((pf 0 : S24.Idx → BitVec 32) (ix1 p)).toNat :=
  congrArg (fun x : Fin 24 => ((pf 0 : S24.Idx → BitVec 32) (ix1 x)).toNat) (Fin.ext h)

/-- So the cap in `bt` is never reached: the expert of row block `p` is the table's word at `p`. -/
theorem bt_val (hO : Ok m) (p : Fin 24) : (bt m p).val = ((tbl m 0 : S24.Idx → BitVec 32) (ix1 p)).toNat := by
  have hp : p.val < grid0.N := by rw [N_0]; exact p.isLt
  have h := word_lt m hO (grid0.coords ⟨p.val, hp⟩)
  rw [word_eq (tbl m) _ p (coords_val ⟨p.val, hp⟩)] at h
  show min _ 7 = _
  omega

/-! ## One point's block -/

/-- Entry `(p, q)` of the block a point stores, when row `p` of its input block is row `r` of the padded input and its
    weight and bias blocks are those of expert `e`. -/
theorem point_entry (X : S24576x1024.Idx → EReal) (W : S8x1024x1024.Idx → EReal) (B : S8x1x1024.Idx → EReal)
    (x0 : S1024x1024.Idx → EReal) (x1 : S1x1024x1024.Idx → EReal) (x2 : S1x1x1024.Idx → EReal)
    (r : Fin 24576) (e : Fin 8) (p q q' : Fin 1024)
    (h0 : ∀ k, x0 (ix2 p k) = X (ix2 r k)) (h1 : ∀ k, x1 (ix3 0 k q) = W (ix3 e k q')) (h2 : x2 (ix3 0 0 q) = B (ix3 e 0 q')) :
    k0_pay1 (F := Ideal) x0 x1 x2 (ix2 p q) = (∑ k : Fin 1024, X (ix2 r k) * W (ix3 e k q')) + B (ix3 e 0 q') := by
  rw [pay_apply, h2]
  exact congrArg (· + _) (Finset.sum_congr rfl fun k _ => by rw [h0, h1])

/-- The padded input's block at point `t`: rows `1024 t … 1024 t + 1023`. -/
theorem iblk0_apply (hO : Ok m) (c : Dev nD) (t : Fin (cfgM m hO).N) (p k : Fin 1024) (r : Fin 24576)
    (hr : r.val = (grid0.coords t 0).val * 1024 + p.val) :
    (iblk m hO c 0 t : S1024x1024.Idx → EReal) (ix2 p k) = xArr m c (ix2 r k) := by
  unfold iblk
  show V m c main_v69 ((((cfgM m hO).win 0).blk t).view.emb (ix2 p k)) = V m c main_v69 (ix2 r k)
  refine congrArg (V m c main_v69) (funext fun a => Fin.ext ?_)
  match a with
  | ⟨0, _⟩ => show cc0_transform_0 (grid0.coords t) 0 * 1024 + 1 * p.val = r.val; rw [idx0, hr]; show (grid0.coords t 0).val * 1024 + 1 * p.val = _; omega
  | ⟨1, _⟩ => show cc0_transform_0 (grid0.coords t) 1 * 1024 + 1 * k.val = k.val; rw [idx0]; show 0 * 1024 + 1 * k.val = k.val; omega

/-- The weights' block at point `t`: the matrix of the expert the table names there. -/
theorem iblk1_apply (hO : Ok m) (c : Dev nD) (t : Fin (cfgM m hO).N) (k q q' : Fin 1024) (e : Fin 8)
    (he : e.val = word (tbl m) (grid0.coords t)) (hq : q'.val = q.val) :
    (iblk m hO c 1 t : S1x1024x1024.Idx → EReal) (ix3 0 k q) = wArr m c (ix3 e k q') := by
  unfold iblk
  show V m c main_v90 ((((cfgM m hO).win 1).blk t).view.emb (ix3 0 k q)) = V m c main_v90 (ix3 e k q')
  refine congrArg (V m c main_v90) (funext fun a => Fin.ext ?_)
  match a with
  | ⟨0, _⟩ => show cc0_transform_1 k0_off1_inb numel1_S1 (tbl m) (grid0.coords t) 0 * 1 + 1 * 0 = e.val; rw [idx1, he]; show word (tbl m) (grid0.coords t) * 1 + 1 * 0 = _; omega
  | ⟨1, _⟩ => show cc0_transform_1 k0_off1_inb numel1_S1 (tbl m) (grid0.coords t) 1 * 1024 + 1 * k.val = k.val; rw [idx1]; show 0 * 1024 + 1 * k.val = k.val; omega
  | ⟨2, _⟩ => show cc0_transform_1 k0_off1_inb numel1_S1 (tbl m) (grid0.coords t) 2 * 1024 + 1 * q.val = q'.val; rw [idx1, hq]; show 0 * 1024 + 1 * q.val = q.val; omega

/-- The biases' block at point `t`: that expert's row. -/
theorem iblk2_apply (hO : Ok m) (c : Dev nD) (t : Fin (cfgM m hO).N) (q q' : Fin 1024) (e : Fin 8)
    (he : e.val = word (tbl m) (grid0.coords t)) (hq : q'.val = q.val) :
    (iblk m hO c 2 t : S1x1x1024.Idx → EReal) (ix3 0 0 q) = bArr m c (ix3 e 0 q') := by
  unfold iblk
  show V m c main_v91 ((((cfgM m hO).win 2).blk t).view.emb (ix3 0 0 q)) = V m c main_v91 (ix3 e 0 q')
  refine congrArg (V m c main_v91) (funext fun a => Fin.ext ?_)
  match a with
  | ⟨0, _⟩ => show cc0_transform_2 k0_off1_inb numel1_S1 (tbl m) (grid0.coords t) 0 * 1 + 1 * 0 = e.val; rw [idx2, he]; show word (tbl m) (grid0.coords t) * 1 + 1 * 0 = _; omega
  | ⟨1, _⟩ => show cc0_transform_2 k0_off1_inb numel1_S1 (tbl m) (grid0.coords t) 1 * 1 + 1 * 0 = 0; rw [idx2]; rfl
  | ⟨2, _⟩ => show cc0_transform_2 k0_off1_inb numel1_S1 (tbl m) (grid0.coords t) 2 * 1024 + 1 * q.val = q'.val; rw [idx2, hq]; show 0 * 1024 + 1 * q.val = q.val; omega

/-! ## What a point writes back, and the array after the run -/

/-- Point `t` writes back block `t` of `outPadded`: the stored block's entry `(p, q)` is `outPadded` at row `1024 t + p`,
    column `q`, the expert being the one the table names at `t`. -/
theorem flushed_eq (hO : Ok m) (c : Dev nD) (t : Fin (cfgM m hO).N) :
    (dats (F := Ideal) m hO 0 c).flushed 3 t = (((cfgM m hO).win 3).blk t).view.read (Elt Ideal) (outPadded m hO c) := by
  show ((cfgM m hO).win 3).cut (grid0.coords t) ((dats m hO 0 c).after 3 t) = _
  rw [after0_3]
  unfold outsAt0
  rw [out_eq (F := Ideal) c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0)]
  refine funext fun (j : S1024x1024.Idx) => ?_
  have hj0 : (j 0).val < 1024 := (j 0).isLt
  have hj1 : (j 1).val < 1024 := (j 1).isLt
  have htN : t.val < 24 := Nat.lt_of_lt_of_eq t.isLt (N_0 : grid0.N = 24)
  have hc := coords_val t
  have hx : ((cfgM m hO).win 3).xinj (grid0.coords t) j = ix2 (⟨(j 0).val, hj0⟩ : Fin 1024) (⟨(j 1).val, hj1⟩ : Fin 1024) :=
    funext fun a => by
      match a with
      | ⟨0, _⟩ => rfl
      | ⟨1, _⟩ => rfl
  have hemb : (((cfgM m hO).win 3).blk t).view.emb j
      = ix2 (⟨(grid0.coords t 0).val * 1024 + (j 0).val, by omega⟩ : Fin 24576) (⟨(j 1).val, hj1⟩ : Fin 1024) := by
    funext a; apply Fin.ext
    match a with
    | ⟨0, _⟩ => show cc0_transform_3 (grid0.coords t) 0 * 1024 + 1 * (j 0).val = _; rw [idx3]; show (grid0.coords t 0).val * 1024 + 1 * (j 0).val = (grid0.coords t 0).val * 1024 + (j 0).val; omega
    | ⟨1, _⟩ => show cc0_transform_3 (grid0.coords t) 1 * 1024 + 1 * (j 1).val = (j 1).val; rw [idx3]; show 0 * 1024 + 1 * (j 1).val = _; omega
  have he : (bt m (rowBlock ⟨(grid0.coords t 0).val * 1024 + (j 0).val, by omega⟩)).val = word (tbl m) (grid0.coords t) := by
    rw [bt_val m hO]
    exact (word_eq (tbl m) (grid0.coords t) _ (by show _ = ((grid0.coords t 0).val * 1024 + (j 0).val) / 1024; omega)).symm
  show k0_pay1 (F := Ideal) (iblk m hO c 0 t) (iblk m hO c 1 t) (iblk m hO c 2 t) (((cfgM m hO).win 3).xinj (grid0.coords t) j)
    = outPadded m hO c ((((cfgM m hO).win 3).blk t).view.emb j)
  refine (congrArg (k0_pay1 (F := Ideal) (iblk m hO c 0 t) (iblk m hO c 1 t) (iblk m hO c 2 t)) hx).trans ?_
  refine Eq.trans ?_ (congrArg (outPadded m hO c) hemb).symm
  exact point_entry (xArr m c) (wArr m c) (bArr m c) (iblk m hO c 0 t) (iblk m hO c 1 t) (iblk m hO c 2 t) _ _ ⟨(j 0).val, hj0⟩ ⟨(j 1).val, hj1⟩ ⟨(j 1).val, hj1⟩
    (fun k => iblk0_apply m hO c t _ k _ rfl) (fun k => iblk1_apply m hO c t k _ _ _ he rfl) (iblk2_apply m hO c t _ _ _ he rfl)

/-- An index of the output array is in point `t`'s block iff each coordinate is in the block's range on its axis. -/
theorem mem_blk (hO : Ok m) (t : Fin (cfgM m hO).N) (i : S24576x1024.Idx) :
    i ∈ (((cfgM m hO).win 3).blk t).view.set ↔ ∀ a : Fin 2, ((cfgM m hO).win 3).index t a * S1024x1024.size a ≤ (i a).val
      ∧ (i a).val < ((cfgM m hO).win 3).index t a * S1024x1024.size a + S1024x1024.size a := by
  have e : (((cfgM m hO).win 3).blk t).view.set = (((cfgM m hO).win 3).rect t).set := View.set_slice_whole main_v92 _
  exact (iff_of_eq (congrArg (fun s => i ∈ s) e)).trans Rect.mem_set_unit

/-- Every index of the output array is in the block of the point of its row block. -/
theorem cover (hO : Ok m) (i : S24576x1024.Idx) :
    ∃ t : Fin (cfgM m hO).N, ((cfgM m hO).win 3).flush t = true ∧ i ∈ (((cfgM m hO).win 3).blk t).view.set := by
  have hi0 : (i 0).val < 24576 := (i 0).isLt
  have hi1 : (i 1).val < 1024 := (i 1).isLt
  have hN : (cfgM m hO).N = 24 := N_0
  obtain ⟨t, ht⟩ : ∃ t : Fin (cfgM m hO).N, (grid0.coords t 0).val = (i 0).val / 1024 :=
    ⟨⟨(i 0).val / 1024, by rw [hN]; omega⟩, coords_val _⟩
  refine ⟨t, flush0_3 (adm m hO) t, ?_⟩
  rw [mem_blk]
  intro a
  match a with
  | ⟨0, _⟩ =>
    show cc0_transform_3 (grid0.coords t) 0 * 1024 ≤ (i 0).val ∧ (i 0).val < cc0_transform_3 (grid0.coords t) 0 * 1024 + 1024
    rw [idx3]
    show (grid0.coords t 0).val * 1024 ≤ (i 0).val ∧ (i 0).val < (grid0.coords t 0).val * 1024 + 1024
    omega
  | ⟨1, _⟩ =>
    show cc0_transform_3 (grid0.coords t) 1 * 1024 ≤ (i 1).val ∧ (i 1).val < cc0_transform_3 (grid0.coords t) 1 * 1024 + 1024
    rw [idx3]
    show 0 * 1024 ≤ (i 1).val ∧ (i 1).val < 0 * 1024 + 1024
    omega

/-- THE REGION'S OUTPUT: the 24 blocks tile the array, each written once with its block of `outPadded`, so the array
    ends holding `outPadded`. -/
theorem region (hO : Ok m) (c : Dev nD) : (dats (F := Ideal) m hO 0 c).arrAt 3 (cfgM m hO).N = outPadded m hO c :=
  (dats m hO 0 c).arrAt_eq_of_cover 3 (outPadded m hO c) (fun t _ => flushed_eq m hO c t) (cover m hO)

end Cert.KernelSide

end
-- ==== Proof.KernelRun.lean ====
/-
  The kernel program's run with its result named: after every fair execution the result buffer holds the operations
  after the region applied to the region's output array `outPadded` and the index vector the region found, and the four
  arguments are as launched.
-/
import proofs.«167811_j5703716569224_2_alg».proof.Proof.Gen.KernelIdeal.Frame
import proofs.«167811_j5703716569224_2_alg».proof.Proof.KernelSpec
import proofs.«167811_j5703716569224_2_alg».proof.Proof.KernelBlocks
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx

namespace Cert.KernelSide

open Cert.KernelIdeal Cert.KernelIdeal.Gen

variable (m : (ℓ : Loc nD τ sig) → Buf (Elt Ideal) ℓ) (ρ : Dev nD → PrngReg)

/-- The result buffer after the operations that follow the region: they read the region's output array, which is
    `outPadded`, and the index vector, which no window stages and the region leaves as it found it. -/
theorem tail_result (hO : Ok m) (c : Dev nD) :
    Pipeline.afterTail pcfgs (fun _ => adm m hO) (dats m hO) 0 (V0 m) [hostOps1] c main_v100
      = tail (outPadded m hO c) (V0 m c (Proc.devRef .tc main_v89)) := by
  have e92 : Pipeline.withArrays (Pipeline.pin pcfgs (fun _ => adm m hO) 0).spec c (V0 m c)
      (fun w => (dats m hO 0 c).arrAt w (Pipeline.pin pcfgs (fun _ => adm m hO) 0).N) (Proc.devRef .tc main_v92) = outPadded m hO c :=
    (Pipeline.withArrays_arr spec0 (launch0 (F := Ideal)).win.arr_inj c _ _ 3).trans (region m hO c)
  have e89 : Pipeline.withArrays (Pipeline.pin pcfgs (fun _ => adm m hO) 0).spec c (V0 m c)
      (fun w => (dats m hO 0 c).arrAt w (Pipeline.pin pcfgs (fun _ => adm m hO) 0).N) (Proc.devRef .tc main_v89) = V0 m c (Proc.devRef .tc main_v89) :=
    Pipeline.withArrays_of_ne _ c (V0 m c) _ main_v89 (by exact (by decide : ∀ w, Pipeline.arrRef spec0 w ≠ main_v89))
  unfold Pipeline.afterTail
  show StableHlo.after hostOps1 _ (Proc.devRef .tc main_v100) = _
  after_results
  rw [e92, e89]
  rfl

/-- THE RUN: every fair execution of the kernel program ends with the result buffer at `tail` of `outPadded` and of the
    index vector the region found, and with the four arguments unchanged. -/
theorem kernel_run (hO : Ok m) : θ_run defs (onTc (τ := τ) (main (F := Ideal))) ⟨m, fun _ => 0, ρ⟩ (fun r => ∀ c : Dev nD,
      r.2.mem ((c.tc : Thread nD τ).loc main_v100) = tail (outPadded m hO c) (V0 m c (Proc.devRef .tc main_v89))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v100 (by decide : main_v100 ∈ Pipeline.restRefs sig spec0)).trans (tail_result m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KernelSide

end
-- ==== Proof.Stages.lean ====
/-
  The host operations that run before the kernel, as pure functions of the four argument arrays: one definition per
  operation, in program order, each applied to the definitions of its operands. The integer chain (the per-type
  counts, the padded group boundaries, the sorting permutation, each token's padded slot, the tile types, the two
  scatters) depends on the type array alone.
-/
import proofs.«167811_j5703716569224_2_alg».proof.Proof.Gen.KernelIdeal.Frame

set_option maxRecDepth 16384

noncomputable section

namespace Cert.KernelIdeal.Stg

open Cert.KernelIdeal Cert.KernelIdeal.Gen Idealize.ShloMosaic Idealize.ShloMosaic.TcCoe Idealize.SL.Sem

variable {F : FTy → Type} [FloatOps F]

def main_v0 (a0 : FVec F S4x4096x1024 .f32) :=
  fun i => shapeCast S16384x1024 a0 shapeCasts_S4x4096x1024_S16384x1024 i
def main_v1 (a1 : IVec S4x4096 32) :=
  fun i => shapeCast S16384 a1 shapeCasts_S4x4096_S16384 i
def main_v2 :=
  (iotaInDim S8 32 0)
def main_v3 (a1 : IVec S4x4096 32) :=
  (broadcastInDim S16384x1 ![0] bcast_S16384_S16384x1_0) (main_v1 a1)
def main_v4 :=
  (broadcastInDim S1x8 ![1] bcast_S8_S1x8_1) main_v2
def main_v5 (a1 : IVec S4x4096 32) :=
  (broadcastInDim S16384x8 ![0, 1] bcast_S16384x1_S16384x8_0_1) (main_v3 a1)
def main_v6 :=
  (broadcastInDim S16384x8 ![0, 1] bcast_S1x8_S16384x8_0_1) main_v4
def main_v7 (a1 : IVec S4x4096 32) :=
  (cmpi .eq) (main_v5 a1) main_v6
def main_v8 (a1 : IVec S4x4096 32) :=
  ((extui 32 · natLt_1_32)) (main_v7 a1)
def main_c :=
  (constantI S_ 32 0#32)
def main_v9 (a1 : IVec S4x4096 32) :=
  ((fun x v => Host.reduce IntOp.addi x v reducesTo_S16384x8_S8_d0 h_S_)) (main_v8 a1) main_c
def main_c_0 :=
  (constantI S_ 32 1024#32)
def main_v10 :=
  (broadcastInDim S8 ![] bcast_S_S8) main_c_0
def main_v11 (a1 : IVec S4x4096 32) :=
  (addi) (main_v9 a1) main_v10
def main_c_1 :=
  (constantI S_ 32 1#32)
def main_v12 :=
  (broadcastInDim S8 ![] bcast_S_S8) main_c_1
def main_v13 (a1 : IVec S4x4096 32) :=
  (subi) (main_v11 a1) main_v12
def main_c_2 :=
  (constantI S_ 32 1024#32)
def main_call0_v0 :=
  id main_c_2
def main_call0_v1 :=
  (broadcastInDim S8 ![] bcast_S_S8) main_call0_v0
def main_call0_v2 (a1 : IVec S4x4096 32) :=
  Host.divsi (main_v13 a1) main_call0_v1
def main_call0_v3 (a1 : IVec S4x4096 32) :=
  signi (main_v13 a1)
def main_call0_v4 :=
  signi main_call0_v0
def main_call0_v5 :=
  (broadcastInDim S8 ![] bcast_S_S8) main_call0_v4
def main_call0_v6 (a1 : IVec S4x4096 32) :=
  (cmpi .ne) (main_call0_v3 a1) main_call0_v5
def main_call0_v7 :=
  (broadcastInDim S8 ![] bcast_S_S8) main_call0_v0
def main_call0_v8 (a1 : IVec S4x4096 32) :=
  Host.remsi (main_v13 a1) main_call0_v7
def main_call0_c :=
  (constantI S_ 32 0#32)
def main_call0_v9 :=
  (broadcastInDim S8 ![] bcast_S_S8) main_call0_c
def main_call0_v10 (a1 : IVec S4x4096 32) :=
  (cmpi .ne) (main_call0_v8 a1) main_call0_v9
def main_call0_v11 (a1 : IVec S4x4096 32) :=
  andi (main_call0_v6 a1) (main_call0_v10 a1)
def main_call0_c_0 :=
  (constantI S_ 32 1#32)
def main_call0_v12 :=
  (broadcastInDim S8 ![] bcast_S_S8) main_call0_c_0
def main_call0_v13 (a1 : IVec S4x4096 32) :=
  subi (main_call0_v2 a1) main_call0_v12
def main_v14 (a1 : IVec S4x4096 32) :=
  select (main_call0_v11 a1) (main_call0_v13 a1) (main_call0_v2 a1)
def main_c_3 :=
  (constantI S_ 32 1024#32)
def main_v15 :=
  (broadcastInDim S8 ![] bcast_S_S8) main_c_3
def main_v16 (a1 : IVec S4x4096 32) :=
  (muli) (main_v14 a1) main_v15
def main_c_4 :=
  (constantI S_ 32 0#32)
def main_v17 :=
  (broadcastInDim S1 ![] bcast_S_S1) main_c_4
def main_call1_call0_c :=
  (constantI S_ 32 0#32)
def main_call1_call0_v0 :=
  (broadcastInDim S_ ![] bcast_S_S_) main_call1_call0_c
def main_v18 (a1 : IVec S4x4096 32) :=
  (fun x v => Host.reduceWindow IntOp.addi ![8] ![1] ![7] ![0] x v reduceWindows_S8_S8_w8s1p7_0 h_S_) (main_v9 a1) main_call1_call0_v0
def main_v19 (a1 : IVec S4x4096 32) :=
  ((fun a b => concatenate S9 0 [⟨S1, a⟩, ⟨S8, b⟩] concatenates_S1_S8_S9_d0)) main_v17 (main_v18 a1)
def main_v20 (a1 : IVec S4x4096 32) :=
  ((extractStridedSlice S8 ![0] · slices_S9_S8_0)) (main_v19 a1)
def main_c_5 :=
  (constantI S_ 32 0#32)
def main_v21 :=
  (broadcastInDim S1 ![] bcast_S_S1) main_c_5
def main_call2_call0_c :=
  (constantI S_ 32 0#32)
def main_call2_call0_v0 :=
  (broadcastInDim S_ ![] bcast_S_S_) main_call2_call0_c
def main_v22 (a1 : IVec S4x4096 32) :=
  (fun x v => Host.reduceWindow IntOp.addi ![8] ![1] ![7] ![0] x v reduceWindows_S8_S8_w8s1p7_0 h_S_) (main_v16 a1) main_call2_call0_v0
def main_v23 (a1 : IVec S4x4096 32) :=
  ((fun a b => concatenate S9 0 [⟨S1, a⟩, ⟨S8, b⟩] concatenates_S1_S8_S9_d0)) main_v21 (main_v22 a1)
def main_v24 (a1 : IVec S4x4096 32) :=
  ((extractStridedSlice S8 ![0] · slices_S9_S8_0)) (main_v23 a1)
def main_v25 (a1 : IVec S4x4096 32) :=
  (addi) (main_v24 a1) (main_v16 a1)
def main_call3_v0 :=
  (iotaInDim S16384 32 0)
def main_call3_v1_0 (a1 : IVec S4x4096 32) :=
  (fun x y => (Host.sort2 S16384 0 comparator_i32_i32_d0 x y).1) (main_v1 a1) main_call3_v0
def main_v26 (a1 : IVec S4x4096 32) :=
  (fun x y => (Host.sort2 S16384 0 comparator_i32_i32_d0 x y).2) (main_v1 a1) main_call3_v0
def main_c_6 :=
  (constantI S_ 32 0#32)
def main_v27 :=
  (broadcastInDim S16384 ![] bcast_S_S16384) main_c_6
def main_v28 (a1 : IVec S4x4096 32) :=
  (cmpi .slt) (main_v26 a1) main_v27
def main_c_7 :=
  (constantI S_ 32 16384#32)
def main_v29 :=
  (broadcastInDim S16384 ![] bcast_S_S16384) main_c_7
def main_v30 (a1 : IVec S4x4096 32) :=
  (addi) (main_v26 a1) main_v29
def main_v31 (a1 : IVec S4x4096 32) :=
  (select) (main_v28 a1) (main_v30 a1) (main_v26 a1)
def main_v32 (a1 : IVec S4x4096 32) :=
  (broadcastInDim S16384x1 ![0] bcast_S16384_S16384x1_0) (main_v31 a1)
def main_v33 (a1 : IVec S4x4096 32) :=
  ((fun x i => Host.gather gather_S16384_S16384x1_S16384_n_0_n_n_0_1_1 x i)) (main_v1 a1) (main_v32 a1)
def main_v34 :=
  (iotaInDim S16384 32 0)
def main_c_8 :=
  (constantI S_ 32 0#32)
def main_v35 :=
  (broadcastInDim S16384 ![] bcast_S_S16384) main_c_8
def main_v36 (a1 : IVec S4x4096 32) :=
  (cmpi .slt) (main_v33 a1) main_v35
def main_c_9 :=
  (constantI S_ 32 8#32)
def main_v37 :=
  (broadcastInDim S16384 ![] bcast_S_S16384) main_c_9
def main_v38 (a1 : IVec S4x4096 32) :=
  (addi) (main_v33 a1) main_v37
def main_v39 (a1 : IVec S4x4096 32) :=
  (select) (main_v36 a1) (main_v38 a1) (main_v33 a1)
def main_v40 (a1 : IVec S4x4096 32) :=
  (broadcastInDim S16384x1 ![0] bcast_S16384_S16384x1_0) (main_v39 a1)
def main_v41 (a1 : IVec S4x4096 32) :=
  ((fun x i => Host.gather gather_S8_S16384x1_S16384_n_0_n_n_0_1_1 x i)) (main_v20 a1) (main_v40 a1)
def main_v42 (a1 : IVec S4x4096 32) :=
  (subi) main_v34 (main_v41 a1)
def main_c_10 :=
  (constantI S_ 32 0#32)
def main_v43 :=
  (broadcastInDim S16384 ![] bcast_S_S16384) main_c_10
def main_v44 (a1 : IVec S4x4096 32) :=
  (cmpi .slt) (main_v33 a1) main_v43
def main_c_11 :=
  (constantI S_ 32 8#32)
def main_v45 :=
  (broadcastInDim S16384 ![] bcast_S_S16384) main_c_11
def main_v46 (a1 : IVec S4x4096 32) :=
  (addi) (main_v33 a1) main_v45
def main_v47 (a1 : IVec S4x4096 32) :=
  (select) (main_v44 a1) (main_v46 a1) (main_v33 a1)
def main_v48 (a1 : IVec S4x4096 32) :=
  (broadcastInDim S16384x1 ![0] bcast_S16384_S16384x1_0) (main_v47 a1)
def main_v49 (a1 : IVec S4x4096 32) :=
  ((fun x i => Host.gather gather_S8_S16384x1_S16384_n_0_n_n_0_1_1 x i)) (main_v24 a1) (main_v48 a1)
def main_v50 (a1 : IVec S4x4096 32) :=
  (addi) (main_v49 a1) (main_v42 a1)
def main_c_12 :=
  (constantI S_ 32 4294967295#32)
def main_v51 :=
  (broadcastInDim S24576 ![] bcast_S_S24576) main_c_12
def main_c_13 :=
  (constantI S_ 32 0#32)
def main_v52 :=
  (broadcastInDim S16384 ![] bcast_S_S16384) main_c_13
def main_v53 (a1 : IVec S4x4096 32) :=
  (cmpi .slt) (main_v50 a1) main_v52
def main_c_14 :=
  (constantI S_ 32 24576#32)
def main_v54 :=
  (broadcastInDim S16384 ![] bcast_S_S16384) main_c_14
def main_v55 (a1 : IVec S4x4096 32) :=
  (addi) (main_v50 a1) main_v54
def main_v56 (a1 : IVec S4x4096 32) :=
  (select) (main_v53 a1) (main_v55 a1) (main_v50 a1)
def main_v57 (a1 : IVec S4x4096 32) :=
  (broadcastInDim S16384x1 ![0] bcast_S16384_S16384x1_0) (main_v56 a1)
def main_v58 (a1 : IVec S4x4096 32) :=
  ((fun x i u => Host.scatter scatter_S24576_S16384x1_S16384_n_0_0_1 (fun _ b => b) x i u)) main_v51 (main_v57 a1) (main_v26 a1)
def main_c_15 :=
  (constantI S_ 32 0#32)
def main_v59 :=
  (broadcastInDim S24576 ![] bcast_S_S24576) main_c_15
def main_v60 (a1 : IVec S4x4096 32) :=
  (cmpi .slt) (main_v58 a1) main_v59
def main_c_16 :=
  (constantI S_ 32 0#32)
def main_call4_v0 :=
  id main_c_16
def main_call4_v1 :=
  (broadcastInDim S24576 ![] bcast_S_S24576) main_call4_v0
def main_v61 (a1 : IVec S4x4096 32) :=
  select (main_v60 a1) main_call4_v1 (main_v58 a1)
def main_v62 (a0 : FVec F S4x4096x1024 .f32) :=
  ((truncf .bf16 · bitsLt_bf16_f32)) (main_v0 a0)
def main_c_17 :=
  (constantI S_ 32 0#32)
def main_v63 :=
  (broadcastInDim S24576 ![] bcast_S_S24576) main_c_17
def main_v64 (a1 : IVec S4x4096 32) :=
  (cmpi .slt) (main_v61 a1) main_v63
def main_c_18 :=
  (constantI S_ 32 16384#32)
def main_v65 :=
  (broadcastInDim S24576 ![] bcast_S_S24576) main_c_18
def main_v66 (a1 : IVec S4x4096 32) :=
  (addi) (main_v61 a1) main_v65
def main_v67 (a1 : IVec S4x4096 32) :=
  (select) (main_v64 a1) (main_v66 a1) (main_v61 a1)
def main_v68 (a1 : IVec S4x4096 32) :=
  (broadcastInDim S24576x1 ![0] bcast_S24576_S24576x1_0) (main_v67 a1)
def main_v69 (a0 : FVec F S4x4096x1024 .f32) (a1 : IVec S4x4096 32) :=
  ((fun x i => Host.gather gather_S16384x1024_S24576x1_S24576x1024_1_0_n_n_0_1_11024 x i)) (main_v62 a0) (main_v68 a1)
def main_v70 :=
  (iotaInDim S24 32 0)
def main_c_19 :=
  (constantI S_ 32 1024#32)
def main_v71 :=
  (broadcastInDim S24 ![] bcast_S_S24) main_c_19
def main_v72 :=
  (muli) main_v70 main_v71
def main_v73 (a1 : IVec S4x4096 32) :=
  (broadcastInDim S1x8 ![1] bcast_S8_S1x8_1) (main_v25 a1)
def main_v74 :=
  (broadcastInDim S24x1 ![0] bcast_S24_S24x1_0) main_v72
def main_v75 (a1 : IVec S4x4096 32) :=
  (broadcastInDim S24x8 ![0, 1] bcast_S1x8_S24x8_0_1) (main_v73 a1)
def main_v76 :=
  (broadcastInDim S24x8 ![0, 1] bcast_S24x1_S24x8_0_1) main_v74
def main_v77 (a1 : IVec S4x4096 32) :=
  (cmpi .sle) (main_v75 a1) main_v76
def main_v78 (a1 : IVec S4x4096 32) :=
  ((extui 32 · natLt_1_32)) (main_v77 a1)
def main_c_20 :=
  (constantI S_ 32 0#32)
def main_v79 (a1 : IVec S4x4096 32) :=
  ((fun x v => Host.reduce IntOp.addi x v reducesTo_S24x8_S24_d1 h_S_)) (main_v78 a1) main_c_20
def main_c_21 :=
  (constantI S_ 32 7#32)
def main_v80 :=
  (broadcastInDim S24 ![] bcast_S_S24) main_c_21
def main_v81 (a1 : IVec S4x4096 32) :=
  (minsi) (main_v79 a1) main_v80
def main_c_22 :=
  (constantI S_ 32 0#32)
def main_v82 :=
  (broadcastInDim S16384 ![] bcast_S_S16384) main_c_22
def main_c_23 :=
  (constantI S_ 32 0#32)
def main_v83 :=
  (broadcastInDim S16384 ![] bcast_S_S16384) main_c_23
def main_v84 (a1 : IVec S4x4096 32) :=
  (cmpi .slt) (main_v26 a1) main_v83
def main_c_24 :=
  (constantI S_ 32 16384#32)
def main_v85 :=
  (broadcastInDim S16384 ![] bcast_S_S16384) main_c_24
def main_v86 (a1 : IVec S4x4096 32) :=
  (addi) (main_v26 a1) main_v85
def main_v87 (a1 : IVec S4x4096 32) :=
  (select) (main_v84 a1) (main_v86 a1) (main_v26 a1)
def main_v88 (a1 : IVec S4x4096 32) :=
  (broadcastInDim S16384x1 ![0] bcast_S16384_S16384x1_0) (main_v87 a1)
def main_v89 (a1 : IVec S4x4096 32) :=
  ((fun x i u => Host.scatter scatter_S16384_S16384x1_S16384_n_0_0_1 (fun _ b => b) x i u)) main_v82 (main_v88 a1) (main_v50 a1)
def main_v90 (a2 : FVec F S8x1024x1024 .f32) :=
  ((truncf .bf16 · bitsLt_bf16_f32)) a2
def main_v91 (a3 : FVec F S8x1024 .f32) :=
  fun i => shapeCast S8x1x1024 a3 shapeCasts_S8x1024_S8x1x1024 i

end Cert.KernelIdeal.Stg

end
-- ==== Proof.LibGroupedPlacement.lean ====
import Mathlib

/-!
# Grouped placement: pure combinatorics

Tokens `i : Fin n` carry a type `ty i`.  A sorted order `σ` lists the tokens by
non-decreasing type.  Each type's run of `cnt t` tokens is padded up to a multiple
`pc t` of a tile size `tm`; the padded runs are laid out one after another, the run of
type `t` occupying the slots `[ps t, pe t)`.  Token number `j` of the sorted order is
sent to slot `dest j = ps τ + (j - us τ)` with `τ = ty (σ j)`, where `us τ` is the
number of tokens of type `< τ`.
-/

namespace Cert.Grouped

open Finset

variable {n : ℕ}

/-- Number of tokens of type `t`. -/
def cnt (ty : Fin n → ℕ) (t : ℕ) : ℕ := (Finset.univ.filter (fun i : Fin n => ty i = t)).card

/-- The count of type `t` rounded up to a multiple of `tm`. -/
def pc (ty : Fin n → ℕ) (tm t : ℕ) : ℕ := (cnt ty t + tm - 1) / tm * tm

/-- Unpadded start of type `t`: the number of tokens of type `< t`. -/
def us (ty : Fin n → ℕ) (t : ℕ) : ℕ := ∑ s ∈ Finset.range t, cnt ty s

/-- Padded start of type `t`. -/
def ps (ty : Fin n → ℕ) (tm t : ℕ) : ℕ := ∑ s ∈ Finset.range t, pc ty tm s

/-- Padded end of type `t`. -/
def pe (ty : Fin n → ℕ) (tm t : ℕ) : ℕ := ps ty tm t + pc ty tm t

/-- Padded slot of the `j`-th token of the sorted order. -/
def dest (ty : Fin n → ℕ) (tm : ℕ) (σ : Fin n → Fin n) (j : Fin n) : ℕ :=
  ps ty tm (ty (σ j)) + (j.val - us ty (ty (σ j)))

/-! ### Bounds on counts and starts -/

/-- `us (t+1) = us t + cnt t`. -/
theorem us_succ (ty : Fin n → ℕ) (t : ℕ) : us ty (t + 1) = us ty t + cnt ty t :=
  Finset.sum_range_succ _ _

/-- The padded start of `t+1` is the padded end of `t`. -/
theorem ps_succ (ty : Fin n → ℕ) (tm t : ℕ) : ps ty tm (t + 1) = pe ty tm t :=
  Finset.sum_range_succ _ _

/-- A type has at most `n` tokens. -/
theorem cnt_le (ty : Fin n → ℕ) (t : ℕ) : cnt ty t ≤ n :=
  (Finset.card_le_univ _).trans_eq (Fintype.card_fin n)

/-- `us t` is the number of tokens of type `< t` (the fibres of `ty` over `[0,t)` are
disjoint and their union is `{i | ty i < t}`). -/
theorem us_eq_card (ty : Fin n → ℕ) (t : ℕ) :
    us ty t = (Finset.univ.filter (fun i : Fin n => ty i < t)).card := by
  induction t with
  | zero => simp [us]
  | succ t ih =>
    rw [us_succ, ih, cnt, ← Finset.card_union_of_disjoint]
    · congr 1; ext i
      simp only [Finset.mem_filter, Finset.mem_univ, true_and, Finset.mem_union]; omega
    · rw [Finset.disjoint_filter]; intro i _ h1 h2; omega

/-- At most `n` tokens have type `< t`. -/
theorem us_le (ty : Fin n → ℕ) (t : ℕ) : us ty t ≤ n := by
  rw [us_eq_card]; exact (Finset.card_le_univ _).trans_eq (Fintype.card_fin n)

/-- The padded count is a multiple of the tile size. -/
theorem dvd_pc (ty : Fin n → ℕ) (tm t : ℕ) : tm ∣ pc ty tm t := Dvd.intro_left _ rfl

/-- Rounding up does not decrease the count. -/
theorem le_pc (ty : Fin n → ℕ) {tm : ℕ} (htm : 0 < tm) (t : ℕ) : cnt ty t ≤ pc ty tm t := by
  unfold pc
  have h1 := Nat.div_add_mod' (cnt ty t + tm - 1) tm
  have h2 := Nat.mod_lt (cnt ty t + tm - 1) htm
  omega

/-- Rounding up adds less than one tile. -/
theorem pc_le (ty : Fin n → ℕ) (tm t : ℕ) : pc ty tm t ≤ cnt ty t + tm - 1 :=
  Nat.div_mul_le_self _ _

/-- Padding adds at most `tm - 1` per type. -/
theorem ps_le (ty : Fin n → ℕ) (tm t : ℕ) : ps ty tm t ≤ us ty t + t * (tm - 1) := by
  induction t with
  | zero => simp [ps]
  | succ t ih =>
    have h := pc_le ty tm t
    rw [ps_succ, us_succ, pe, Nat.succ_mul]; omega

/-- Every padded start is a multiple of the tile size. -/
theorem dvd_ps (ty : Fin n → ℕ) (tm t : ℕ) : tm ∣ ps ty tm t :=
  Finset.dvd_sum (fun s _ => dvd_pc ty tm s)

/-- Padded starts are monotone. -/
theorem ps_mono (ty : Fin n → ℕ) (tm : ℕ) {t t' : ℕ} (h : t ≤ t') : ps ty tm t ≤ ps ty tm t' :=
  Finset.sum_le_sum_of_subset (Finset.range_mono h)

/-- The padded run of `t` ends before the run of any later type starts. -/
theorem pe_le_ps (ty : Fin n → ℕ) (tm : ℕ) {t t' : ℕ} (h : t < t') : pe ty tm t ≤ ps ty tm t' := by
  rw [← ps_succ]; exact ps_mono ty tm h

/-- A padded run starts no later than it ends. -/
theorem ps_le_pe (ty : Fin n → ℕ) (tm t : ℕ) : ps ty tm t ≤ pe ty tm t := Nat.le_add_right _ _

/-- Padded ends are monotone. -/
theorem pe_mono (ty : Fin n → ℕ) (tm : ℕ) {t t' : ℕ} (h : t ≤ t') : pe ty tm t ≤ pe ty tm t' := by
  rcases h.eq_or_lt with rfl | h
  · exact le_rfl
  · exact (pe_le_ps ty tm h).trans (ps_le_pe ty tm t')

/-- With `T` types the whole padded layout fits in `n + T * (tm - 1)` slots. -/
theorem pe_le_bound' (ty : Fin n → ℕ) (tm : ℕ) {t T : ℕ} (h : t < T) :
    pe ty tm t ≤ n + T * (tm - 1) := by
  rw [← ps_succ]
  have h1 := ps_le ty tm (t + 1)
  have h2 := us_le ty (t + 1)
  have h3 : (t + 1) * (tm - 1) ≤ T * (tm - 1) := Nat.mul_le_mul_right _ h
  omega

/-- With `T` types the whole padded layout fits in `n + T * tm` slots. -/
theorem pe_le_bound (ty : Fin n → ℕ) (tm : ℕ) {t T : ℕ} (h : t < T) :
    pe ty tm t ≤ n + T * tm :=
  (pe_le_bound' ty tm h).trans (Nat.add_le_add_left (Nat.mul_le_mul_left _ (Nat.sub_le _ _)) _)

/-! ### Position of a token inside its type's run -/

/-- A bijection preserves the number of points satisfying a predicate. -/
theorem card_filter_comp (σ : Fin n → Fin n) (hσ : Function.Bijective σ) (p : Fin n → Prop)
    [DecidablePred p] :
    (Finset.univ.filter (fun j => p (σ j))).card = (Finset.univ.filter p).card := by
  rw [Finset.card_filter, Finset.card_filter]
  exact hσ.sum_comp (fun i => if p i then 1 else 0)

/-- There are `j` positions below `j`. -/
theorem card_lt (j : Fin n) : (Finset.univ.filter (fun j' : Fin n => j' < j)).card = j.val := by
  rw [← Fin.card_Iio j]; congr 1; ext; simp

/-- There are `j + 1` positions up to `j`. -/
theorem card_le (j : Fin n) : (Finset.univ.filter (fun j' : Fin n => j' ≤ j)).card = j.val + 1 := by
  rw [← Fin.card_Iic j]; congr 1; ext; simp

/-- In a sorted order, position `j` lies inside the run of its type `τ = ty (σ j)`:
the positions of type `< τ` form an initial segment not containing `j`, and there are
`us τ` of them because `σ` is a bijection; the positions of type `≤ τ` form an initial
segment containing `j`, and there are `us τ + cnt τ` of them. -/
theorem sorted_pos (ty : Fin n → ℕ) (σ : Fin n → Fin n) (hσ : Function.Bijective σ)
    (hmono : ∀ j j' : Fin n, j ≤ j' → ty (σ j) ≤ ty (σ j')) (j : Fin n) :
    us ty (ty (σ j)) ≤ j.val ∧ j.val < us ty (ty (σ j)) + cnt ty (ty (σ j)) := by
  constructor
  · calc us ty (ty (σ j))
        = (Finset.univ.filter (fun j' : Fin n => ty (σ j') < ty (σ j))).card := by
          rw [us_eq_card]; exact (card_filter_comp σ hσ (fun i => ty i < ty (σ j))).symm
      _ ≤ (Finset.univ.filter (fun j' : Fin n => j' < j)).card := by
          apply Finset.card_le_card
          intro j' hj'
          simp only [Finset.mem_filter, Finset.mem_univ, true_and] at hj' ⊢
          by_contra hc
          exact absurd (hmono j j' (not_lt.mp hc)) (not_le.mpr hj')
      _ = j.val := card_lt j
  · have h : j.val + 1 ≤ us ty (ty (σ j)) + cnt ty (ty (σ j)) := by
      calc j.val + 1 = (Finset.univ.filter (fun j' : Fin n => j' ≤ j)).card := (card_le j).symm
        _ ≤ (Finset.univ.filter (fun j' : Fin n => ty (σ j') < ty (σ j) + 1)).card := by
          apply Finset.card_le_card
          intro j' hj'
          simp only [Finset.mem_filter, Finset.mem_univ, true_and] at hj' ⊢
          exact Nat.lt_succ_of_le (hmono j' j hj')
        _ = us ty (ty (σ j) + 1) := by
          rw [us_eq_card]; exact card_filter_comp σ hσ (fun i => ty i < ty (σ j) + 1)
        _ = us ty (ty (σ j)) + cnt ty (ty (σ j)) := us_succ ty _
    omega

/-! ### The destination slot -/

/-- The slot of `j` is not before the padded start of its type. -/
theorem ps_le_dest (ty : Fin n → ℕ) (tm : ℕ) (σ : Fin n → Fin n) (j : Fin n) :
    ps ty tm (ty (σ j)) ≤ dest ty tm σ j := Nat.le_add_right _ _

/-- The slot of `j` is inside the unpadded part of its type's run. -/
theorem dest_lt_ps_add_cnt (ty : Fin n → ℕ) (tm : ℕ) (σ : Fin n → Fin n)
    (hσ : Function.Bijective σ) (hmono : ∀ j j' : Fin n, j ≤ j' → ty (σ j) ≤ ty (σ j'))
    (j : Fin n) : dest ty tm σ j < ps ty tm (ty (σ j)) + cnt ty (ty (σ j)) := by
  have h := sorted_pos ty σ hσ hmono j
  unfold dest; omega

/-- The slot of `j` is before the padded end of its type. -/
theorem dest_lt_pe (ty : Fin n → ℕ) {tm : ℕ} (htm : 0 < tm) (σ : Fin n → Fin n)
    (hσ : Function.Bijective σ) (hmono : ∀ j j' : Fin n, j ≤ j' → ty (σ j) ≤ ty (σ j'))
    (j : Fin n) : dest ty tm σ j < pe ty tm (ty (σ j)) := by
  have h := dest_lt_ps_add_cnt ty tm σ hσ hmono j
  have h2 := le_pc ty htm (ty (σ j))
  unfold pe; omega

/-- Every slot lies in `[0, n + T * tm)`. -/
theorem dest_lt (ty : Fin n → ℕ) {T tm : ℕ} (htm : 0 < tm) (hty : ∀ i, ty i < T)
    (σ : Fin n → Fin n) (hσ : Function.Bijective σ)
    (hmono : ∀ j j' : Fin n, j ≤ j' → ty (σ j) ≤ ty (σ j')) (j : Fin n) :
    dest ty tm σ j < n + T * tm :=
  (dest_lt_pe ty htm σ hσ hmono j).trans_le (pe_le_bound ty tm (hty (σ j)))

/-- Distinct positions get distinct slots: runs of different types are disjoint, and
inside one run the slot is the padded start plus the offset in the run. -/
theorem dest_injective (ty : Fin n → ℕ) {tm : ℕ} (htm : 0 < tm) (σ : Fin n → Fin n)
    (hσ : Function.Bijective σ) (hmono : ∀ j j' : Fin n, j ≤ j' → ty (σ j) ≤ ty (σ j')) :
    Function.Injective (dest ty tm σ) := by
  intro j j' h
  have key : ∀ a b : Fin n, ty (σ a) < ty (σ b) → dest ty tm σ a < dest ty tm σ b :=
    fun a b hab => (dest_lt_pe ty htm σ hσ hmono a).trans_le
      ((pe_le_ps ty tm hab).trans (ps_le_dest ty tm σ b))
  rcases lt_trichotomy (ty (σ j)) (ty (σ j')) with hlt | heq | hgt
  · exact absurd h (key j j' hlt).ne
  · have h1 := (sorted_pos ty σ hσ hmono j).1
    have h2 := (sorted_pos ty σ hσ hmono j').1
    simp only [dest, heq] at h
    rw [heq] at h1
    exact Fin.ext (by omega)
  · exact absurd h (key j' j hgt).ne'

/-- The type of the tile containing the slot of `j`: the number of types whose padded
end is at most the tile's first slot `tm * (dest j / tm)` is exactly `ty (σ j)`.
Indeed `ps τ` is a multiple of `tm` and `ps τ ≤ dest j < pe τ`, so the tile's first slot
lies in `[ps τ, pe τ)`; `pe t ≤ ps τ` for `t < τ` and `pe t ≥ pe τ` for `t ≥ τ`. -/
theorem tile_type (ty : Fin n → ℕ) {T tm : ℕ} (htm : 0 < tm) (hty : ∀ i, ty i < T)
    (σ : Fin n → Fin n) (hσ : Function.Bijective σ)
    (hmono : ∀ j j' : Fin n, j ≤ j' → ty (σ j) ≤ ty (σ j')) (j : Fin n) :
    ((Finset.range T).filter (fun t => pe ty tm t ≤ tm * (dest ty tm σ j / tm))).card
      = ty (σ j) := by
  have hfilt : (Finset.range T).filter (fun t => pe ty tm t ≤ tm * (dest ty tm σ j / tm))
      = Finset.range (ty (σ j)) := by
    ext t
    simp only [Finset.mem_filter, Finset.mem_range]
    constructor
    · rintro ⟨_, h⟩
      by_contra hc
      have h1 := pe_mono ty tm (not_lt.mp hc)
      have h2 := dest_lt_pe ty htm σ hσ hmono j
      have h3 := Nat.mul_div_le (dest ty tm σ j) tm
      omega
    · intro h
      refine ⟨h.trans (hty _), ?_⟩
      obtain ⟨k, hk⟩ := dvd_ps ty tm (ty (σ j))
      have h1 := pe_le_ps ty tm h
      have h2 := ps_le_dest ty tm σ j
      rw [hk] at h1 h2
      exact h1.trans (Nat.mul_le_mul_left _
        ((Nat.le_div_iff_mul_le htm).mpr (by rw [Nat.mul_comm]; exact h2)))
  rw [hfilt, Finset.card_range]

end Cert.Grouped
-- ==== Proof.Tokens.lean ====
/-
  The tokens' types as natural numbers. The type array [4, 4096] is read flat, token i = 4096·b + s, and under the
  precondition every type word is a natural number below 8.
-/
import proofs.«167811_j5703716569224_2_alg».proof.Proof.Stages
import proofs.«167811_j5703716569224_2_alg».proof.Proof.LibGroupedPlacement
import Idealize.ShloMosaic.Lib.ValueIdx
import Idealize.ShloMosaic.Lib.Pipeline.Value

noncomputable section

namespace Cert.KernelIdeal.Tok

open Cert.KernelIdeal Cert.KernelIdeal.Gen Idealize.ShloMosaic Idealize.ShloMosaic.ValueIdx

/-- Token i's type, as a natural number. -/
def tyN (a1 : IVec S4x4096 32) (i : Fin 16384) : ℕ := (Stg.main_v1 a1 (ix1 i)).toNat

/-- Every type word is a natural number below 8. -/
def InRange (a1 : IVec S4x4096 32) : Prop := ∀ i : S4x4096.Idx, (a1 i).toNat < 8

/-- The flat type array at token 4096·b + s is the type array at (b, s). -/
theorem v1_apply (a1 : IVec S4x4096 32) (b : Fin 4) (s : Fin 4096) (h : 4096 * b.val + s.val < 16384) :
    Stg.main_v1 a1 (ix1 ⟨4096 * b.val + s.val, h⟩) = a1 (ix2 b s) := by
  unfold Stg.main_v1
  refine shapeCast_apply a1 _ _ (ix2 b s) ?_
  rw [Shape.rowMajor_val_two, Shape.rowMajor_val_one]
  show b.val * 4096 + s.val = 4096 * b.val + s.val
  omega

theorem tyN_lt {a1 : IVec S4x4096 32} (h : InRange a1) (i : Fin 16384) : tyN a1 i < 8 := by
  unfold tyN Stg.main_v1 shapeCast
  exact h _

end Cert.KernelIdeal.Tok

end
-- ==== Proof.LibArgsort.lean ====
/-
  The index table an argsort returns.  A stable sort of a rank-1 array of n keys that carries the table
  0, 1, …, n − 1 along returns, in the carried table, a permutation of the positions: entry k is the word of
  σ k for one bijection σ of Fin n (the position whose key lands at k), whatever the comparator is.
-/
import Idealize.ShloMosaic.Lib.SortFacts
import Idealize.ShloMosaic.Lib.ValueIdx

noncomputable section

namespace Cert.Argsort

open Idealize.ShloMosaic Idealize.ShloMosaic.ValueIdx

variable {n : Nat} {α : Type}

/-- The position whose key the stable sort puts at k: `sortedFrom` of the comparator on the pairs (key, position). -/
def src (cmp : α × BitVec 32 → α × BitVec 32 → BitVec 1) (keys : (⟨1, ![n]⟩ : Shape).Idx → α) (k : Fin n) : Fin n :=
  sortedFrom (fun a b : Fin n => cmp (keys (Shape.Idx.ofFin a), BitVec.ofNat 32 a.val)
    (keys (Shape.Idx.ofFin b), BitVec.ofNat 32 b.val) == 1#1) k

/-- It is a bijection of the positions. -/
theorem src_bijective (cmp : α × BitVec 32 → α × BitVec 32 → BitVec 1) (keys : (⟨1, ![n]⟩ : Shape).Idx → α) :
    Function.Bijective (src cmp keys) :=
  ⟨sortedFrom_injective _, sortedFrom_surjective _⟩

/-- On a rank-1 shape, replacing the one coordinate of any index by k gives the index at k. -/
theorem along_zero (j : (⟨1, ![n]⟩ : Shape).Idx) (h : 0 < (⟨1, ![n]⟩ : Shape).rank) (k : Fin n) :
    j.along ⟨0, h⟩ k = Shape.Idx.ofFin k := Shape.Idx.along_rank1 j k

/-- THE ARGSORT'S TABLE at position k: the word of `src k`. -/
theorem argsort_apply (cmp : α × BitVec 32 → α × BitVec 32 → BitVec 1) (keys : (⟨1, ![n]⟩ : Shape).Idx → α)
    (j : (⟨1, ![n]⟩ : Shape).Idx) :
    (Host.sort2 ⟨1, ![n]⟩ 0 cmp keys (iotaInDim ⟨1, ![n]⟩ 32 0)).2 j = BitVec.ofNat 32 (src cmp keys (j 0)).val := by
  unfold Host.sort2
  rw [dif_pos (show 0 < (⟨1, ![n]⟩ : Shape).rank from Nat.one_pos)]
  show BitVec.ofNat 32 ((j.along ⟨0, Nat.one_pos⟩ (sortedFrom (fun k k' : Fin n =>
      cmp (keys (j.along ⟨0, Nat.one_pos⟩ k), BitVec.ofNat 32 ((j.along ⟨0, Nat.one_pos⟩ k) 0).val)
        (keys (j.along ⟨0, Nat.one_pos⟩ k'), BitVec.ofNat 32 ((j.along ⟨0, Nat.one_pos⟩ k') 0).val) == 1#1) (j 0))) 0).val = _
  simp only [along_zero, Shape.Idx.ofFin_zero]
  rfl

end Cert.Argsort

end
-- ==== Proof.LibScatter.lean ====
/-
  A host scatter read at one index.

  `Host.scatter d f x idx upd` is the left fold, over the update indices in row-major order, of the step
  "replace the element at the update's landing index by `f` of it and the update". Read at one operand
  index `i` the fold only sees the updates that land on `i`; when at most one does, the result there is
  `f (x i) (upd j)` for that one update `j`, or `x i` when none lands. Where an update lands
  (`ScatterDims.resultIdx?`) is, coordinate by coordinate, its start plus its window coordinate.
-/
import Idealize.ShloMosaic.PureOps

namespace Idealize.ShloMosaic

/-! ## A fold of pointwise overwrites, read at one index -/

section Fold

variable {ι κ α : Type} (g : ι → Option κ) (f : α → α → α) (v : ι → α)
  (step : (κ → α) → ι → (κ → α)) (i : κ)

/-- A fold of steps none of which touches `i` leaves the value at `i`. -/
theorem foldl_overwrite_miss (hmiss : ∀ r n, g n ≠ some i → step r n i = r i) :
    ∀ (l : List ι) (r : κ → α), (∀ n ∈ l, g n ≠ some i) → l.foldl step r i = r i
  | [], _, _ => rfl
  | a :: l, r, h => by
    rw [List.foldl_cons, foldl_overwrite_miss hmiss l (step r a) fun n hn => h n (List.mem_cons_of_mem _ hn)]
    exact hmiss r a (h a List.mem_cons_self)

/-- A fold over a list without repetitions in which exactly one step, `n`, touches `i`: the value at `i`
    is that step's. -/
theorem foldl_overwrite_hit (hmiss : ∀ r n, g n ≠ some i → step r n i = r i)
    (hhit : ∀ r n, g n = some i → step r n i = f (r i) (v n)) (n : ι) (hn : g n = some i) :
    ∀ (l : List ι) (r : κ → α), l.Nodup → n ∈ l → (∀ n' ∈ l, g n' = some i → n' = n) →
      l.foldl step r i = f (r i) (v n)
  | [], _, _, hmem, _ => absurd hmem List.not_mem_nil
  | a :: l, r, hnd, hmem, huniq => by
    rw [List.foldl_cons]
    by_cases ha : a = n
    · subst ha
      have hnot : a ∉ l := (List.nodup_cons.mp hnd).1
      rw [foldl_overwrite_miss g step i hmiss l (step r a) fun n' hn' hg =>
        hnot (huniq n' (List.mem_cons_of_mem _ hn') hg ▸ hn')]
      exact hhit r a hn
    · have hga : g a ≠ some i := fun hg => ha (huniq a List.mem_cons_self hg)
      have hmem' : n ∈ l := (List.mem_cons.mp hmem).resolve_left fun e => ha e.symm
      rw [foldl_overwrite_hit hmiss hhit n hn l (step r a) (List.nodup_cons.mp hnd).2 hmem'
        fun n' hn' => huniq n' (List.mem_cons_of_mem _ hn'), hmiss r a hga]

end Fold

/-! ## The host scatter at an index -/

namespace Host

variable {s si u : Shape} {α : Type} {w : Nat}

/-- The scatter's step leaves an index the update does not land on. -/
private theorem scatter_step_miss (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  generalize d.resultIdx? (u.rowMajor.symm n) idx = o at h
  cases o with
  | none => rfl
  | some k =>
    have hne : i ≠ k := fun e => h (congrArg some e.symm)
    dsimp only
    exact if_neg hne

/-- The scatter's step at the index the update lands on. -/
private theorem scatter_step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then f (r k) (upd (u.rowMajor.symm n)) else r i'
      | none => r) i = f (r i) (upd (u.rowMajor.symm n)) := by
  generalize d.resultIdx? (u.rowMajor.symm n) idx = o at h
  cases o with
  | none => exact absurd h (by simp)
  | some k =>
    have hk : k = i := Option.some.inj h
    subst hk
    dsimp only
    exact if_pos rfl

/-- No update lands on `i`: the scatter leaves the operand's element. -/
theorem scatter_apply_of_miss (d : ScatterDims s si u) (f : α → α → α) (x : s.Idx → α) (idx : IVec si w) (upd : u.Idx → α)
    (i : s.Idx) (hmiss : ∀ j, d.resultIdx? j idx ≠ some i) : Host.scatter d f x idx upd i = x i := by
  unfold Host.scatter
  exact foldl_overwrite_miss (fun n => d.resultIdx? (u.rowMajor.symm n) idx) _ i
    (fun r n h => scatter_step_miss d f idx upd i r n h) _ x fun n _ => hmiss _

/-- Exactly one update, `j`, lands on `i`: the scatter's element there is `f` of the operand's and that update. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  have hn : d.resultIdx? (u.rowMajor.symm (u.rowMajor j)) idx = some i := by rw [Equiv.symm_apply_apply]; exact hj
  have h := foldl_overwrite_hit (fun n => d.resultIdx? (u.rowMajor.symm n) idx) f (fun n => upd (u.rowMajor.symm n)) _ i
    (fun r n h => scatter_step_miss d f idx upd i r n h) (fun r n h => scatter_step_hit d f idx upd i r n h)
    (u.rowMajor j) hn (List.finRange u.numel) x (List.nodup_finRange _) (List.mem_finRange _)
    (fun n' _ hg => (Equiv.symm_apply_eq _).mp (huniq _ hg))
  exact h.trans (by rw [Equiv.symm_apply_apply])

end Host

/-! ## Where an update lands -/

namespace ScatterDims

variable {s si u : Shape} (d : ScatterDims s si u) {w : Nat}

/-- Update `j` lands on `i` exactly when, on every operand axis, `i`'s coordinate is the start plus the
    window coordinate. -/
theorem resultIdx?_eq_some_iff (j : u.Idx) (idx : IVec si w) (i : s.Idx) :
    d.resultIdx? j idx = some i ↔ ∀ a, ((i a).val : Int) = d.start j idx a + d.window j a := by
  unfold resultIdx?
  constructor
  · intro h a
    split at h
    · rename_i hb
      have e := congrFun (Option.some.inj h) a
      have e' : (d.start j idx a + ↑(d.window j a)).toNat = (i a).val := congrArg Fin.val e
      have := (hb a).1
      omega
    · exact absurd h (by simp)
  · intro h
    have hb : ∀ a, 0 ≤ d.start j idx a + ↑(d.window j a) ∧ d.start j idx a + ↑(d.window j a) < ↑(s.size a) := fun a => by
      have := h a; have := (i a).isLt; omega
    rw [dif_pos hb]
    refine congrArg some (funext fun a => Fin.ext ?_)
    show (d.start j idx a + ↑(d.window j a)).toNat = (i a).val
    have := h a; omega

end ScatterDims

end Idealize.ShloMosaic
-- ==== Proof.LibEdges.lean ====
/-
  Gathers and accumulating scatters along the node axis, read at an index.

  An array of `E` node numbers (signed 32-bit words, as an `[E, 1]` column of start indices) selects rows of a
  node-indexed operand (`[N]` or `[N, C]`): a gather reads the operand at the number clamped into `[0, N − 1]`;
  an accumulating scatter adds update `e` to the operand's row whose number IS the word read signed, and drops it
  when that is no row. At the extended reals the accumulating scatter at row `n` is the operand's entry plus the sum
  over all `e` of the updates whose number is `n`.
-/
import Idealize.ShloMosaic.Lib.ValueIdx
import Idealize.ShloMosaic.PureOps.Ideal.Laws
import proofs.«167811_j5703716569224_2_alg».proof.Proof.LibScatter

noncomputable section

open scoped BigOperators

namespace Cert.Edges

open Idealize.ShloMosaic Idealize.ShloMosaic.ValueIdx

variable {α : Type}

/-! ## Gathers -/

/-- Rows of an `[N, C]` operand selected by `E` start indices. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an `[N]` operand selected by `E` start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A word read signed and clamped into `[0, N − 1]`: the row a gather reads. -/
def clampRow (N : Nat) (hN : 0 < N) (v : BitVec 32) : Fin N := ⟨min v.toInt.toNat (N - 1), by omega⟩

/-- Entry `(e, f)` of the gathered rows is the operand's entry `f` in the row start index `e` names. -/
theorem rowsGather_apply {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (f : Fin C) :
    Host.gather (rowsGather N C E wf) x idx (ix2 e f) = x (ix2 (clampRow N hN (idx (ix2 e 0))) f) := by
  unfold Host.gather
  congr 1
  funext a
  refine Fin.ext ?_
  have hsi : (rowsGather N C E wf).siIdx (ix2 e f) ⟨List.idxOf (0 : Fin 2) (rowsGather N C E wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowsGather N C E wf).start (ix2 e f) idx 0 + (rowsGather N C E wf).batchCoord (ix2 e f) 0
      + (rowsGather N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl), hsi]
    rfl
  | ⟨1, _⟩ =>
    show (rowsGather N C E wf).start (ix2 e f) idx 1 + (rowsGather N C E wf).batchCoord (ix2 e f) 1
      + (rowsGather N C E wf).offCoord (ix2 e f) 1 = f.val
    rw [GatherDims.batchCoord_eq_zero _ _ _ List.not_mem_nil]
    have hs : (rowsGather N C E wf).start (ix2 e f) idx 1 = 0 := by
      unfold GatherDims.start
      rw [dif_neg (show (1 : Fin 2) ∉ ([0] : List (Fin 2)) by decide)]
    rw [hs]
    simp only [Nat.add_zero, Nat.zero_add]
    rfl

/-- Entry `e` of the gathered vector is the operand's entry that start index `e` names. -/
theorem vecGather_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Accumulating scatters -/

/-- Updates `[E, C]` added into rows of an `[N, C]` operand. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Updates `[E]` added into entries of an `[N]` operand. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `(e, f)` lands on `(n, g)` exactly when index `e`, read signed, is `n`, and `f = g`. -/
theorem rowsScatter_lands {N C E : Nat} (wf : ScatterDims.WF ⟨2, ![N, C]⟩ ⟨2, ![E, 1]⟩ ⟨2, ![E, C]⟩ [1] [0] [0] 1)
    (idx : IVec ⟨2, ![E, 1]⟩ 32) (e : Fin E) (f : Fin C) (n : Fin N) (g : Fin C) :
    (rowsScatter N C E wf).resultIdx? (ix2 e f) idx = some (ix2 n g) ↔ (idx (ix2 e 0)).toInt = (n.val : ℤ) ∧ f = g := by
  rw [ScatterDims.resultIdx?_eq_some_iff]
  have hsi : (rowsScatter N C E wf).siIdx (ix2 e f) ⟨List.idxOf (0 : Fin 2) (rowsScatter N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (rowsScatter N C E wf).start (ix2 e f) idx 0 = (idx (ix2 e 0)).toInt := by
    unfold ScatterDims.start
    rw [dif_pos (show (0 : Fin 2) ∈ (rowsScatter N C E wf).scatterDimsToOperandDims from List.mem_singleton.mpr rfl), hsi]
  have h1 : (rowsScatter N C E wf).start (ix2 e f) idx 1 = 0 := by
    unfold ScatterDims.start
    rw [dif_neg (show (1 : Fin 2) ∉ ([0] : List (Fin 2)) by decide)]
  have w0 : (rowsScatter N C E wf).window (ix2 e f) 0 = 0 := by
    unfold ScatterDims.window
    have hm : (0 : Fin 2) ∉ (rowsScatter N C E wf).sKept := by
      show (0 : Fin 2) ∉ (List.finRange 2).filter (fun a => a ∉ ([0] : List (Fin 2)))
      decide
    rw [dif_neg hm]
  have w1 : (rowsScatter N C E wf).window (ix2 e f) 1 = f.val := by
    unfold ScatterDims.window
    have hm : (1 : Fin 2) ∈ (rowsScatter N C E wf).sKept := by
      show (1 : Fin 2) ∈ (List.finRange 2).filter (fun a => a ∉ ([0] : List (Fin 2)))
      decide
    rw [dif_pos hm]
    rfl
  constructor
  · intro h
    have a0 : (n.val : ℤ) = (rowsScatter N C E wf).start (ix2 e f) idx 0 + ((rowsScatter N C E wf).window (ix2 e f) 0 : ℕ) := h 0
    have a1 : (g.val : ℤ) = (rowsScatter N C E wf).start (ix2 e f) idx 1 + ((rowsScatter N C E wf).window (ix2 e f) 1 : ℕ) := h 1
    rw [h0, w0] at a0
    rw [h1, w1] at a1
    exact ⟨by omega, Fin.ext (by omega)⟩
  · rintro ⟨hn, rfl⟩ a
    match a with
    | ⟨0, _⟩ =>
      show (n.val : ℤ) = (rowsScatter N C E wf).start (ix2 e f) idx 0 + ((rowsScatter N C E wf).window (ix2 e f) 0 : ℕ)
      rw [h0, w0, hn]; simp
    | ⟨1, _⟩ =>
      show (f.val : ℤ) = (rowsScatter N C E wf).start (ix2 e f) idx 1 + ((rowsScatter N C E wf).window (ix2 e f) 1 : ℕ)
      rw [h1, w1]; simp

/-- Update `e` lands on entry `n` exactly when index `e`, read signed, is `n`. -/
theorem vecScatter_lands {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (vecScatter N E wf).resultIdx? (ix1 e) idx = some (ix1 n) ↔ (idx (ix2 e 0)).toInt = (n.val : ℤ) := by
  rw [ScatterDims.resultIdx?_eq_some_iff]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (vecScatter N E wf).start (ix1 e) idx 0 = (idx (ix2 e 0)).toInt := by
    unfold ScatterDims.start
    rw [dif_pos (show (0 : Fin 1) ∈ (vecScatter N E wf).scatterDimsToOperandDims from List.mem_singleton.mpr rfl), hsi]
  have w0 : (vecScatter N E wf).window (ix1 e) 0 = 0 := by
    unfold ScatterDims.window
    have hm : (0 : Fin 1) ∉ (vecScatter N E wf).sKept := by
      show (0 : Fin 1) ∉ (List.finRange 1).filter (fun a => a ∉ ([0] : List (Fin 1)))
      decide
    rw [dif_neg hm]
  constructor
  · intro h
    have a0 : (n.val : ℤ) = (vecScatter N E wf).start (ix1 e) idx 0 + ((vecScatter N E wf).window (ix1 e) 0 : ℕ) := h 0
    rw [h0, w0] at a0
    omega
  · intro hn a
    obtain rfl : a = 0 := Subsingleton.elim _ _
    show (n.val : ℤ) = (vecScatter N E wf).start (ix1 e) idx 0 + ((vecScatter N E wf).window (ix1 e) 0 : ℕ)
    rw [h0, w0, hn]; simp

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The accumulating scatter of rows at the extended reals, at entry `(n, g)`: the operand's entry plus the sum
    over the updates `e` whose index is `n` of their entry `g`. -/
theorem rowsScatterAdd_apply {N C E : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32) (n : Fin N) (g : Fin C) :
    Host.scatterAdd (F := Ideal) (rowsScatter N C E wf) x idx upd (ix2 n g)
      = x (ix2 n g) + ∑ e : Fin E, if (idx (ix2 e 0)).toInt = (n.val : ℤ) then upd (ix2 e g) else 0 := by
  show x (ix2 n g) + ∑ j ∈ Finset.univ.filter (fun j => (rowsScatter N C E wf).resultIdx? j idx = some (ix2 n g)), upd j = _
  congr 1
  rw [Finset.sum_filter, sum_idx2]
  refine Finset.sum_congr rfl fun e _ => ?_
  simp only [rowsScatter_lands]
  by_cases h : (idx (ix2 e 0)).toInt = (n.val : ℤ)
  · simp only [h, true_and, if_true]
    rw [Finset.sum_ite_eq' Finset.univ g (fun f => upd (ix2 e f))]
    simp
  · simp [h]

/-- The accumulating scatter of entries at the extended reals, at entry `n`: the operand's entry plus the sum
    of the updates `e` whose index is `n`. -/
theorem vecScatterAdd_apply {N E : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ 32) (upd : FVec Ideal ⟨1, ![E]⟩ .f32) (n : Fin N) :
    Host.scatterAdd (F := Ideal) (vecScatter N E wf) x idx upd (ix1 n)
      = x (ix1 n) + ∑ e : Fin E, if (idx (ix2 e 0)).toInt = (n.val : ℤ) then upd (ix1 e) else 0 := by
  show x (ix1 n) + ∑ j ∈ Finset.univ.filter (fun j => (vecScatter N E wf).resultIdx? j idx = some (ix1 n)), upd j = _
  congr 1
  rw [Finset.sum_filter, sum_idx1]
  refine Finset.sum_congr rfl fun e _ => ?_
  simp only [vecScatter_lands]

end Cert.Edges

end
-- ==== Proof.WordsSort.lean ====
/-
  The sorting chain of the host glue, word by word.

  The stable sort of the flat type array carrying the positions returns a bijection σ of the positions (entry j is
  the position whose type lands at j) along which the types are non-decreasing. Every position is below 2^31 and every
  type below 8, so the wraps of negative indices do nothing and no gather clamps: the sorted types are the types
  along σ, and the slot of sorted position j is the padded start of its type plus its rank j − (unpadded start) within
  the type's run.
-/
import proofs.«167811_j5703716569224_2_alg».proof.Proof.Tokens
import proofs.«167811_j5703716569224_2_alg».proof.Proof.LibArgsort
import proofs.«167811_j5703716569224_2_alg».proof.Proof.LibEdges
import Idealize.ShloMosaic.Lib.SortFacts

set_option maxRecDepth 16384

noncomputable section

namespace Cert.KernelIdeal.Ws

open Cert.KernelIdeal Cert.KernelIdeal.Gen Idealize.ShloMosaic Idealize.ShloMosaic.ValueIdx

/-! ## Words -/

/-- A word below 2^31 read signed is itself. -/
theorem toInt_of_lt (v : BitVec 32) (hv : v.toNat < 2 ^ 31) : v.toInt = (v.toNat : ℤ) :=
  BitVec.toInt_eq_toNat_of_lt (by omega)

/-- Wrapping a negative index does nothing to a word below 2^31. -/
theorem wrap_id (v c : BitVec 32) (hv : v.toNat < 2 ^ 31) :
    Scalar.select (IntOp.cmpi .slt v 0#32) (IntOp.addi v c) v = v := by
  unfold Scalar.select IntOp.cmpi
  have h : v.slt 0#32 = false := by
    unfold BitVec.slt
    rw [toInt_of_lt v hv]
    simp
  simp [h]

/-- A word below N ≤ 2^31 is not clamped. -/
theorem clampRow_of_lt (N : Nat) (hN : 0 < N) (hN31 : N ≤ 2 ^ 31) (v : BitVec 32) (hv : v.toNat < N) :
    Cert.Edges.clampRow N hN v = ⟨v.toNat, hv⟩ := by
  unfold Cert.Edges.clampRow
  refine Fin.ext ?_
  show min v.toInt.toNat (N - 1) = v.toNat
  rw [toInt_of_lt v (by omega)]
  simp only [Int.toNat_natCast]
  omega

/-- A column of start indices at row j is the vector at j. -/
theorem col_apply (x : IVec S16384 32) (j : Fin 16384) :
    broadcastInDim S16384x1 ![0] bcast_S16384_S16384x1_0 x (ix2 j 0) = x (ix1 j) :=
  broadcastInDim_apply _ bcast_S16384_S16384x1_0 x (ix2 j 0) (ix1 j) (fun a => match a with
    | ⟨0, _⟩ => by show j.val = if (16384 : Nat) = 1 then 0 else j.val; rw [if_neg (by decide)])

/-! ## The sorting permutation -/

/-- The position whose type the stable sort puts at j. -/
def sigma (a1 : IVec S4x4096 32) : Fin 16384 → Fin 16384 :=
  Cert.Argsort.src comparator_i32_i32_d0 (Stg.main_v1 a1)

theorem sigma_bij (a1 : IVec S4x4096 32) : Function.Bijective (sigma a1) :=
  Cert.Argsort.src_bijective _ _

/-- The argsort's table at j is the word of σ j. -/
theorem s26 (a1 : IVec S4x4096 32) (j : Fin 16384) :
    Stg.main_v26 a1 (ix1 j) = BitVec.ofNat 32 (sigma a1 j).val :=
  Cert.Argsort.argsort_apply comparator_i32_i32_d0 (Stg.main_v1 a1) (ix1 j)

theorem sigma_toNat (a1 : IVec S4x4096 32) (j : Fin 16384) :
    (BitVec.ofNat 32 (sigma a1 j).val).toNat = (sigma a1 j).val := by
  rw [BitVec.toNat_ofNat]
  have := (sigma a1 j).isLt
  omega

/-- The wrapped table is the table. -/
theorem s31 (a1 : IVec S4x4096 32) (j : Fin 16384) :
    Stg.main_v31 a1 (ix1 j) = BitVec.ofNat 32 (sigma a1 j).val := by
  show Scalar.select (IntOp.cmpi .slt (Stg.main_v26 a1 (ix1 j)) 0#32)
    (IntOp.addi (Stg.main_v26 a1 (ix1 j)) 16384#32) (Stg.main_v26 a1 (ix1 j)) = _
  rw [s26, wrap_id _ _ (by rw [sigma_toNat]; have := (sigma a1 j).isLt; omega)]

/-- The sorted types are the types along σ. -/
theorem s33 (a1 : IVec S4x4096 32) (j : Fin 16384) :
    Stg.main_v33 a1 (ix1 j) = Stg.main_v1 a1 (ix1 (sigma a1 j)) := by
  show Host.gather (Cert.Edges.vecGather 16384 16384 gather_S16384_S16384x1_S16384_n_0_n_n_0_1_1_wf)
    (Stg.main_v1 a1) (Stg.main_v32 a1) (ix1 j) = _
  rw [Cert.Edges.vecGather_apply (by norm_num)]
  unfold Stg.main_v32
  rw [col_apply, s31, clampRow_of_lt 16384 (by norm_num) (by norm_num) _
    (by rw [sigma_toNat]; exact (sigma a1 j).isLt)]
  exact congrArg (fun k => Stg.main_v1 a1 (ix1 k)) (Fin.ext (sigma_toNat a1 j))

/-! ## Sortedness -/

theorem ofFin_eq_ix1 {n : Nat} (k : Fin n) : Shape.Idx.ofFin k = ix1 k := by
  funext a
  obtain rfl : a = 0 := Subsingleton.elim _ _
  exact Fin.ext rfl

/-- A type word below 8 read signed is the type. -/
theorem key_toInt (a1 : IVec S4x4096 32) (h : Tok.InRange a1) (i : Fin 16384) :
    (Stg.main_v1 a1 (ix1 i)).toInt = (Tok.tyN a1 i : ℤ) := by
  have := Tok.tyN_lt h i
  unfold Tok.tyN at this ⊢
  exact toInt_of_lt _ (by omega)

/-- The types along σ are non-decreasing: a stable sort by signed less-than leaves no inversion. -/
theorem sigma_mono (a1 : IVec S4x4096 32) (h : Tok.InRange a1) (j j' : Fin 16384) (hjj : j ≤ j') :
    Tok.tyN a1 (sigma a1 j) ≤ Tok.tyN a1 (sigma a1 j') := by
  rcases hjj.lt_or_eq with hlt | rfl
  swap
  · exact le_rfl
  have hR : sigma a1 = sortedFrom (fun a b : Fin 16384 =>
      decide ((Stg.main_v1 a1 (ix1 a)).toInt < (Stg.main_v1 a1 (ix1 b)).toInt)) := by
    funext k
    unfold sigma Cert.Argsort.src
    refine congrArg (fun R => sortedFrom R k) (funext fun a => funext fun b => ?_)
    rw [ofFin_eq_ix1, ofFin_eq_ix1]
    show (BitVec.ofBool ((Stg.main_v1 a1 (ix1 a)).slt (Stg.main_v1 a1 (ix1 b))) == 1#1) = _
    unfold BitVec.slt
    by_cases hc : (Stg.main_v1 a1 (ix1 a)).toInt < (Stg.main_v1 a1 (ix1 b)).toInt <;> simp [hc]
  have hno := sortedFrom_noInversion
    (fun a b : Fin 16384 => decide ((Stg.main_v1 a1 (ix1 a)).toInt < (Stg.main_v1 a1 (ix1 b)).toInt))
    (fun a b : Fin 16384 => decide ((Stg.main_v1 a1 (ix1 a)).toInt < (Stg.main_v1 a1 (ix1 b)).toInt))
    (by intro a b hab; simp only [decide_eq_true_eq, decide_eq_false_iff_not] at hab ⊢; omega)
    (fun _ _ hab => hab)
    (by intro a b c hab hbc; simp only [decide_eq_false_iff_not] at hab hbc ⊢; omega)
    j j' hlt
  rw [← hR] at hno
  simp only [decide_eq_false_iff_not] at hno
  rw [key_toInt a1 h, key_toInt a1 h] at hno
  omega

/-! ## The slots -/

/-- The sorted type word at j is the type of token σ j. -/
theorem v33_toNat (a1 : IVec S4x4096 32) (j : Fin 16384) :
    (Stg.main_v33 a1 (ix1 j)).toNat = Tok.tyN a1 (sigma a1 j) := by
  rw [s33]; rfl

/-- The wrapped sorted types are the sorted types. -/
theorem s39 (a1 : IVec S4x4096 32) (h : Tok.InRange a1) (j : Fin 16384) :
    Stg.main_v39 a1 (ix1 j) = Stg.main_v33 a1 (ix1 j) := by
  show Scalar.select (IntOp.cmpi .slt (Stg.main_v33 a1 (ix1 j)) 0#32)
    (IntOp.addi (Stg.main_v33 a1 (ix1 j)) 8#32) (Stg.main_v33 a1 (ix1 j)) = _
  exact wrap_id _ _ (by rw [v33_toNat]; have := Tok.tyN_lt h (sigma a1 j); omega)

theorem s47 (a1 : IVec S4x4096 32) (h : Tok.InRange a1) (j : Fin 16384) :
    Stg.main_v47 a1 (ix1 j) = Stg.main_v33 a1 (ix1 j) := by
  show Scalar.select (IntOp.cmpi .slt (Stg.main_v33 a1 (ix1 j)) 0#32)
    (IntOp.addi (Stg.main_v33 a1 (ix1 j)) 8#32) (Stg.main_v33 a1 (ix1 j)) = _
  exact wrap_id _ _ (by rw [v33_toNat]; have := Tok.tyN_lt h (sigma a1 j); omega)

/-- A table of 8 entries gathered at the sorted types: at j, the entry of token σ j's type. -/
theorem gather8 (a1 : IVec S4x4096 32) (h : Tok.InRange a1) (x : IVec S8 32) (idx : IVec S16384 32) (j : Fin 16384)
    (hidx : idx (ix1 j) = Stg.main_v33 a1 (ix1 j)) :
    Host.gather gather_S8_S16384x1_S16384_n_0_n_n_0_1_1 x
      (broadcastInDim S16384x1 ![0] bcast_S16384_S16384x1_0 idx) (ix1 j)
      = x (ix1 (⟨Tok.tyN a1 (sigma a1 j), Tok.tyN_lt h _⟩ : Fin 8)) := by
  show Host.gather (Cert.Edges.vecGather 8 16384 gather_S8_S16384x1_S16384_n_0_n_n_0_1_1_wf) x _ (ix1 j) = _
  rw [Cert.Edges.vecGather_apply (by norm_num), col_apply, hidx,
    clampRow_of_lt 8 (by norm_num) (by norm_num) _ (by rw [v33_toNat]; exact Tok.tyN_lt h _)]
  exact congrArg (fun k => x (ix1 k)) (Fin.ext (v33_toNat a1 j))

/-- A difference of words of naturals, the smaller subtracted, is the word of the difference. -/
theorem ofNat_sub (a b : Nat) (hba : b ≤ a) : BitVec.ofNat 32 a - BitVec.ofNat 32 b = BitVec.ofNat 32 (a - b) := by
  have e : BitVec.ofNat 32 a = BitVec.ofNat 32 (a - b) + BitVec.ofNat 32 b := by
    rw [← BitVec.ofNat_add, Nat.sub_add_cancel hba]
  rw [e, BitVec.add_sub_cancel]

/-- The slot of sorted position j: the padded start of its type plus its rank in the type's run. -/
theorem s50 (a1 : IVec S4x4096 32) (h : Tok.InRange a1)
    (h20 : ∀ t : Fin 8, Stg.main_v20 a1 (ix1 t) = BitVec.ofNat 32 (Cert.Grouped.us (Tok.tyN a1) t.val))
    (h24 : ∀ t : Fin 8, Stg.main_v24 a1 (ix1 t) = BitVec.ofNat 32 (Cert.Grouped.ps (Tok.tyN a1) 1024 t.val))
    (j : Fin 16384) :
    Stg.main_v50 a1 (ix1 j) = BitVec.ofNat 32 (Cert.Grouped.dest (Tok.tyN a1) 1024 (sigma a1) j) := by
  have hpos := (Cert.Grouped.sorted_pos (Tok.tyN a1) (sigma a1) (sigma_bij a1) (sigma_mono a1 h) j).1
  have e41 : Stg.main_v41 a1 (ix1 j) = Stg.main_v20 a1 (ix1 (⟨Tok.tyN a1 (sigma a1 j), Tok.tyN_lt h _⟩ : Fin 8)) :=
    gather8 a1 h (Stg.main_v20 a1) (Stg.main_v39 a1) j (s39 a1 h j)
  have e49 : Stg.main_v49 a1 (ix1 j) = Stg.main_v24 a1 (ix1 (⟨Tok.tyN a1 (sigma a1 j), Tok.tyN_lt h _⟩ : Fin 8)) :=
    gather8 a1 h (Stg.main_v24 a1) (Stg.main_v47 a1) j (s47 a1 h j)
  show Stg.main_v49 a1 (ix1 j) + (BitVec.ofNat 32 j.val - Stg.main_v41 a1 (ix1 j)) = _
  rw [e41, e49, h20, h24, ofNat_sub _ _ hpos, ← BitVec.ofNat_add]
  rfl

end Cert.KernelIdeal.Ws

end
-- ==== Proof.WordsPlace.lean ====
/-
  The placement chain of the host glue, word by word.

  With σ the sorting bijection and D j the padded slot of sorted position j (below 24576, distinct for distinct j):
  the table of original positions, written at the slots, holds σ j at slot D j; the padded input's row D j is the
  input's row σ j; the table of slots, written at the original positions, holds D j at position σ j; and the rows
  picked after the region for token σ j = 4096 b + s are row D j of the region's output.
-/
import proofs.«167811_j5703716569224_2_alg».proof.Proof.WordsSort
import proofs.«167811_j5703716569224_2_alg».proof.Proof.KernelSpec

set_option maxRecDepth 16384

noncomputable section

namespace Cert.KernelIdeal.Wp

open Cert.KernelIdeal Cert.KernelIdeal.Gen Idealize.ShloMosaic Idealize.ShloMosaic.ValueIdx

/-! ## Words -/

/-- A select on "negative" keeps a word below 2^31. -/
theorem sel_nonneg (v c : BitVec 32) (hv : v.toNat < 2 ^ 31) :
    Scalar.select (IntOp.cmpi .slt v 0#32) c v = v := by
  unfold Scalar.select IntOp.cmpi
  have h : v.slt 0#32 = false := by
    unfold BitVec.slt
    rw [Ws.toInt_of_lt v hv]
    simp
  simp [h]

/-- The word of a natural below 2^31, read signed or unsigned, is the natural. -/
theorem ofNat_toNat (n : Nat) (hn : n < 2 ^ 31) : (BitVec.ofNat 32 n).toNat = n := by
  rw [BitVec.toNat_ofNat]; omega

theorem ofNat_toInt (n : Nat) (hn : n < 2 ^ 31) : (BitVec.ofNat 32 n).toInt = (n : ℤ) := by
  rw [Ws.toInt_of_lt _ (by rw [ofNat_toNat n hn]; exact hn), ofNat_toNat n hn]

/-- A column of 24576 start indices at row n is the vector at n. -/
theorem col_apply' (x : IVec S24576 32) (n : Fin 24576) :
    broadcastInDim S24576x1 ![0] bcast_S24576_S24576x1_0 x (ix2 n 0) = x (ix1 n) :=
  broadcastInDim_apply _ bcast_S24576_S24576x1_0 x (ix2 n 0) (ix1 n) (fun a => match a with
    | ⟨0, _⟩ => by show n.val = if (24576 : Nat) = 1 then 0 else n.val; rw [if_neg (by decide)])

/-! ## The slots -/

/-- Every slot is below 24576. -/
theorem dest_lt' (a1 : IVec S4x4096 32) (h : Tok.InRange a1) (j : Fin 16384) :
    Cert.Grouped.dest (Tok.tyN a1) 1024 (Ws.sigma a1) j < 24576 :=
  Cert.Grouped.dest_lt (Tok.tyN a1) (T := 8) (by norm_num) (Tok.tyN_lt h) (Ws.sigma a1) (Ws.sigma_bij a1)
    (Ws.sigma_mono a1 h) j

/-- Distinct sorted positions have distinct slots. -/
theorem dest_inj (a1 : IVec S4x4096 32) (h : Tok.InRange a1) :
    Function.Injective (Cert.Grouped.dest (Tok.tyN a1) 1024 (Ws.sigma a1)) :=
  Cert.Grouped.dest_injective (Tok.tyN a1) (by norm_num) (Ws.sigma a1) (Ws.sigma_bij a1) (Ws.sigma_mono a1 h)

/-- The wrapped argsort table (second copy) is the table. -/
theorem s87 (a1 : IVec S4x4096 32) (j : Fin 16384) :
    Stg.main_v87 a1 (ix1 j) = BitVec.ofNat 32 (Ws.sigma a1 j).val := by
  show Scalar.select (IntOp.cmpi .slt (Stg.main_v26 a1 (ix1 j)) 0#32)
    (IntOp.addi (Stg.main_v26 a1 (ix1 j)) 16384#32) (Stg.main_v26 a1 (ix1 j)) = _
  rw [Ws.s26]
  exact sel_nonneg _ _ (by rw [Ws.sigma_toNat]; have := (Ws.sigma a1 j).isLt; omega)

/-- The column of original positions at j, read signed, is σ j. -/
theorem v88_toInt (a1 : IVec S4x4096 32) (j : Fin 16384) :
    (Stg.main_v88 a1 (ix2 j 0)).toInt = ((Ws.sigma a1 j).val : ℤ) := by
  unfold Stg.main_v88
  rw [Ws.col_apply, s87]
  exact ofNat_toInt _ (by have := (Ws.sigma a1 j).isLt; omega)

/-- Replacing negative entries by 0 keeps an entry below 2^31. -/
theorem v61_of (a1 : IVec S4x4096 32) (n : Fin 24576) (v : BitVec 32) (hv : v.toNat < 2 ^ 31)
    (h58 : Stg.main_v58 a1 (ix1 n) = v) : Stg.main_v61 a1 (ix1 n) = v := by
  show Scalar.select (IntOp.cmpi .slt (Stg.main_v58 a1 (ix1 n)) 0#32) 0#32 (Stg.main_v58 a1 (ix1 n)) = _
  rw [h58]
  exact sel_nonneg _ _ hv

/-- Wrapping negative entries keeps an entry below 2^31. -/
theorem v67_of (a1 : IVec S4x4096 32) (n : Fin 24576) (v : BitVec 32) (hv : v.toNat < 2 ^ 31)
    (h61 : Stg.main_v61 a1 (ix1 n) = v) : Stg.main_v67 a1 (ix1 n) = v := by
  show Scalar.select (IntOp.cmpi .slt (Stg.main_v61 a1 (ix1 n)) 0#32)
    (IntOp.addi (Stg.main_v61 a1 (ix1 n)) 16384#32) (Stg.main_v61 a1 (ix1 n)) = _
  rw [h61]
  exact sel_nonneg _ _ hv

section
variable (a1 : IVec S4x4096 32) (h : Tok.InRange a1)
  (h20 : ∀ t : Fin 8, Stg.main_v20 a1 (ix1 t) = BitVec.ofNat 32 (Cert.Grouped.us (Tok.tyN a1) t.val))
  (h24 : ∀ t : Fin 8, Stg.main_v24 a1 (ix1 t) = BitVec.ofNat 32 (Cert.Grouped.ps (Tok.tyN a1) 1024 t.val))
include h h20 h24

/-- The wrapped slots are the slots. -/
theorem s56 (j : Fin 16384) :
    Stg.main_v56 a1 (ix1 j) = BitVec.ofNat 32 (Cert.Grouped.dest (Tok.tyN a1) 1024 (Ws.sigma a1) j) := by
  show Scalar.select (IntOp.cmpi .slt (Stg.main_v50 a1 (ix1 j)) 0#32)
    (IntOp.addi (Stg.main_v50 a1 (ix1 j)) 24576#32) (Stg.main_v50 a1 (ix1 j)) = _
  rw [Ws.s50 a1 h h20 h24 j]
  exact sel_nonneg _ _ (by rw [ofNat_toNat _ (by have := dest_lt' a1 h j; omega)]; have := dest_lt' a1 h j; omega)

/-- The column of slots at j, read signed, is the slot. -/
theorem v57_toInt (j : Fin 16384) :
    (Stg.main_v57 a1 (ix2 j 0)).toInt = (Cert.Grouped.dest (Tok.tyN a1) 1024 (Ws.sigma a1) j : ℤ) := by
  unfold Stg.main_v57
  rw [Ws.col_apply, s56 a1 h h20 h24 j]
  exact ofNat_toInt _ (by have := dest_lt' a1 h j; omega)

/-- The table of original positions: slot D j holds σ j. -/
theorem p58 (j : Fin 16384) :
    Stg.main_v58 a1 (ix1 (⟨Cert.Grouped.dest (Tok.tyN a1) 1024 (Ws.sigma a1) j, dest_lt' a1 h j⟩ : Fin 24576))
      = BitVec.ofNat 32 (Ws.sigma a1 j).val := by
  show Host.scatter (Cert.Edges.vecScatter 24576 16384 scatter_S24576_S16384x1_S16384_n_0_0_1_wf) (fun _ b => b)
    Stg.main_v51 (Stg.main_v57 a1) (Stg.main_v26 a1)
    (ix1 (⟨Cert.Grouped.dest (Tok.tyN a1) 1024 (Ws.sigma a1) j, dest_lt' a1 h j⟩ : Fin 24576)) = _
  rw [Host.scatter_apply_of_hit _ _ _ _ _ _ (ix1 j)
    ((Cert.Edges.vecScatter_lands _ _ j _).mpr (v57_toInt a1 h h20 h24 j))
    (fun j' hj' => by
      rw [eq_ix1 j'] at hj' ⊢
      have e := (Cert.Edges.vecScatter_lands _ _ (j' 0) _).mp hj'
      have e2 := (v57_toInt a1 h h20 h24 (j' 0)).symm.trans e
      have e' : Cert.Grouped.dest (Tok.tyN a1) 1024 (Ws.sigma a1) (j' 0)
          = Cert.Grouped.dest (Tok.tyN a1) 1024 (Ws.sigma a1) j := by exact_mod_cast e2
      exact congrArg (fun k : Fin 16384 => (ix1 k : S16384.Idx)) (dest_inj a1 h e'))]
  exact Ws.s26 a1 j

/-- The table of slots: position σ j holds D j. -/
theorem p89 (j : Fin 16384) :
    Stg.main_v89 a1 (ix1 (Ws.sigma a1 j))
      = BitVec.ofNat 32 (Cert.Grouped.dest (Tok.tyN a1) 1024 (Ws.sigma a1) j) := by
  show Host.scatter (Cert.Edges.vecScatter 16384 16384 scatter_S16384_S16384x1_S16384_n_0_0_1_wf) (fun _ b => b)
    Stg.main_v82 (Stg.main_v88 a1) (Stg.main_v50 a1) (ix1 (Ws.sigma a1 j)) = _
  rw [Host.scatter_apply_of_hit _ _ _ _ _ _ (ix1 j)
    ((Cert.Edges.vecScatter_lands _ _ j _).mpr (v88_toInt a1 j))
    (fun j' hj' => by
      rw [eq_ix1 j'] at hj' ⊢
      have e := (Cert.Edges.vecScatter_lands _ _ (j' 0) _).mp hj'
      have e2 := (v88_toInt a1 (j' 0)).symm.trans e
      have e' : Ws.sigma a1 (j' 0) = Ws.sigma a1 j := Fin.ext (by exact_mod_cast e2)
      exact congrArg (fun k : Fin 16384 => (ix1 k : S16384.Idx)) ((Ws.sigma_bij a1).1 e'))]
  exact Ws.s50 a1 h h20 h24 j

/-- The safe table of original positions: slot D j holds σ j. -/
theorem p67 (j : Fin 16384) :
    Stg.main_v67 a1 (ix1 (⟨Cert.Grouped.dest (Tok.tyN a1) 1024 (Ws.sigma a1) j, dest_lt' a1 h j⟩ : Fin 24576))
      = BitVec.ofNat 32 (Ws.sigma a1 j).val := by
  have hv : (BitVec.ofNat 32 (Ws.sigma a1 j).val).toNat < 2 ^ 31 := by
    rw [Ws.sigma_toNat]; have := (Ws.sigma a1 j).isLt; omega
  exact v67_of a1 _ _ hv (v61_of a1 _ _ hv (p58 a1 h h20 h24 j))

/-- The padded input: row D j is the input's row σ j. -/
theorem p69 {F : FTy → Type} [FloatOps F] (a0 : FVec F S4x4096x1024 .f32) (j : Fin 16384) (k : Fin 1024) :
    Stg.main_v69 a0 a1 (ix2 (⟨Cert.Grouped.dest (Tok.tyN a1) 1024 (Ws.sigma a1) j, dest_lt' a1 h j⟩ : Fin 24576) k)
      = Stg.main_v62 a0 (ix2 (Ws.sigma a1 j) k) := by
  show Host.gather (Cert.Edges.rowsGather 16384 1024 24576
    gather_S16384x1024_S24576x1_S24576x1024_1_0_n_n_0_1_11024_wf) (Stg.main_v62 a0) (Stg.main_v68 a1)
    (ix2 (⟨Cert.Grouped.dest (Tok.tyN a1) 1024 (Ws.sigma a1) j, dest_lt' a1 h j⟩ : Fin 24576) k) = _
  rw [Cert.Edges.rowsGather_apply (by norm_num)]
  unfold Stg.main_v68
  rw [col_apply', p67 a1 h h20 h24 j, Ws.clampRow_of_lt 16384 (by norm_num) (by norm_num) _
    (by rw [Ws.sigma_toNat]; exact (Ws.sigma a1 j).isLt)]
  exact congrArg (fun r => Stg.main_v62 a0 (ix2 r k)) (Fin.ext (Ws.sigma_toNat a1 j))

/-- The rows picked after the region: token σ j = 4096 b + s gets row D j of the region's output. -/
theorem tail_apply (o : FVec Ideal S24576x1024 .f32) (j : Fin 16384) (b : Fin 4) (s : Fin 4096)
    (hbs : (Ws.sigma a1 j).val = 4096 * b.val + s.val) (q : Fin 1024) :
    Cert.KernelSide.tail o (Stg.main_v89 a1) (ix3 b s q)
      = o (ix2 (⟨Cert.Grouped.dest (Tok.tyN a1) 1024 (Ws.sigma a1) j, dest_lt' a1 h j⟩ : Fin 24576) q) := by
  have hD := dest_lt' a1 h j
  have hDn : (BitVec.ofNat 32 (Cert.Grouped.dest (Tok.tyN a1) 1024 (Ws.sigma a1) j)).toNat
      = Cert.Grouped.dest (Tok.tyN a1) 1024 (Ws.sigma a1) j := ofNat_toNat _ (by omega)
  unfold Cert.KernelSide.tail
  rw [shapeCast_apply _ _ (ix3 b s q) (ix2 (Ws.sigma a1 j) q) (by
    rw [Shape.rowMajor_val_two, Shape.rowMajor_val_three]
    show (Ws.sigma a1 j).val * 1024 + q.val = (b.val * 4096 + s.val) * 1024 + q.val
    omega)]
  show Host.gather (Cert.Edges.rowsGather 24576 1024 16384
    gather_S24576x1024_S16384x1_S16384x1024_1_0_n_n_0_1_11024_wf) o _ (ix2 (Ws.sigma a1 j) q) = _
  rw [Cert.Edges.rowsGather_apply (by norm_num), Ws.col_apply]
  show o (ix2 (Cert.Edges.clampRow 24576 _ (Scalar.select
    (IntOp.cmpi .slt (Stg.main_v89 a1 (ix1 (Ws.sigma a1 j))) 0#32)
    (IntOp.addi (Stg.main_v89 a1 (ix1 (Ws.sigma a1 j))) 24576#32) (Stg.main_v89 a1 (ix1 (Ws.sigma a1 j))))) q) = _
  rw [p89 a1 h h20 h24 j, sel_nonneg _ _ (by rw [hDn]; omega),
    Ws.clampRow_of_lt 24576 (by norm_num) (by norm_num) _ (by rw [hDn]; exact hD)]
  exact congrArg (fun r => o (ix2 r q)) (Fin.ext hDn)

end

end Cert.KernelIdeal.Wp

end
-- ==== Proof.WordsCounts.lean ====
/-
  The counting chain read at coordinates: the per-type counts, the counts rounded up to a multiple of the tile size,
  their running sums (unpadded and padded starts, padded ends) and the type of each tile, each as the 32-bit word of
  the corresponding natural-number quantity of the grouped placement.
-/
import proofs.«167811_j5703716569224_2_alg».proof.Proof.Tokens
import Idealize.ShloMosaic.Lib.IdealHost
import Idealize.ShloMosaic.PureOps.Reduce
import Idealize.ShloMosaic.Lib.WordArith

set_option maxRecDepth 16384

noncomputable section

namespace Cert.KernelIdeal.Wc

open Cert.KernelIdeal Cert.KernelIdeal.Gen Idealize.ShloMosaic Idealize.ShloMosaic.ValueIdx

/-! ### Words -/

/-- A left fold of word additions of 0/1 indicator words, from zero, is the word of the number of ones. -/
theorem fold_addi_indicator {ι : Type} [DecidableEq ι] (S : Finset ι) (p : ι → Prop) [DecidablePred p] :
    S.fold IntOp.addi 0#32 (fun k => if p k then 1#32 else 0#32) = BitVec.ofNat 32 (S.filter p).card := by
  induction S using Finset.induction_on with
  | empty => rfl
  | insert a S ha ih =>
    rw [Finset.fold_insert ha, ih, Finset.filter_insert]
    by_cases hp : p a
    · rw [if_pos hp, if_pos hp, Finset.card_insert_of_notMem (fun h => ha (Finset.mem_filter.mp h).1),
        Nat.add_comm, BitVec.ofNat_add]
      rfl
    · rw [if_neg hp, if_neg hp]
      exact BitVec.zero_add _

/-- The widened bit of a word equality test is the 0/1 indicator of equality. -/
theorem extui_cmpi_eq (x y : BitVec 32) :
    (IntOp.cmpi .eq x y).setWidth 32 = if x = y then 1#32 else 0#32 := by
  unfold IntOp.cmpi
  by_cases h : x = y
  · subst h; rw [if_pos rfl]; simp
  · rw [if_neg h, beq_eq_false_iff_ne.mpr h]; rfl

/-- A word is the word of a natural number below `2^32` iff its value is that number. -/
theorem toNat_eq_iff (x : BitVec 32) (k : ℕ) (hk : k < 2 ^ 32) : x.toNat = k ↔ x = BitVec.ofNat 32 k := by
  constructor
  · intro h; apply BitVec.eq_of_toNat_eq; rw [BitVec.toNat_ofNat, Nat.mod_eq_of_lt hk]; exact h
  · intro h; rw [h, BitVec.toNat_ofNat, Nat.mod_eq_of_lt hk]

/-! ### The counts -/

/-- The comparison table at (token `i`, type `t`): 1 if token `i` has type `t`, else 0. -/
theorem v8_apply (a1 : IVec S4x4096 32) (i : Fin 16384) (t : Fin 8) :
    Stg.main_v8 a1 (ix2 i t) = if Tok.tyN a1 i = t.val then 1#32 else 0#32 := by
  have h5 : Stg.main_v5 a1 (ix2 i t) = Stg.main_v1 a1 (ix1 i) := by
    unfold Stg.main_v5 Stg.main_v3
    rw [broadcastInDim_apply _ _ _ (ix2 i t) (ix2 i (0 : Fin 1))
      (fun a => by match a with | ⟨0, _⟩ => rfl | ⟨1, _⟩ => rfl)]
    exact broadcastInDim_apply _ _ _ (ix2 i (0 : Fin 1)) (ix1 i) (fun a => by match a with | ⟨0, _⟩ => rfl)
  have h6 : Stg.main_v6 (ix2 i t) = BitVec.ofNat 32 t.val := by
    unfold Stg.main_v6 Stg.main_v4
    rw [broadcastInDim_apply _ _ _ (ix2 i t) (ix2 (0 : Fin 1) t)
      (fun a => by match a with | ⟨0, _⟩ => rfl | ⟨1, _⟩ => rfl)]
    exact broadcastInDim_apply _ _ _ (ix2 (0 : Fin 1) t) (ix1 t) (fun a => by match a with | ⟨0, _⟩ => rfl)
  show (IntOp.cmpi .eq (Stg.main_v5 a1 (ix2 i t)) (Stg.main_v6 (ix2 i t))).setWidth 32 = _
  rw [h5, h6, extui_cmpi_eq]
  unfold Tok.tyN
  have hk : t.val < 2 ^ 32 := by have := t.isLt; omega
  by_cases h : Stg.main_v1 a1 (ix1 i) = BitVec.ofNat 32 t.val
  · rw [if_pos h, if_pos ((toNat_eq_iff _ _ hk).mpr h)]
  · rw [if_neg h, if_neg (fun h' => h ((toNat_eq_iff _ _ hk).mp h'))]

/-- The source index over result index `t` with row `k` inserted on the reduced leading axis is `(k, t)`. -/
theorem lift_rows (h : S16384x8.Reduces [0] S8) (t : Fin 8) (k : Fin 16384) : h.lift (ix1 t) k = ix2 k t := by
  funext c; apply Fin.ext
  match c with
  | ⟨0, _⟩ => rfl
  | ⟨1, _⟩ => rfl

/-- The count word of type `t` is the word of the number of tokens of type `t`. -/
theorem c9 (a1 : IVec S4x4096 32) (t : Fin 8) :
    Stg.main_v9 a1 (ix1 t) = BitVec.ofNat 32 (Cert.Grouped.cnt (Tok.tyN a1) t.val) := by
  have h : S16384x8.Reduces [0] S8 := by decide
  unfold Stg.main_v9
  beta_reduce
  rw [Host.reduce_eq_fold_single IntOp.addi (Stg.main_v8 a1) Stg.main_c _ h _ (ix1 t)]
  have hf : ∀ k ∈ (Finset.univ : Finset (Fin 16384)), (Stg.main_v8 a1 ∘ h.lift (ix1 t)) k
      = (fun k : Fin 16384 => if Tok.tyN a1 k = t.val then 1#32 else 0#32) k := by
    intro k _
    show Stg.main_v8 a1 (h.lift (ix1 t) k) = _
    rw [lift_rows, v8_apply]
  exact (Finset.fold_congr hf).trans (fold_addi_indicator _ _)

/-! ### Rounding the counts up to a multiple of 1024 -/

/-- The sign word: 0 for zero, -1 for a word with its top bit set, else 1. -/
def sgnw (x : BitVec 32) : BitVec 32 := if x = 0 then 0 else if x.msb then -1 else 1

/-- Floor division by 1024 as lowered (the truncated quotient, less one when the signs differ and the remainder is
not zero), on a word below `2^31`: the word of the natural quotient. -/
theorem floordiv_1024 (x : BitVec 32) (hx : x.toNat < 2 ^ 31) :
    Scalar.select (IntOp.andi (IntOp.cmpi .ne (sgnw x) (sgnw 1024#32))
        (IntOp.cmpi .ne (IntOp.remsi .host x 1024#32) 0#32))
      (IntOp.subi (IntOp.divsi .host x 1024#32) 1#32) (IntOp.divsi .host x 1024#32)
      = BitVec.ofNat 32 (x.toNat / 1024) := by
  have hmx : x.msb = false := by rw [BitVec.msb_eq_false_iff_two_mul_lt]; omega
  have hm : (1024#32 : BitVec 32).msb = false := by decide
  have hnc : ∀ y : BitVec 32, ¬IntOp.SDivCorner y 1024#32 := by
    rintro y (h0 | ⟨-, h1⟩)
    · exact absurd h0 (by decide)
    · exact absurd h1 (by decide)
  have hdiv : IntOp.divsi .host x 1024#32 = BitVec.ofNat 32 (x.toNat / 1024) := by
    rw [IntOp.divsi, if_neg (hnc x), BitVec.sdiv_eq, hmx, hm]
    apply BitVec.eq_of_toNat_eq
    dsimp only
    rw [BitVec.udiv_eq, BitVec.toNat_udiv, BitVec.toNat_ofNat, BitVec.toNat_ofNat,
      show 1024 % 2 ^ 32 = 1024 by norm_num]; omega
  have hcond : IntOp.andi (IntOp.cmpi .ne (sgnw x) (sgnw 1024#32))
      (IntOp.cmpi .ne (IntOp.remsi .host x 1024#32) 0#32) = 0#1 := by
    by_cases h0 : x = 0
    · subst h0
      have hr : IntOp.remsi .host (0 : BitVec 32) 1024#32 = 0#32 := by
        rw [IntOp.remsi, if_neg (hnc _)]; decide
      rw [hr]; decide
    · have hs : sgnw x = sgnw 1024#32 := by
        unfold sgnw; rw [if_neg h0, hmx]; decide
      rw [hs]
      have e : IntOp.cmpi .ne (sgnw 1024#32) (sgnw 1024#32) = 0#1 := by decide
      rw [e]; exact BitVec.zero_and
  rw [hcond, select_zero, hdiv]

/-- The floor-division word at `t` is the lowered floor division applied to the word it divides. -/
theorem v14_eq (a1 : IVec S4x4096 32) (t : Fin 8) :
    Stg.main_v14 a1 (ix1 t)
      = Scalar.select (IntOp.andi (IntOp.cmpi .ne (sgnw (Stg.main_v13 a1 (ix1 t))) (sgnw 1024#32))
          (IntOp.cmpi .ne (IntOp.remsi .host (Stg.main_v13 a1 (ix1 t)) 1024#32) 0#32))
        (IntOp.subi (IntOp.divsi .host (Stg.main_v13 a1 (ix1 t)) 1024#32) 1#32)
        (IntOp.divsi .host (Stg.main_v13 a1 (ix1 t)) 1024#32) := rfl

/-- The count plus 1023, as a word. -/
theorem v13_apply (a1 : IVec S4x4096 32) (t : Fin 8) :
    Stg.main_v13 a1 (ix1 t) = BitVec.ofNat 32 (Cert.Grouped.cnt (Tok.tyN a1) t.val + 1024 - 1) := by
  show IntOp.subi (IntOp.addi (Stg.main_v9 a1 (ix1 t)) 1024#32) 1#32 = _
  rw [c9]
  have hc := Cert.Grouped.cnt_le (Tok.tyN a1) t.val
  apply BitVec.eq_of_toNat_eq
  show (BitVec.ofNat 32 _ + 1024#32 - 1#32).toNat = _
  simp only [BitVec.toNat_sub, BitVec.toNat_add, BitVec.toNat_ofNat]; omega

/-- The padded count word of type `t` is the word of the count rounded up to a multiple of 1024. -/
theorem c16 (a1 : IVec S4x4096 32) (t : Fin 8) :
    Stg.main_v16 a1 (ix1 t) = BitVec.ofNat 32 (Cert.Grouped.pc (Tok.tyN a1) 1024 t.val) := by
  have hc := Cert.Grouped.cnt_le (Tok.tyN a1) t.val
  show IntOp.muli (Stg.main_v14 a1 (ix1 t)) 1024#32 = _
  rw [v14_eq, floordiv_1024 _ (by rw [v13_apply, BitVec.toNat_ofNat]; omega), v13_apply, BitVec.toNat_ofNat,
    Nat.mod_eq_of_lt (by omega)]
  unfold Cert.Grouped.pc
  rw [BitVec.ofNat_mul]; rfl

/-! ### Running sums -/

/-- A fold over `List.finRange m` along an equality of the bounds. -/
theorem foldl_finRange_cast {α : Type} {m m' : ℕ} (e : m = m') (g : α → Fin m → α) (v : α) :
    (List.finRange m).foldl g v = (List.finRange m').foldl (fun r n => g r (n.cast e.symm)) v := by
  subst e; rfl

/-- A left fold of word additions of words of naturals is the word of the sum. -/
theorem foldl_addi_ofNat (m : ℕ) (d : ℕ → ℕ) (a : ℕ) :
    (List.finRange m).foldl (fun r (n : Fin m) => IntOp.addi r (BitVec.ofNat 32 (d n.val))) (BitVec.ofNat 32 a)
      = BitVec.ofNat 32 (a + ∑ n ∈ Finset.range m, d n) := by
  induction m with
  | zero => simp
  | succ m ih =>
    rw [List.finRange_succ_last, List.foldl_append, List.foldl_map]
    simp only [Fin.val_castSucc]
    rw [ih]
    simp only [List.foldl_cons, List.foldl_nil, Fin.val_last]
    rw [Finset.sum_range_succ, ← Nat.add_assoc]
    exact (BitVec.ofNat_add _ _).symm

/-- The window sums of a length-8 array, window 8 padded 7 low, read at `t`: the fold over the eight window
positions `n` of the entry at `t + n - 7` where that is inside the array, of the initial value elsewhere. -/
theorem window_apply (x : IVec S8 32) (init : S_.Idx → BitVec 32)
    (h : S8.ReduceWindows (![8] : Fin 1 → ℕ) ![1] ![7] ![0] S8) (hu : 0 < S_.numel) (t : Fin 8) :
    Host.reduceWindow IntOp.addi ![8] ![1] ![7] ![0] x init h hu (ix1 t)
      = (List.finRange 8).foldl (fun r (n : Fin 8) => IntOp.addi r
          (if hin : 7 ≤ t.val + n.val ∧ t.val + n.val - 7 < 8 then x (ix1 ⟨t.val + n.val - 7, hin.2⟩)
            else init (Shape.Idx.first hu))) (init (Shape.Idx.first hu)) := by
  unfold Host.reduceWindow
  dsimp only
  have e8 : Shape.numel ⟨1, ![8]⟩ = 8 := Shape.numel_rank1 ![8]
  refine (foldl_finRange_cast e8 _ _).trans ?_
  congr 1
  funext r n
  congr 1
  have hp0 : ((Shape.rowMajor ⟨1, ![8]⟩).symm (n.cast e8.symm) 0).val = n.val := by
    have := Shape.rowMajor_val_one ((Shape.rowMajor ⟨1, ![8]⟩).symm (n.cast e8.symm))
    rw [Equiv.apply_symm_apply] at this
    exact this.symm
  split
  · next hin =>
    have h0 := hin 0
    change 7 ≤ t.val * 1 + _ ∧ t.val * 1 + _ - 7 < 8 at h0
    have hc : 7 ≤ t.val + n.val ∧ t.val + n.val - 7 < 8 := by omega
    rw [dif_pos hc]
    congr 1; funext a
    obtain rfl : a = 0 := Subsingleton.elim _ _
    apply Fin.ext
    change t.val * 1 + _ - 7 = t.val + n.val - 7
    omega
  · next hin =>
    rw [dif_neg]
    intro hc
    apply hin
    intro a
    obtain rfl : a = 0 := Subsingleton.elim _ _
    change 7 ≤ t.val * 1 + _ ∧ t.val * 1 + _ - 7 < 8
    omega

/-- The eight window positions over `u` pick out the entries `0, …, u`. -/
theorem sum_window (c : ℕ → ℕ) (u : ℕ) (hu : u < 8) :
    ∑ n ∈ Finset.range 8, (if 7 ≤ u + n ∧ u + n - 7 < 8 then c (u + n - 7) else 0)
      = ∑ s ∈ Finset.range (u + 1), c s := by
  interval_cases u <;> simp [Finset.sum_range_succ]

/-- A zero followed by the running sums of a length-8 array of words of naturals, cut to its first eight entries:
entry `t` is the word of the sum of the first `t` naturals. -/
theorem shifted_cumsum (y : IVec S8 32) (c : ℕ → ℕ) (hy : ∀ s : Fin 8, y (ix1 s) = BitVec.ofNat 32 (c s.val))
    (z : IVec S1 32) (hz : ∀ k, z k = 0#32) (init : S_.Idx → BitVec 32) (hinit : ∀ k, init k = 0#32)
    (hw : S8.ReduceWindows (![8] : Fin 1 → ℕ) ![1] ![7] ![0] S8) (hu : 0 < S_.numel)
    (hcat : Shape.Concatenates [S1, S8] S9 0) (hsl : S9.Slices ![0] S8) (t : Fin 8) :
    extractStridedSlice S8 ![0] (concatenate S9 0
        [⟨S1, z⟩, ⟨S8, Host.reduceWindow IntOp.addi ![8] ![1] ![7] ![0] y init hw hu⟩] hcat) hsl (ix1 t)
      = BitVec.ofNat 32 (∑ s ∈ Finset.range t.val, c s) := by
  have ht8 := t.isLt
  rw [extractStridedSlice_apply _ _ hsl (ix1 t) (ix1 ⟨t.val, by omega⟩)
    (fun a => by match a with | ⟨0, _⟩ => exact (Nat.zero_add _).symm)]
  by_cases ht : t.val = 0
  · rw [concatenate_pair_apply_left 0 z _ hcat _ rfl (ix1 0)
      (fun b => by match b with | ⟨0, _⟩ => exact ht.symm), hz, ht]
    rfl
  · rw [concatenate_pair_apply_right 0 z _ hcat _ rfl rfl (ix1 ⟨t.val - 1, by omega⟩)
      (fun b hb => absurd (Subsingleton.elim _ _) hb) (by show t.val - 1 + 1 = t.val; omega)]
    rw [window_apply]
    have key : (fun (r : BitVec 32) (n : Fin 8) => IntOp.addi r
          (if hin : 7 ≤ t.val - 1 + n.val ∧ t.val - 1 + n.val - 7 < 8
            then y (ix1 ⟨t.val - 1 + n.val - 7, hin.2⟩) else init (Shape.Idx.first hu)))
        = (fun r n => IntOp.addi r (BitVec.ofNat 32
            (if 7 ≤ t.val - 1 + n.val ∧ t.val - 1 + n.val - 7 < 8 then c (t.val - 1 + n.val - 7) else 0))) := by
      funext r n; congr 1; split
      · exact hy _
      · exact hinit _
    rw [key, hinit]
    exact (foldl_addi_ofNat 8
      (fun k => if 7 ≤ t.val - 1 + k ∧ t.val - 1 + k - 7 < 8 then c (t.val - 1 + k - 7) else 0) 0).trans
      (by rw [Nat.zero_add, sum_window c (t.val - 1) (by omega), Nat.sub_add_cancel (by omega)])

/-- The unpadded start word of type `t` is the word of the number of tokens of smaller type. -/
theorem c20 (a1 : IVec S4x4096 32) (t : Fin 8) :
    Stg.main_v20 a1 (ix1 t) = BitVec.ofNat 32 (Cert.Grouped.us (Tok.tyN a1) t.val) := by
  have hz : ∀ k, Stg.main_v17 k = 0#32 := fun _ => rfl
  have hi : ∀ k, Stg.main_call1_call0_v0 k = 0#32 := fun _ => rfl
  unfold Stg.main_v20 Stg.main_v19 Stg.main_v18 Cert.Grouped.us
  beta_reduce
  exact shifted_cumsum (Stg.main_v9 a1) (Cert.Grouped.cnt (Tok.tyN a1)) (c9 a1) Stg.main_v17 hz
    Stg.main_call1_call0_v0 hi _ _ _ _ t

/-- The padded start word of type `t` is the word of the sum of the padded counts of the smaller types. -/
theorem c24 (a1 : IVec S4x4096 32) (t : Fin 8) :
    Stg.main_v24 a1 (ix1 t) = BitVec.ofNat 32 (Cert.Grouped.ps (Tok.tyN a1) 1024 t.val) := by
  have hz : ∀ k, Stg.main_v21 k = 0#32 := fun _ => rfl
  have hi : ∀ k, Stg.main_call2_call0_v0 k = 0#32 := fun _ => rfl
  unfold Stg.main_v24 Stg.main_v23 Stg.main_v22 Cert.Grouped.ps
  beta_reduce
  exact shifted_cumsum (Stg.main_v16 a1) (Cert.Grouped.pc (Tok.tyN a1) 1024) (c16 a1) Stg.main_v21 hz
    Stg.main_call2_call0_v0 hi _ _ _ _ t

/-- The padded end word of type `t` is the word of the padded start plus the padded count. -/
theorem c25 (a1 : IVec S4x4096 32) (t : Fin 8) :
    Stg.main_v25 a1 (ix1 t) = BitVec.ofNat 32 (Cert.Grouped.pe (Tok.tyN a1) 1024 t.val) := by
  show IntOp.addi (Stg.main_v24 a1 (ix1 t)) (Stg.main_v16 a1 (ix1 t)) = _
  rw [c24, c16]
  exact (BitVec.ofNat_add _ _).symm

/-! ### The type of each tile -/

/-- The widened bit of a signed comparison of the words of two naturals below `2^31` is the 0/1 indicator of the
comparison of the naturals. -/
theorem extui_cmpi_sle_ofNat (a b : ℕ) (ha : a < 2 ^ 31) (hb : b < 2 ^ 31) :
    (IntOp.cmpi .sle (BitVec.ofNat 32 a) (BitVec.ofNat 32 b)).setWidth 32 = if a ≤ b then 1#32 else 0#32 := by
  have hle : (BitVec.ofNat 32 a).sle (BitVec.ofNat 32 b) = decide (a ≤ b) := by
    rw [BitVec.sle_eq_decide, decide_eq_decide,
      BitVec.toInt_eq_toNat_of_lt (by rw [BitVec.toNat_ofNat]; omega),
      BitVec.toInt_eq_toNat_of_lt (by rw [BitVec.toNat_ofNat]; omega), BitVec.toNat_ofNat, BitVec.toNat_ofNat]
    omega
  show (BitVec.ofBool ((BitVec.ofNat 32 a).sle (BitVec.ofNat 32 b))).setWidth 32 = _
  rw [hle]
  by_cases h : a ≤ b
  · rw [if_pos h, decide_eq_true h]; rfl
  · rw [if_neg h, decide_eq_false h]; rfl

/-- The comparison table at (tile `p`, type `t`): 1 if the padded end of type `t` is at most the tile's first
slot `1024 p`, else 0. -/
theorem v78_apply (a1 : IVec S4x4096 32) (p : Fin 24) (t : Fin 8) :
    Stg.main_v78 a1 (ix2 p t)
      = if Cert.Grouped.pe (Tok.tyN a1) 1024 t.val ≤ 1024 * p.val then 1#32 else 0#32 := by
  have h75 : Stg.main_v75 a1 (ix2 p t) = Stg.main_v25 a1 (ix1 t) := by
    unfold Stg.main_v75 Stg.main_v73
    rw [broadcastInDim_apply _ _ _ (ix2 p t) (ix2 (0 : Fin 1) t)
      (fun a => by match a with | ⟨0, _⟩ => rfl | ⟨1, _⟩ => rfl)]
    exact broadcastInDim_apply _ _ _ (ix2 (0 : Fin 1) t) (ix1 t) (fun a => by match a with | ⟨0, _⟩ => rfl)
  have h76 : Stg.main_v76 (ix2 p t) = BitVec.ofNat 32 (p.val * 1024) := by
    unfold Stg.main_v76 Stg.main_v74
    rw [broadcastInDim_apply _ _ _ (ix2 p t) (ix2 p (0 : Fin 1))
      (fun a => by match a with | ⟨0, _⟩ => rfl | ⟨1, _⟩ => rfl)]
    rw [broadcastInDim_apply _ _ _ (ix2 p (0 : Fin 1)) (ix1 p) (fun a => by match a with | ⟨0, _⟩ => rfl)]
    exact (BitVec.ofNat_mul ..).symm
  have hpe : Cert.Grouped.pe (Tok.tyN a1) 1024 t.val ≤ 16384 + 8 * 1024 := Cert.Grouped.pe_le_bound _ _ t.isLt
  have hp := p.isLt
  show (IntOp.cmpi .sle (Stg.main_v75 a1 (ix2 p t)) (Stg.main_v76 (ix2 p t))).setWidth 32 = _
  rw [h75, h76, c25, extui_cmpi_sle_ofNat _ _ (by omega) (by omega), Nat.mul_comm p.val]

/-- The source index over result index `p` with column `k` inserted on the reduced trailing axis is `(p, k)`. -/
theorem lift_cols (h : S24x8.Reduces [1] S24) (p : Fin 24) (k : Fin 8) : h.lift (ix1 p) k = ix2 p k := by
  funext c; apply Fin.ext
  match c with
  | ⟨0, _⟩ => rfl
  | ⟨1, _⟩ => rfl

/-- Counting below `n` over `Finset.range n` or over `Fin n` gives the same number. -/
theorem card_filter_range (n : ℕ) (q : ℕ → Prop) [DecidablePred q] :
    (Finset.univ.filter (fun k : Fin n => q k.val)).card = ((Finset.range n).filter q).card := by
  rw [Finset.card_filter, Finset.card_filter, Finset.sum_range]

/-- The type word of tile `p`: the number of types whose padded end is at most the tile's first slot,
capped at 7. -/
theorem c81 (a1 : IVec S4x4096 32) (p : Fin 24) :
    Stg.main_v81 a1 (ix1 p) = BitVec.ofNat 32 (min ((Finset.range 8).filter
      (fun t => Cert.Grouped.pe (Tok.tyN a1) 1024 t ≤ 1024 * p.val)).card 7) := by
  have h : S24x8.Reduces [1] S24 := by decide
  have h79 : Stg.main_v79 a1 (ix1 p) = BitVec.ofNat 32 ((Finset.range 8).filter
      (fun t => Cert.Grouped.pe (Tok.tyN a1) 1024 t ≤ 1024 * p.val)).card := by
    unfold Stg.main_v79
    beta_reduce
    rw [Host.reduce_eq_fold_single IntOp.addi (Stg.main_v78 a1) Stg.main_c_20 _ h _ (ix1 p)]
    have hf : ∀ k ∈ (Finset.univ : Finset (Fin 8)), (Stg.main_v78 a1 ∘ h.lift (ix1 p)) k
        = (fun k : Fin 8 => if Cert.Grouped.pe (Tok.tyN a1) 1024 k.val ≤ 1024 * p.val then 1#32 else 0#32) k := by
      intro k _
      show Stg.main_v78 a1 (h.lift (ix1 p) k) = _
      rw [lift_cols, v78_apply]
    refine ((Finset.fold_congr hf).trans (fold_addi_indicator _ _)).trans ?_
    rw [card_filter_range 8 (fun t => Cert.Grouped.pe (Tok.tyN a1) 1024 t ≤ 1024 * p.val)]
  have hN : ((Finset.range 8).filter (fun t => Cert.Grouped.pe (Tok.tyN a1) 1024 t ≤ 1024 * p.val)).card ≤ 8 :=
    (Finset.card_filter_le _ _).trans_eq (Finset.card_range 8)
  show IntOp.minsi (Stg.main_v79 a1 (ix1 p)) 7#32 = _
  rw [h79]
  apply BitVec.eq_of_toNat_eq
  rw [WordArith.toNat_minsi_of_lt _ _ (by rw [BitVec.toNat_ofNat]; omega) (by decide), BitVec.toNat_ofNat,
    BitVec.toNat_ofNat, BitVec.toNat_ofNat, show 7 % 2 ^ 32 = 7 by norm_num]
  omega

end Cert.KernelIdeal.Wc

end
-- ==== Proof.Spec.lean ====
/-
  The function both programs compute, index by index, on the extended reals.

  A token (b, s) carries a row x[b, s, ·] of 1024 numbers and a type word; with τ the type (read as a natural
  number, reduced modulo 8 so that the definition is total), the result row is the type's linear map applied to the
  token's row plus the type's bias:  out[b, s, o] = Σ_k x[b, s, k] · W[τ, k, o] + bias[τ, o].
-/
import Idealize.ShloMosaic.Lib.ValueIdx
import Idealize.ShloMosaic.PureOps.Ideal

noncomputable section

namespace Cert.Spec

open Idealize.ShloMosaic Idealize.ShloMosaic.ValueIdx

/-- The type of token (b, s): its word as a natural number, modulo 8. -/
def tyOf (ty : IVec ⟨2, ![4, 4096]⟩ 32) (b : Fin 4) (s : Fin 4096) : Fin 8 :=
  ⟨(ty (ix2 b s)).toNat % 8, Nat.mod_lt _ (by norm_num)⟩

/-- A row of x against column o of the type-τ matrix, plus the type's bias at o. -/
def lin (x : FVec Ideal ⟨3, ![4, 4096, 1024]⟩ .f32) (W : FVec Ideal ⟨3, ![8, 1024, 1024]⟩ .f32)
    (bias : FVec Ideal ⟨2, ![8, 1024]⟩ .f32) (τ : Fin 8) (b : Fin 4) (s : Fin 4096) (o : Fin 1024) : EReal :=
  (∑ k : Fin 1024, x (ix3 b s k) * W (ix3 τ k o)) + bias (ix2 τ o)

/-- The per-type linear layer: every token through its own type's matrix and bias. -/
def out (x : FVec Ideal ⟨3, ![4, 4096, 1024]⟩ .f32) (ty : IVec ⟨2, ![4, 4096]⟩ 32)
    (W : FVec Ideal ⟨3, ![8, 1024, 1024]⟩ .f32) (bias : FVec Ideal ⟨2, ![8, 1024]⟩ .f32) :
    FVec Ideal ⟨3, ![4, 4096, 1024]⟩ .f32 :=
  fun i => lin x W bias (tyOf ty (i 0) (i 1)) (i 0) (i 1) (i 2)

theorem out_apply (x : FVec Ideal ⟨3, ![4, 4096, 1024]⟩ .f32) (ty : IVec ⟨2, ![4, 4096]⟩ 32)
    (W : FVec Ideal ⟨3, ![8, 1024, 1024]⟩ .f32) (bias : FVec Ideal ⟨2, ![8, 1024]⟩ .f32)
    (b : Fin 4) (s : Fin 4096) (o : Fin 1024) :
    out x ty W bias (ix3 b s o) = lin x W bias (tyOf ty b s) b s o := rfl

end Cert.Spec

end
-- ==== Proof.TileType.lean ====
/-
  The type of the tile a token is placed in. Token number j of the sorted order goes to the padded slot D j; the
  tile containing that slot is tile D j / 1024, and the type word the kernel reads for that tile is the token's own
  type, which is the type the specification assigns to the token.
-/
import proofs.«167811_j5703716569224_2_alg».proof.Proof.WordsCounts
import proofs.«167811_j5703716569224_2_alg».proof.Proof.WordsSort
import proofs.«167811_j5703716569224_2_alg».proof.Proof.Spec

set_option maxRecDepth 16384

noncomputable section

namespace Cert.KernelIdeal.Tt

open Cert.KernelIdeal Cert.KernelIdeal.Gen Idealize.ShloMosaic Idealize.ShloMosaic.ValueIdx

/-- Every padded slot is below `16384 + 8 · 1024 = 24576`. -/
theorem dest_lt (a1 : IVec S4x4096 32) (h : Tok.InRange a1) (j : Fin 16384) :
    Cert.Grouped.dest (Tok.tyN a1) 1024 (Ws.sigma a1) j < 24576 :=
  Cert.Grouped.dest_lt (T := 8) (Tok.tyN a1) (by norm_num) (Tok.tyN_lt h) (Ws.sigma a1) (Ws.sigma_bij a1)
    (Ws.sigma_mono a1 h) j

/-- The type word of the tile containing the slot of `j` is the type of the `j`-th token of the sorted order:
the number of types whose padded end is at most the tile's first slot is that type, which is below 8, so the cap
at 7 does not change it. -/
theorem tile_word (a1 : IVec S4x4096 32) (h : Tok.InRange a1) (j : Fin 16384)
    (hp : Cert.Grouped.dest (Tok.tyN a1) 1024 (Ws.sigma a1) j / 1024 < 24) :
    (Stg.main_v81 a1 (ix1 ⟨Cert.Grouped.dest (Tok.tyN a1) 1024 (Ws.sigma a1) j / 1024, hp⟩)).toNat
      = Tok.tyN a1 (Ws.sigma a1 j) := by
  have ht := Cert.Grouped.tile_type (T := 8) (Tok.tyN a1) (by norm_num : 0 < 1024) (Tok.tyN_lt h) (Ws.sigma a1)
    (Ws.sigma_bij a1) (Ws.sigma_mono a1 h) j
  have hlt := Tok.tyN_lt h (Ws.sigma a1 j)
  rw [Wc.c81, BitVec.toNat_ofNat]
  show min ((Finset.range 8).filter (fun t => Cert.Grouped.pe (Tok.tyN a1) 1024 t
    ≤ 1024 * (Cert.Grouped.dest (Tok.tyN a1) 1024 (Ws.sigma a1) j / 1024))).card 7 % 2 ^ 32 = _
  rw [ht]
  omega

/-- The specification's type of token `(b, s)` is the type of token `4096 b + s` of the flat array: under the
precondition the type word is below 8, so reducing it modulo 8 changes nothing. -/
theorem tyOf_token (a1 : IVec S4x4096 32) (h : Tok.InRange a1) (b : Fin 4) (s : Fin 4096)
    (hI : 4096 * b.val + s.val < 16384) :
    (Cert.Spec.tyOf a1 b s).val = Tok.tyN a1 ⟨4096 * b.val + s.val, hI⟩ := by
  unfold Tok.tyN
  rw [Tok.v1_apply a1 b s hI]
  exact Nat.mod_eq_of_lt (h (ix2 b s))

/-- The capped type word of the tile containing the slot of `j` is the specification's type of the token
`(b, s)` that the sorted order lists at position `j`. -/
theorem tile_type_eq (a1 : IVec S4x4096 32) (h : Tok.InRange a1) (j : Fin 16384) (b : Fin 4) (s : Fin 4096)
    (hbs : (Ws.sigma a1 j).val = 4096 * b.val + s.val)
    (hp : Cert.Grouped.dest (Tok.tyN a1) 1024 (Ws.sigma a1) j / 1024 < 24) :
    (⟨min (Stg.main_v81 a1 (ix1 ⟨Cert.Grouped.dest (Tok.tyN a1) 1024 (Ws.sigma a1) j / 1024, hp⟩)).toNat 7,
      by omega⟩ : Fin 8) = Cert.Spec.tyOf a1 b s := by
  apply Fin.ext
  have hI : 4096 * b.val + s.val < 16384 := by rw [← hbs]; exact (Ws.sigma a1 j).isLt
  have hσ : Ws.sigma a1 j = ⟨4096 * b.val + s.val, hI⟩ := Fin.ext hbs
  have hlt := Tok.tyN_lt h (Ws.sigma a1 j)
  show min (Stg.main_v81 a1 (ix1 ⟨Cert.Grouped.dest (Tok.tyN a1) 1024 (Ws.sigma a1) j / 1024, hp⟩)).toNat 7 = _
  rw [tile_word a1 h j hp, tyOf_token a1 h b s hI, ← hσ]
  omega

end Cert.KernelIdeal.Tt

end
-- ==== Proof.StagesRun.lean ====
/-
  What the kernel's region finds in the buffers the host operations before it wrote: each is the corresponding pure
  function of the argument arrays.
-/
import proofs.«167811_j5703716569224_2_alg».proof.Proof.Stages
import Idealize.ShloMosaic.Lib.StableHlo.Run

set_option maxRecDepth 65536

noncomputable section

namespace Cert.KernelIdeal.StgV

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000

theorem seg0_main_arg3 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_arg3) = a3 := by
  simp only [hostOps0, TRef.binary, TRef.unary, TRef.nullary, TRef.ternary]
  after_results_simp
  exact h_main_arg3

theorem seg0_main_arg2 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_arg2) = a2 := by
  simp only [hostOps0, TRef.binary, TRef.unary, TRef.nullary, TRef.ternary]
  after_results_simp
  exact h_main_arg2

theorem seg0_main_v0 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_v0) = Stg.main_v0 a0 := by
  simp only [hostOps0, TRef.binary, TRef.unary, TRef.nullary, TRef.ternary]
  after_results_simp
  try dsimp only [TRef.ofBuf, TRef.toBuf, TRef.of, cast_eq]
  try simp only [h_main_arg0, h_main_arg1, h_main_arg2, h_main_arg3]
  try rw [h_main_arg0]
  try rw [h_main_arg1]
  try rw [h_main_arg2]
  try rw [h_main_arg3]
  rfl

theorem seg0_main_v1 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_v1) = Stg.main_v1 a1 := by
  simp only [hostOps0, TRef.binary, TRef.unary, TRef.nullary, TRef.ternary]
  after_results_simp
  try dsimp only [TRef.ofBuf, TRef.toBuf, TRef.of, cast_eq]
  try simp only [h_main_arg0, h_main_arg1, h_main_arg2, h_main_arg3]
  try rw [h_main_arg0]
  try rw [h_main_arg1]
  try rw [h_main_arg2]
  try rw [h_main_arg3]
  rfl

theorem seg0_main_v9 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_v9) = Stg.main_v9 a1 := by
  simp only [hostOps0, TRef.binary, TRef.unary, TRef.nullary, TRef.ternary]
  after_results_simp
  try dsimp only [TRef.ofBuf, TRef.toBuf, TRef.of, cast_eq]
  try simp only [h_main_arg0, h_main_arg1, h_main_arg2, h_main_arg3]
  try rw [h_main_arg0]
  try rw [h_main_arg1]
  try rw [h_main_arg2]
  try rw [h_main_arg3]
  rfl

theorem seg0_main_v13 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_v13) = Stg.main_v13 a1 := by
  simp only [hostOps0, TRef.binary, TRef.unary, TRef.nullary, TRef.ternary]
  after_results_simp
  try dsimp only [TRef.ofBuf, TRef.toBuf, TRef.of, cast_eq]
  try simp only [h_main_arg0, h_main_arg1, h_main_arg2, h_main_arg3]
  try rw [h_main_arg0]
  try rw [h_main_arg1]
  try rw [h_main_arg2]
  try rw [h_main_arg3]
  rfl

theorem seg0_main_c_2 (W : Valuation τ sig (Elt F)) (a0 : FVec F S4x4096x1024 .f32) (a1 : IVec S4x4096 32) (a2 : FVec F S8x1024x1024 .f32) (a3 : FVec F S8x1024 .f32)
    (h_main_arg0 : W (Proc.devRef .tc main_arg0) = a0)
    (h_main_arg1 : W (Proc.devRef .tc main_arg1) = a1)
    (h_main_arg2 : W (Proc.devRef .tc main_arg2) = a2)
    (h_main_arg3 : W (Proc.devRef .tc main_arg3) = a3) :
    StableHlo.after (hostOps0 (F := F)) W (Proc.devRef .tc main_c_2) = Stg.main_c_2 := by
  simp only [hostOps0, TRef.binary, TRef.unary, TRef.nullary, TRef.ternary]
  after_results_simp
  try dsimp only [TRef.ofBuf, TRef.toBuf, TRef.of, cast_eq]
  try simp only [h_main_arg0, h_main_arg1, h_main_arg2, h_main_arg3]
  try rw [h_main_arg0]
  try rw [h_main_arg1]
  try rw [h_main_arg2]
  try rw [h_main_arg3]
  rfl

theorem seg1_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_arg3) = a3 := by
  simp only [hostOps0_1, TRef.binary, TRef.unary, TRef.nullary, TRef.ternary]
  after_results_simp
  exact h_main_arg3

theorem seg1_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_arg2) = a2 := by
  simp only [hostOps0_1, TRef.binary, TRef.unary, TRef.nullary, TRef.ternary]
  after_results_simp
  exact h_main_arg2

theorem seg1_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_v0) = Stg.main_v0 a0 := by
  simp only [hostOps0_1, TRef.binary, TRef.unary, TRef.nullary, TRef.ternary]
  after_results_simp
  exact h_main_v0

theorem seg1_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_v1) = Stg.main_v1 a1 := by
  simp only [hostOps0_1, TRef.binary, TRef.unary, TRef.nullary, TRef.ternary]
  after_results_simp
  exact h_main_v1

theorem seg1_main_v9 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_v9) = Stg.main_v9 a1 := by
  simp only [hostOps0_1, TRef.binary, TRef.unary, TRef.nullary, TRef.ternary]
  after_results_simp
  exact h_main_v9

theorem seg1_main_v14 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v13 : W (Proc.devRef .tc main_v13) = Stg.main_v13 a1)
    (h_main_c_2 : W (Proc.devRef .tc main_c_2) = Stg.main_c_2) :
    StableHlo.after (hostOps0_1 (F := F)) W (Proc.devRef .tc main_v14) = Stg.main_v14 a1 := by
  simp only [hostOps0_1, TRef.binary, TRef.unary, TRef.nullary, TRef.ternary]
  after_results_simp
  try dsimp only [TRef.ofBuf, TRef.toBuf, TRef.of, cast_eq]
  try simp only [h_main_arg3, h_main_arg2, h_main_v0, h_main_v1, h_main_v9, h_main_v13, h_main_c_2]
  try rw [h_main_arg3]
  try rw [h_main_arg2]
  try rw [h_main_v0]
  try rw [h_main_v1]
  try rw [h_main_v9]
  try rw [h_main_v13]
  try rw [h_main_c_2]
  rfl

theorem seg2_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_arg3) = a3 := by
  simp only [hostOps0_2, TRef.binary, TRef.unary, TRef.nullary, TRef.ternary]
  after_results_simp
  exact h_main_arg3

theorem seg2_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_arg2) = a2 := by
  simp only [hostOps0_2, TRef.binary, TRef.unary, TRef.nullary, TRef.ternary]
  after_results_simp
  exact h_main_arg2

theorem seg2_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_v0) = Stg.main_v0 a0 := by
  simp only [hostOps0_2, TRef.binary, TRef.unary, TRef.nullary, TRef.ternary]
  after_results_simp
  exact h_main_v0

theorem seg2_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_v1) = Stg.main_v1 a1 := by
  simp only [hostOps0_2, TRef.binary, TRef.unary, TRef.nullary, TRef.ternary]
  after_results_simp
  exact h_main_v1

theorem seg2_main_v16 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_v16) = Stg.main_v16 a1 := by
  simp only [hostOps0_2, TRef.binary, TRef.unary, TRef.nullary, TRef.ternary]
  after_results_simp
  try dsimp only [TRef.ofBuf, TRef.toBuf, TRef.of, cast_eq]
  try simp only [h_main_arg3, h_main_arg2, h_main_v0, h_main_v1, h_main_v9, h_main_v14]
  try rw [h_main_arg3]
  try rw [h_main_arg2]
  try rw [h_main_v0]
  try rw [h_main_v1]
  try rw [h_main_v9]
  try rw [h_main_v14]
  rfl

theorem seg2_main_v17 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_v17) = Stg.main_v17 := by
  simp only [hostOps0_2, TRef.binary, TRef.unary, TRef.nullary, TRef.ternary]
  after_results_simp
  try dsimp only [TRef.ofBuf, TRef.toBuf, TRef.of, cast_eq]
  try simp only [h_main_arg3, h_main_arg2, h_main_v0, h_main_v1, h_main_v9, h_main_v14]
  try rw [h_main_arg3]
  try rw [h_main_arg2]
  try rw [h_main_v0]
  try rw [h_main_v1]
  try rw [h_main_v9]
  try rw [h_main_v14]
  rfl

theorem seg2_main_v9 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v9 : W (Proc.devRef .tc main_v9) = Stg.main_v9 a1)
    (h_main_v14 : W (Proc.devRef .tc main_v14) = Stg.main_v14 a1) :
    StableHlo.after (hostOps0_2 (F := F)) W (Proc.devRef .tc main_v9) = Stg.main_v9 a1 := by
  simp only [hostOps0_2, TRef.binary, TRef.unary, TRef.nullary, TRef.ternary]
  after_results_simp
  exact h_main_v9

theorem seg3_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_arg3) = a3 := by
  simp only [hostOps0_3, TRef.binary, TRef.unary, TRef.nullary, TRef.ternary]
  after_results_simp
  exact h_main_arg3

theorem seg3_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_arg2) = a2 := by
  simp only [hostOps0_3, TRef.binary, TRef.unary, TRef.nullary, TRef.ternary]
  after_results_simp
  exact h_main_arg2

theorem seg3_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_v0) = Stg.main_v0 a0 := by
  simp only [hostOps0_3, TRef.binary, TRef.unary, TRef.nullary, TRef.ternary]
  after_results_simp
  exact h_main_v0

theorem seg3_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_v1) = Stg.main_v1 a1 := by
  simp only [hostOps0_3, TRef.binary, TRef.unary, TRef.nullary, TRef.ternary]
  after_results_simp
  exact h_main_v1

theorem seg3_main_v16 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_v16) = Stg.main_v16 a1 := by
  simp only [hostOps0_3, TRef.binary, TRef.unary, TRef.nullary, TRef.ternary]
  after_results_simp
  exact h_main_v16

theorem seg3_main_v17 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_v17) = Stg.main_v17 := by
  simp only [hostOps0_3, TRef.binary, TRef.unary, TRef.nullary, TRef.ternary]
  after_results_simp
  exact h_main_v17

theorem seg3_main_v18 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v9 : W (Proc.devRef .tc main_v9) = Stg.main_v9 a1) :
    StableHlo.after (hostOps0_3 (F := F)) W (Proc.devRef .tc main_v18) = Stg.main_v18 a1 := by
  simp only [hostOps0_3, TRef.binary, TRef.unary, TRef.nullary, TRef.ternary]
  after_results_simp
  try dsimp only [TRef.ofBuf, TRef.toBuf, TRef.of, cast_eq]
  try simp only [h_main_arg3, h_main_arg2, h_main_v0, h_main_v1, h_main_v16, h_main_v17, h_main_v9]
  try rw [h_main_arg3]
  try rw [h_main_arg2]
  try rw [h_main_v0]
  try rw [h_main_v1]
  try rw [h_main_v16]
  try rw [h_main_v17]
  try rw [h_main_v9]
  rfl

theorem seg4_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_arg3) = a3 := by
  simp only [hostOps0_4, TRef.binary, TRef.unary, TRef.nullary, TRef.ternary]
  after_results_simp
  exact h_main_arg3

theorem seg4_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_arg2) = a2 := by
  simp only [hostOps0_4, TRef.binary, TRef.unary, TRef.nullary, TRef.ternary]
  after_results_simp
  exact h_main_arg2

theorem seg4_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_v0) = Stg.main_v0 a0 := by
  simp only [hostOps0_4, TRef.binary, TRef.unary, TRef.nullary, TRef.ternary]
  after_results_simp
  exact h_main_v0

theorem seg4_main_v20 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_v20) = Stg.main_v20 a1 := by
  simp only [hostOps0_4, TRef.binary, TRef.unary, TRef.nullary, TRef.ternary]
  after_results_simp
  try dsimp only [TRef.ofBuf, TRef.toBuf, TRef.of, cast_eq]
  try simp only [h_main_arg3, h_main_arg2, h_main_v0, h_main_v1, h_main_v16, h_main_v17, h_main_v18]
  try rw [h_main_arg3]
  try rw [h_main_arg2]
  try rw [h_main_v0]
  try rw [h_main_v1]
  try rw [h_main_v16]
  try rw [h_main_v17]
  try rw [h_main_v18]
  rfl

theorem seg4_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_v1) = Stg.main_v1 a1 := by
  simp only [hostOps0_4, TRef.binary, TRef.unary, TRef.nullary, TRef.ternary]
  after_results_simp
  exact h_main_v1

theorem seg4_main_v16 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_v16) = Stg.main_v16 a1 := by
  simp only [hostOps0_4, TRef.binary, TRef.unary, TRef.nullary, TRef.ternary]
  after_results_simp
  exact h_main_v16

theorem seg4_main_v21 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v1 : W (Proc.devRef .tc main_v1) = Stg.main_v1 a1)
    (h_main_v16 : W (Proc.devRef .tc main_v16) = Stg.main_v16 a1)
    (h_main_v17 : W (Proc.devRef .tc main_v17) = Stg.main_v17)
    (h_main_v18 : W (Proc.devRef .tc main_v18) = Stg.main_v18 a1) :
    StableHlo.after (hostOps0_4 (F := F)) W (Proc.devRef .tc main_v21) = Stg.main_v21 := by
  simp only [hostOps0_4, TRef.binary, TRef.unary, TRef.nullary, TRef.ternary]
  after_results_simp
  try dsimp only [TRef.ofBuf, TRef.toBuf, TRef.of, cast_eq]
  try simp only [h_main_arg3, h_main_arg2, h_main_v0, h_main_v1, h_main_v16, h_main_v17, h_main_v18]
  try rw [h_main_arg3]
  try rw [h_main_arg2]
  try rw [h_main_v0]
  try rw [h_main_v1]
  try rw [h_main_v16]
  try rw [h_main_v17]
  try rw [h_main_v18]
  rfl

theorem seg5_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_arg3) = a3 := by
  simp only [hostOps0_5, TRef.binary, TRef.unary, TRef.nullary, TRef.ternary]
  after_results_simp
  exact h_main_arg3

theorem seg5_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_arg2) = a2 := by
  simp only [hostOps0_5, TRef.binary, TRef.unary, TRef.nullary, TRef.ternary]
  after_results_simp
  exact h_main_arg2

theorem seg5_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v0) = Stg.main_v0 a0 := by
  simp only [hostOps0_5, TRef.binary, TRef.unary, TRef.nullary, TRef.ternary]
  after_results_simp
  exact h_main_v0

theorem seg5_main_v20 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v20) = Stg.main_v20 a1 := by
  simp only [hostOps0_5, TRef.binary, TRef.unary, TRef.nullary, TRef.ternary]
  after_results_simp
  exact h_main_v20

theorem seg5_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v1) = Stg.main_v1 a1 := by
  simp only [hostOps0_5, TRef.binary, TRef.unary, TRef.nullary, TRef.ternary]
  after_results_simp
  exact h_main_v1

theorem seg5_main_v16 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v16) = Stg.main_v16 a1 := by
  simp only [hostOps0_5, TRef.binary, TRef.unary, TRef.nullary, TRef.ternary]
  after_results_simp
  exact h_main_v16

theorem seg5_main_v21 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v21) = Stg.main_v21 := by
  simp only [hostOps0_5, TRef.binary, TRef.unary, TRef.nullary, TRef.ternary]
  after_results_simp
  exact h_main_v21

theorem seg5_main_v22 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21) :
    StableHlo.after (hostOps0_5 (F := F)) W (Proc.devRef .tc main_v22) = Stg.main_v22 a1 := by
  simp only [hostOps0_5, TRef.binary, TRef.unary, TRef.nullary, TRef.ternary]
  after_results_simp
  try dsimp only [TRef.ofBuf, TRef.toBuf, TRef.of, cast_eq]
  try simp only [h_main_arg3, h_main_arg2, h_main_v0, h_main_v20, h_main_v1, h_main_v16, h_main_v21]
  try rw [h_main_arg3]
  try rw [h_main_arg2]
  try rw [h_main_v0]
  try rw [h_main_v20]
  try rw [h_main_v1]
  try rw [h_main_v16]
  try rw [h_main_v21]
  rfl

theorem seg6_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_arg3) = a3 := by
  simp only [hostOps0_6, TRef.binary, TRef.unary, TRef.nullary, TRef.ternary]
  after_results_simp
  exact h_main_arg3

theorem seg6_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_arg2) = a2 := by
  simp only [hostOps0_6, TRef.binary, TRef.unary, TRef.nullary, TRef.ternary]
  after_results_simp
  exact h_main_arg2

theorem seg6_main_v25 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_v25) = Stg.main_v25 a1 := by
  simp only [hostOps0_6, TRef.binary, TRef.unary, TRef.nullary, TRef.ternary]
  after_results_simp
  try dsimp only [TRef.ofBuf, TRef.toBuf, TRef.of, cast_eq]
  try simp only [h_main_arg3, h_main_arg2, h_main_v0, h_main_v20, h_main_v1, h_main_v16, h_main_v21, h_main_v22]
  try rw [h_main_arg3]
  try rw [h_main_arg2]
  try rw [h_main_v0]
  try rw [h_main_v20]
  try rw [h_main_v1]
  try rw [h_main_v16]
  try rw [h_main_v21]
  try rw [h_main_v22]
  rfl

theorem seg6_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_v0) = Stg.main_v0 a0 := by
  simp only [hostOps0_6, TRef.binary, TRef.unary, TRef.nullary, TRef.ternary]
  after_results_simp
  exact h_main_v0

theorem seg6_main_v24 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_v24) = Stg.main_v24 a1 := by
  simp only [hostOps0_6, TRef.binary, TRef.unary, TRef.nullary, TRef.ternary]
  after_results_simp
  try dsimp only [TRef.ofBuf, TRef.toBuf, TRef.of, cast_eq]
  try simp only [h_main_arg3, h_main_arg2, h_main_v0, h_main_v20, h_main_v1, h_main_v16, h_main_v21, h_main_v22]
  try rw [h_main_arg3]
  try rw [h_main_arg2]
  try rw [h_main_v0]
  try rw [h_main_v20]
  try rw [h_main_v1]
  try rw [h_main_v16]
  try rw [h_main_v21]
  try rw [h_main_v22]
  rfl

theorem seg6_main_v20 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_v20) = Stg.main_v20 a1 := by
  simp only [hostOps0_6, TRef.binary, TRef.unary, TRef.nullary, TRef.ternary]
  after_results_simp
  exact h_main_v20

theorem seg6_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v0 : W (Proc.devRef .tc main_v0) = Stg.main_v0 a0)
    (h_main_v20 : W (Proc.devRef .tc main_v20) = Stg.main_v20 a1)
    (h_main_v1 : W (Proc.devRef .tc main_v1) = Stg.main_v1 a1)
    (h_main_v16 : W (Proc.devRef .tc main_v16) = Stg.main_v16 a1)
    (h_main_v21 : W (Proc.devRef .tc main_v21) = Stg.main_v21)
    (h_main_v22 : W (Proc.devRef .tc main_v22) = Stg.main_v22 a1) :
    StableHlo.after (hostOps0_6 (F := F)) W (Proc.devRef .tc main_v1) = Stg.main_v1 a1 := by
  simp only [hostOps0_6, TRef.binary, TRef.unary, TRef.nullary, TRef.ternary]
  after_results_simp
  exact h_main_v1

theorem seg7_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_arg3) = a3 := by
  simp only [hostOps0_7, TRef.binary, TRef.unary, TRef.nullary, TRef.ternary]
  after_results_simp
  exact h_main_arg3

theorem seg7_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_arg2) = a2 := by
  simp only [hostOps0_7, TRef.binary, TRef.unary, TRef.nullary, TRef.ternary]
  after_results_simp
  exact h_main_arg2

theorem seg7_main_v26 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v26) = Stg.main_v26 a1 := by
  simp only [hostOps0_7, TRef.binary, TRef.unary, TRef.nullary, TRef.ternary]
  after_results_simp
  try dsimp only [TRef.ofBuf, TRef.toBuf, TRef.of, cast_eq]
  try simp only [h_main_arg3, h_main_arg2, h_main_v25, h_main_v0, h_main_v24, h_main_v20, h_main_v1]
  try rw [h_main_arg3]
  try rw [h_main_arg2]
  try rw [h_main_v25]
  try rw [h_main_v0]
  try rw [h_main_v24]
  try rw [h_main_v20]
  try rw [h_main_v1]
  rfl

theorem seg7_main_v25 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v25) = Stg.main_v25 a1 := by
  simp only [hostOps0_7, TRef.binary, TRef.unary, TRef.nullary, TRef.ternary]
  after_results_simp
  exact h_main_v25

theorem seg7_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v0) = Stg.main_v0 a0 := by
  simp only [hostOps0_7, TRef.binary, TRef.unary, TRef.nullary, TRef.ternary]
  after_results_simp
  exact h_main_v0

theorem seg7_main_v24 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v24) = Stg.main_v24 a1 := by
  simp only [hostOps0_7, TRef.binary, TRef.unary, TRef.nullary, TRef.ternary]
  after_results_simp
  exact h_main_v24

theorem seg7_main_v20 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v20) = Stg.main_v20 a1 := by
  simp only [hostOps0_7, TRef.binary, TRef.unary, TRef.nullary, TRef.ternary]
  after_results_simp
  exact h_main_v20

theorem seg7_main_v1 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_7 (F := F)) W (Proc.devRef .tc main_v1) = Stg.main_v1 a1 := by
  simp only [hostOps0_7, TRef.binary, TRef.unary, TRef.nullary, TRef.ternary]
  after_results_simp
  exact h_main_v1

theorem seg8_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_arg3) = a3 := by
  simp only [hostOps0_8, TRef.binary, TRef.unary, TRef.nullary, TRef.ternary]
  after_results_simp
  exact h_main_arg3

theorem seg8_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_arg2) = a2 := by
  simp only [hostOps0_8, TRef.binary, TRef.unary, TRef.nullary, TRef.ternary]
  after_results_simp
  exact h_main_arg2

theorem seg8_main_v50 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v50) = Stg.main_v50 a1 := by
  simp only [hostOps0_8, TRef.binary, TRef.unary, TRef.nullary, TRef.ternary]
  after_results_simp
  try dsimp only [TRef.ofBuf, TRef.toBuf, TRef.of, cast_eq]
  try simp only [h_main_arg3, h_main_arg2, h_main_v26, h_main_v25, h_main_v0, h_main_v24, h_main_v20, h_main_v1]
  try rw [h_main_arg3]
  try rw [h_main_arg2]
  try rw [h_main_v26]
  try rw [h_main_v25]
  try rw [h_main_v0]
  try rw [h_main_v24]
  try rw [h_main_v20]
  try rw [h_main_v1]
  rfl

theorem seg8_main_v26 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v26) = Stg.main_v26 a1 := by
  simp only [hostOps0_8, TRef.binary, TRef.unary, TRef.nullary, TRef.ternary]
  after_results_simp
  exact h_main_v26

theorem seg8_main_v25 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v25) = Stg.main_v25 a1 := by
  simp only [hostOps0_8, TRef.binary, TRef.unary, TRef.nullary, TRef.ternary]
  after_results_simp
  exact h_main_v25

theorem seg8_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v0) = Stg.main_v0 a0 := by
  simp only [hostOps0_8, TRef.binary, TRef.unary, TRef.nullary, TRef.ternary]
  after_results_simp
  exact h_main_v0

theorem seg8_main_v60 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v60) = Stg.main_v60 a1 := by
  simp only [hostOps0_8, TRef.binary, TRef.unary, TRef.nullary, TRef.ternary]
  after_results_simp
  try dsimp only [TRef.ofBuf, TRef.toBuf, TRef.of, cast_eq]
  try simp only [h_main_arg3, h_main_arg2, h_main_v26, h_main_v25, h_main_v0, h_main_v24, h_main_v20, h_main_v1]
  try rw [h_main_arg3]
  try rw [h_main_arg2]
  try rw [h_main_v26]
  try rw [h_main_v25]
  try rw [h_main_v0]
  try rw [h_main_v24]
  try rw [h_main_v20]
  try rw [h_main_v1]
  rfl

theorem seg8_main_v58 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_v58) = Stg.main_v58 a1 := by
  simp only [hostOps0_8, TRef.binary, TRef.unary, TRef.nullary, TRef.ternary]
  after_results_simp
  try dsimp only [TRef.ofBuf, TRef.toBuf, TRef.of, cast_eq]
  try simp only [h_main_arg3, h_main_arg2, h_main_v26, h_main_v25, h_main_v0, h_main_v24, h_main_v20, h_main_v1]
  try rw [h_main_arg3]
  try rw [h_main_arg2]
  try rw [h_main_v26]
  try rw [h_main_v25]
  try rw [h_main_v0]
  try rw [h_main_v24]
  try rw [h_main_v20]
  try rw [h_main_v1]
  rfl

theorem seg8_main_c_16 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v24 : W (Proc.devRef .tc main_v24) = Stg.main_v24 a1)
    (h_main_v20 : W (Proc.devRef .tc main_v20) = Stg.main_v20 a1)
    (h_main_v1 : W (Proc.devRef .tc main_v1) = Stg.main_v1 a1) :
    StableHlo.after (hostOps0_8 (F := F)) W (Proc.devRef .tc main_c_16) = Stg.main_c_16 := by
  simp only [hostOps0_8, TRef.binary, TRef.unary, TRef.nullary, TRef.ternary]
  after_results_simp
  try dsimp only [TRef.ofBuf, TRef.toBuf, TRef.of, cast_eq]
  try simp only [h_main_arg3, h_main_arg2, h_main_v26, h_main_v25, h_main_v0, h_main_v24, h_main_v20, h_main_v1]
  try rw [h_main_arg3]
  try rw [h_main_arg2]
  try rw [h_main_v26]
  try rw [h_main_v25]
  try rw [h_main_v0]
  try rw [h_main_v24]
  try rw [h_main_v20]
  try rw [h_main_v1]
  rfl

theorem seg9_main_arg3 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_arg3) = a3 := by
  simp only [hostOps0_9, TRef.binary, TRef.unary, TRef.nullary, TRef.ternary]
  after_results_simp
  exact h_main_arg3

theorem seg9_main_arg2 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_arg2) = a2 := by
  simp only [hostOps0_9, TRef.binary, TRef.unary, TRef.nullary, TRef.ternary]
  after_results_simp
  exact h_main_arg2

theorem seg9_main_v50 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_v50) = Stg.main_v50 a1 := by
  simp only [hostOps0_9, TRef.binary, TRef.unary, TRef.nullary, TRef.ternary]
  after_results_simp
  exact h_main_v50

theorem seg9_main_v26 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_v26) = Stg.main_v26 a1 := by
  simp only [hostOps0_9, TRef.binary, TRef.unary, TRef.nullary, TRef.ternary]
  after_results_simp
  exact h_main_v26

theorem seg9_main_v25 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_v25) = Stg.main_v25 a1 := by
  simp only [hostOps0_9, TRef.binary, TRef.unary, TRef.nullary, TRef.ternary]
  after_results_simp
  exact h_main_v25

theorem seg9_main_v61 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_v61) = Stg.main_v61 a1 := by
  simp only [hostOps0_9, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v0, h_main_v60, h_main_v58, h_main_c_16]
  try rw [h_main_arg3]
  try rw [h_main_arg2]
  try rw [h_main_v50]
  try rw [h_main_v26]
  try rw [h_main_v25]
  try rw [h_main_v0]
  try rw [h_main_v60]
  try rw [h_main_v58]
  try rw [h_main_c_16]
  rfl

theorem seg9_main_v0 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v0 : W (Proc.devRef .tc main_v0) = Stg.main_v0 a0)
    (h_main_v60 : W (Proc.devRef .tc main_v60) = Stg.main_v60 a1)
    (h_main_v58 : W (Proc.devRef .tc main_v58) = Stg.main_v58 a1)
    (h_main_c_16 : W (Proc.devRef .tc main_c_16) = Stg.main_c_16) :
    StableHlo.after (hostOps0_9 (F := F)) W (Proc.devRef .tc main_v0) = Stg.main_v0 a0 := by
  simp only [hostOps0_9, TRef.binary, TRef.unary, TRef.nullary, TRef.ternary]
  after_results_simp
  exact h_main_v0

theorem seg10_main_v81 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v61 : W (Proc.devRef .tc main_v61) = Stg.main_v61 a1)
    (h_main_v0 : W (Proc.devRef .tc main_v0) = Stg.main_v0 a0) :
    StableHlo.after (hostOps0_10 (F := F)) W (Proc.devRef .tc main_v81) = Stg.main_v81 a1 := by
  simp only [hostOps0_10, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v61, h_main_v0]
  try rw [h_main_arg3]
  try rw [h_main_arg2]
  try rw [h_main_v50]
  try rw [h_main_v26]
  try rw [h_main_v25]
  try rw [h_main_v61]
  try rw [h_main_v0]
  rfl

theorem seg10_main_v69 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v61 : W (Proc.devRef .tc main_v61) = Stg.main_v61 a1)
    (h_main_v0 : W (Proc.devRef .tc main_v0) = Stg.main_v0 a0) :
    StableHlo.after (hostOps0_10 (F := F)) W (Proc.devRef .tc main_v69) = Stg.main_v69 a0 a1 := by
  simp only [hostOps0_10, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v61, h_main_v0]
  try rw [h_main_arg3]
  try rw [h_main_arg2]
  try rw [h_main_v50]
  try rw [h_main_v26]
  try rw [h_main_v25]
  try rw [h_main_v61]
  try rw [h_main_v0]
  rfl

theorem seg10_main_v90 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v61 : W (Proc.devRef .tc main_v61) = Stg.main_v61 a1)
    (h_main_v0 : W (Proc.devRef .tc main_v0) = Stg.main_v0 a0) :
    StableHlo.after (hostOps0_10 (F := F)) W (Proc.devRef .tc main_v90) = Stg.main_v90 a2 := by
  simp only [hostOps0_10, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v61, h_main_v0]
  try rw [h_main_arg3]
  try rw [h_main_arg2]
  try rw [h_main_v50]
  try rw [h_main_v26]
  try rw [h_main_v25]
  try rw [h_main_v61]
  try rw [h_main_v0]
  rfl

theorem seg10_main_v91 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v61 : W (Proc.devRef .tc main_v61) = Stg.main_v61 a1)
    (h_main_v0 : W (Proc.devRef .tc main_v0) = Stg.main_v0 a0) :
    StableHlo.after (hostOps0_10 (F := F)) W (Proc.devRef .tc main_v91) = Stg.main_v91 a3 := by
  simp only [hostOps0_10, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v61, h_main_v0]
  try rw [h_main_arg3]
  try rw [h_main_arg2]
  try rw [h_main_v50]
  try rw [h_main_v26]
  try rw [h_main_v25]
  try rw [h_main_v61]
  try rw [h_main_v0]
  rfl

theorem seg10_main_v89 (W : Valuation τ sig (Elt F)) (a0 : FVec F S4x4096x1024 .f32) (a1 : IVec S4x4096 32) (a2 : FVec F S8x1024x1024 .f32) (a3 : FVec F S8x1024 .f32)
    (h_main_arg3 : W (Proc.devRef .tc main_arg3) = a3)
    (h_main_arg2 : W (Proc.devRef .tc main_arg2) = a2)
    (h_main_v50 : W (Proc.devRef .tc main_v50) = Stg.main_v50 a1)
    (h_main_v26 : W (Proc.devRef .tc main_v26) = Stg.main_v26 a1)
    (h_main_v25 : W (Proc.devRef .tc main_v25) = Stg.main_v25 a1)
    (h_main_v61 : W (Proc.devRef .tc main_v61) = Stg.main_v61 a1)
    (h_main_v0 : W (Proc.devRef .tc main_v0) = Stg.main_v0 a0) :
    StableHlo.after (hostOps0_10 (F := F)) W (Proc.devRef .tc main_v89) = Stg.main_v89 a1 := by
  simp only [hostOps0_10, TRef.binary, TRef.unary, TRef.nullary, TRef.ternary]
  after_results_simp
  try dsimp only [TRef.ofBuf, TRef.toBuf, TRef.of, cast_eq]
  try simp only [h_main_arg3, h_main_arg2, h_main_v50, h_main_v26, h_main_v25, h_main_v61, h_main_v0]
  try rw [h_main_arg3]
  try rw [h_main_arg2]
  try rw [h_main_v50]
  try rw [h_main_v26]
  try rw [h_main_v25]
  try rw [h_main_v61]
  try rw [h_main_v0]
  rfl

theorem after_append' (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

/-- Every buffer the kernel's region and the operations after it read is the corresponding pure function of the argument arrays. -/
theorem stages (c : Dev nD) :
    V m c main_v81 = Stg.main_v81 (m ((c : Thread nD τ).loc main_arg1))
    ∧ V m c main_v69 = Stg.main_v69 (m ((c : Thread nD τ).loc main_arg0)) (m ((c : Thread nD τ).loc main_arg1))
    ∧ V m c main_v90 = Stg.main_v90 (m ((c : Thread nD τ).loc main_arg2))
    ∧ V m c main_v91 = Stg.main_v91 (m ((c : Thread nD τ).loc main_arg3))
    ∧ V m c main_v89 = Stg.main_v89 (m ((c : Thread nD τ).loc main_arg1)) := by
  have e : ∀ b, V0 m c b = StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b))))))))))))) b := by
    intro b
    show StableHlo.after (List.flatten [hostOps0, hostOps0_1, hostOps0_2, hostOps0_3, hostOps0_4, hostOps0_5, hostOps0_6, hostOps0_7, hostOps0_8, hostOps0_9, hostOps0_10]) (fun b => m (c, b)) b = _
    simp only [List.flatten_cons, List.flatten_nil, after_append', List.append_nil, StableHlo.after_nil]
  have f0_main_arg3 := seg0_main_arg3 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_arg2 := seg0_main_arg2 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_v0 := seg0_main_v0 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_v1 := seg0_main_v1 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_v9 := seg0_main_v9 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_v13 := seg0_main_v13 (fun b => m (c, b)) (m ((c : Thread nD τ).loc main_arg0)) (m ((c : Thread nD τ).loc main_arg1)) (m ((c : Thread nD τ).loc main_arg2)) (m ((c : Thread nD τ).loc main_arg3)) rfl rfl rfl rfl
  have f0_main_c_2 := seg0_main_c_2 (fun b => m (c, b)) (m ((c : Thread nD τ).loc main_arg0)) (m ((c : Thread nD τ).loc main_arg1)) (m ((c : Thread nD τ).loc main_arg2)) (m ((c : Thread nD τ).loc main_arg3)) rfl rfl rfl rfl
  have f1_main_arg3 := seg1_main_arg3 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f1_main_arg2 := seg1_main_arg2 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f1_main_v0 := seg1_main_v0 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f1_main_v1 := seg1_main_v1 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f1_main_v9 := seg1_main_v9 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f1_main_v14 := seg1_main_v14 (StableHlo.after hostOps0 (fun b => m (c, b))) (m ((c : Thread nD τ).loc main_arg0)) (m ((c : Thread nD τ).loc main_arg1)) (m ((c : Thread nD τ).loc main_arg2)) (m ((c : Thread nD τ).loc main_arg3)) f0_main_arg3 f0_main_arg2 f0_main_v0 f0_main_v1 f0_main_v9 f0_main_v13 f0_main_c_2
  have f2_main_arg3 := seg2_main_arg3 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_arg2 := seg2_main_arg2 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_v0 := seg2_main_v0 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_v1 := seg2_main_v1 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_v16 := seg2_main_v16 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_v17 := seg2_main_v17 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f2_main_v9 := seg2_main_v9 (StableHlo.after hostOps0_1 (StableHlo.after hostOps0 (fun b => m (c, b)))) (m ((c : Thread nD τ).loc main_arg0)) (m ((c : Thread nD τ).loc main_arg1)) (m ((c : Thread nD τ).loc main_arg2)) (m ((c : Thread nD τ).loc main_arg3)) f1_main_arg3 f1_main_arg2 f1_main_v0 f1_main_v1 f1_main_v9 f1_main_v14
  have f3_main_arg3 := seg3_main_arg3 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_arg2 := seg3_main_arg2 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_v0 := seg3_main_v0 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_v1 := seg3_main_v1 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_v16 := seg3_main_v16 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_v17 := seg3_main_v17 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f3_main_v18 := seg3_main_v18 (StableHlo.after hostOps0_2 (StableHlo.after hostOps0_1 (StableHlo.after hostOps0 (fun b => m (c, b))))) (m ((c : Thread nD τ).loc main_arg0)) (m ((c : Thread nD τ).loc main_arg1)) (m ((c : Thread nD τ).loc main_arg2)) (m ((c : Thread nD τ).loc main_arg3)) f2_main_arg3 f2_main_arg2 f2_main_v0 f2_main_v1 f2_main_v16 f2_main_v17 f2_main_v9
  have f4_main_arg3 := seg4_main_arg3 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_arg2 := seg4_main_arg2 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_v0 := seg4_main_v0 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_v20 := seg4_main_v20 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_v1 := seg4_main_v1 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_v16 := seg4_main_v16 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f4_main_v21 := seg4_main_v21 (StableHlo.after hostOps0_3 (StableHlo.after hostOps0_2 (StableHlo.after hostOps0_1 (StableHlo.after hostOps0 (fun b => m (c, b)))))) (m ((c : Thread nD τ).loc main_arg0)) (m ((c : Thread nD τ).loc main_arg1)) (m ((c : Thread nD τ).loc main_arg2)) (m ((c : Thread nD τ).loc main_arg3)) f3_main_arg3 f3_main_arg2 f3_main_v0 f3_main_v1 f3_main_v16 f3_main_v17 f3_main_v18
  have f5_main_arg3 := seg5_main_arg3 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_arg2 := seg5_main_arg2 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v0 := seg5_main_v0 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v20 := seg5_main_v20 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v1 := seg5_main_v1 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v16 := seg5_main_v16 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v21 := seg5_main_v21 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f5_main_v22 := seg5_main_v22 (StableHlo.after hostOps0_4 (StableHlo.after hostOps0_3 (StableHlo.after hostOps0_2 (StableHlo.after hostOps0_1 (StableHlo.after hostOps0 (fun b => m (c, b))))))) (m ((c : Thread nD τ).loc main_arg0)) (m ((c : Thread nD τ).loc main_arg1)) (m ((c : Thread nD τ).loc main_arg2)) (m ((c : Thread nD τ).loc main_arg3)) f4_main_arg3 f4_main_arg2 f4_main_v0 f4_main_v20 f4_main_v1 f4_main_v16 f4_main_v21
  have f6_main_arg3 := seg6_main_arg3 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_arg2 := seg6_main_arg2 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_v25 := seg6_main_v25 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_v0 := seg6_main_v0 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_v24 := seg6_main_v24 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_v20 := seg6_main_v20 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f6_main_v1 := seg6_main_v1 (StableHlo.after hostOps0_5 (StableHlo.after hostOps0_4 (StableHlo.after hostOps0_3 (StableHlo.after hostOps0_2 (StableHlo.after hostOps0_1 (StableHlo.after hostOps0 (fun b => m (c, b)))))))) (m ((c : Thread nD τ).loc main_arg0)) (m ((c : Thread nD τ).loc main_arg1)) (m ((c : Thread nD τ).loc main_arg2)) (m ((c : Thread nD τ).loc main_arg3)) f5_main_arg3 f5_main_arg2 f5_main_v0 f5_main_v20 f5_main_v1 f5_main_v16 f5_main_v21 f5_main_v22
  have f7_main_arg3 := seg7_main_arg3 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_arg2 := seg7_main_arg2 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v26 := seg7_main_v26 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v25 := seg7_main_v25 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v0 := seg7_main_v0 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v24 := seg7_main_v24 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v20 := seg7_main_v20 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f7_main_v1 := seg7_main_v1 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (m ((c : Thread nD τ).loc main_arg0)) (m ((c : Thread nD τ).loc main_arg1)) (m ((c : Thread nD τ).loc main_arg2)) (m ((c : Thread nD τ).loc main_arg3)) f6_main_arg3 f6_main_arg2 f6_main_v25 f6_main_v0 f6_main_v24 f6_main_v20 f6_main_v1
  have f8_main_arg3 := seg8_main_arg3 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_arg2 := seg8_main_arg2 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v50 := seg8_main_v50 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v26 := seg8_main_v26 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v25 := seg8_main_v25 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v0 := seg8_main_v0 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v60 := seg8_main_v60 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_v58 := seg8_main_v58 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f8_main_c_16 := seg8_main_c_16 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (m ((c : Thread nD τ).loc main_arg0)) (m ((c : Thread nD τ).loc main_arg1)) (m ((c : Thread nD τ).loc main_arg2)) (m ((c : Thread nD τ).loc main_arg3)) f7_main_arg3 f7_main_arg2 f7_main_v26 f7_main_v25 f7_main_v0 f7_main_v24 f7_main_v20 f7_main_v1
  have f9_main_arg3 := seg9_main_arg3 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_arg2 := seg9_main_arg2 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_v50 := seg9_main_v50 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_v26 := seg9_main_v26 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_v25 := seg9_main_v25 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_v61 := seg9_main_v61 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f9_main_v0 := seg9_main_v0 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (m ((c : Thread nD τ).loc main_arg0)) (m ((c : Thread nD τ).loc main_arg1)) (m ((c : Thread nD τ).loc main_arg2)) (m ((c : Thread nD τ).loc main_arg3)) f8_main_arg3 f8_main_arg2 f8_main_v50 f8_main_v26 f8_main_v25 f8_main_v0 f8_main_v60 f8_main_v58 f8_main_c_16
  have f10_main_v81 := seg10_main_v81 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))) (m ((c : Thread nD τ).loc main_arg0)) (m ((c : Thread nD τ).loc main_arg1)) (m ((c : Thread nD τ).loc main_arg2)) (m ((c : Thread nD τ).loc main_arg3)) f9_main_arg3 f9_main_arg2 f9_main_v50 f9_main_v26 f9_main_v25 f9_main_v61 f9_main_v0
  have f10_main_v69 := seg10_main_v69 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))) (m ((c : Thread nD τ).loc main_arg0)) (m ((c : Thread nD τ).loc main_arg1)) (m ((c : Thread nD τ).loc main_arg2)) (m ((c : Thread nD τ).loc main_arg3)) f9_main_arg3 f9_main_arg2 f9_main_v50 f9_main_v26 f9_main_v25 f9_main_v61 f9_main_v0
  have f10_main_v90 := seg10_main_v90 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))) (m ((c : Thread nD τ).loc main_arg0)) (m ((c : Thread nD τ).loc main_arg1)) (m ((c : Thread nD τ).loc main_arg2)) (m ((c : Thread nD τ).loc main_arg3)) f9_main_arg3 f9_main_arg2 f9_main_v50 f9_main_v26 f9_main_v25 f9_main_v61 f9_main_v0
  have f10_main_v91 := seg10_main_v91 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))) (m ((c : Thread nD τ).loc main_arg0)) (m ((c : Thread nD τ).loc main_arg1)) (m ((c : Thread nD τ).loc main_arg2)) (m ((c : Thread nD τ).loc main_arg3)) f9_main_arg3 f9_main_arg2 f9_main_v50 f9_main_v26 f9_main_v25 f9_main_v61 f9_main_v0
  have f10_main_v89 := seg10_main_v89 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))) (m ((c : Thread nD τ).loc main_arg0)) (m ((c : Thread nD τ).loc main_arg1)) (m ((c : Thread nD τ).loc main_arg2)) (m ((c : Thread nD τ).loc main_arg3)) f9_main_arg3 f9_main_arg2 f9_main_v50 f9_main_v26 f9_main_v25 f9_main_v61 f9_main_v0
  exact ⟨(e _).trans f10_main_v81, (e _).trans f10_main_v69, (e _).trans f10_main_v90, (e _).trans f10_main_v91, (e _).trans f10_main_v89⟩

end Cert.KernelIdeal.StgV

end
-- ==== Proof.PreTypes.lean ====
/-
  The precondition read back: every float input is finite and every type word is a natural number below 8. Only the
  second half is used: the type of every token, read signed, lies in [0, 8).
-/
import proofs.«167811_j5703716569224_2_alg».proof.Pre_finite_inputs
import Idealize.ShloMosaic.Lib.ReduceAll
import Idealize.ShloMosaic.Lib.ValueIdx

noncomputable section

namespace Cert.PreTypes

open Idealize.ShloMosaic Cert.Pre_finite_inputs

variable {F : FTy → Type} [FloatOps F] [Facts]

instance : Subsingleton S_.Idx := ⟨fun a b => funext fun d => d.elim0⟩

/-- A word that is at least 0 and below 8, both read signed, is a natural number below 8. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hlt : 2 * w.toNat < 2 ^ 32 := BitVec.toInt_pos_iff.mp h0
  rw [BitVec.toInt_eq_toNat_of_lt hlt] at h8
  omega

/-- Where the precondition holds, every type word is a natural number below 8. -/
theorem types_in_range (a0 : FVec F S4x4096x1024 .f32) (a1 : IVec S4x4096 32) (a2 : FVec F S8x1024x1024 .f32)
    (a3 : FVec F S8x1024 .f32) (h : fn (F := F) a0 a1 a2 a3 = fun _ => 1#1) (i : S4x4096.Idx) : (a1 i).toNat < 8 := by
  have e := congrFun h ValueIdx.ix0
  dsimp only [fn, fn_part1] at e
  have e2 := (IntOp.andi_eq_one.1 e).2
  have e3 := Host.reduce_andi_all _ _ _ _ _ e2 i
  obtain ⟨h0, h8⟩ := IntOp.andi_eq_one.1 e3
  exact toNat_lt_eight _ h0 h8

end Cert.PreTypes

end
-- ==== Proof.Bridge.lean ====
/-
  The kernel's result is the per-type linear layer. Token i = 4096·b + s sits at position j of the sorted order and
  is placed in padded slot d; the tile of slot d has the token's type, so row d of the padded product is the token's
  row through its own type's matrix plus that type's bias, and the final gather at slot d brings it back to row i.
-/
import proofs.«167811_j5703716569224_2_alg».proof.Proof.KernelRun
import proofs.«167811_j5703716569224_2_alg».proof.Proof.WordsPlace
import proofs.«167811_j5703716569224_2_alg».proof.Proof.WordsCounts
import proofs.«167811_j5703716569224_2_alg».proof.Proof.TileType
import proofs.«167811_j5703716569224_2_alg».proof.Proof.StagesRun
import proofs.«167811_j5703716569224_2_alg».proof.Proof.Spec
import proofs.«167811_j5703716569224_2_alg».proof.Proof.PreTypes
import proofs.«167811_j5703716569224_2_alg».proof.Proof.Gen.Pre_finite_inputs
import proofs.«167811_j5703716569224_2_alg».proof.Defs

set_option maxRecDepth 16384

noncomputable section

namespace Cert.Bridge

open Cert.KernelIdeal Cert.KernelIdeal.Gen Idealize.ShloMosaic Idealize.ShloMosaic.TcCoe Idealize.SL.Sem
open Idealize.ShloMosaic.ValueIdx

/-- The 16-bit cast of the flattened input, at row 4096·b + s: at the extended reals the input's entry. -/
theorem v62_apply (a0 : FVec Ideal S4x4096x1024 .f32) (b : Fin 4) (s : Fin 4096) (k : Fin 1024)
    (hI : 4096 * b.val + s.val < 16384) :
    Stg.main_v62 a0 (ix2 ⟨4096 * b.val + s.val, hI⟩ k) = a0 (ix3 b s k) := by
  show Stg.main_v0 a0 (ix2 ⟨4096 * b.val + s.val, hI⟩ k) = _
  unfold Stg.main_v0
  refine shapeCast_apply a0 _ _ (ix3 b s k) ?_
  rw [Shape.rowMajor_val_three, Shape.rowMajor_val_two]
  show (b.val * 4096 + s.val) * 1024 + k.val = (4096 * b.val + s.val) * 1024 + k.val
  omega

/-- The 16-bit cast of the matrices is, at the extended reals, the matrices. -/
theorem v90_apply (a2 : FVec Ideal S8x1024x1024 .f32) (i : S8x1024x1024.Idx) : Stg.main_v90 a2 i = a2 i := rfl

/-- The bias re-laid [8, 1, 1024], at (t, 0, q). -/
theorem v91_apply (a3 : FVec Ideal S8x1024 .f32) (t : Fin 8) (q : Fin 1024) :
    Stg.main_v91 a3 (ix3 t (0 : Fin 1) q) = a3 (ix2 t q) := by
  unfold Stg.main_v91
  refine shapeCast_apply a3 _ _ (ix2 t q) ?_
  rw [Shape.rowMajor_val_three, Shape.rowMajor_val_two]
  show t.val * 1024 + q.val = (t.val * 1 + 0) * 1024 + q.val
  omega

/-- The tile of a padded row. -/
def blk (r : Fin 24576) : Fin 24 := ⟨r.val / 1024, by omega⟩

/-- The padded product followed by the final gather, over the host arrays as functions of the arguments, is the
    per-type linear layer: token 4096·b + s = σ j sits in padded slot d = dest j, whose tile has the token's type. -/
theorem value_core (a0 : FVec Ideal S4x4096x1024 .f32) (a1 : IVec S4x4096 32) (a2 : FVec Ideal S8x1024x1024 .f32)
    (a3 : FVec Ideal S8x1024 .f32) (hR : Tok.InRange a1)
    (x : S24576x1024.Idx → EReal) (w : S8x1024x1024.Idx → EReal) (bb : S8x1x1024.Idx → EReal) (bt' : Fin 24 → Fin 8)
    (hx : ∀ i, x i = Stg.main_v69 a0 a1 i) (hw : ∀ i, w i = Stg.main_v90 a2 i) (hb : ∀ i, bb i = Stg.main_v91 a3 i)
    (hbt' : ∀ p : Fin 24, (bt' p).val = min (Stg.main_v81 a1 (ix1 p)).toNat 7) :
    Cert.KernelSide.tail (fun i => (∑ k : Fin 1024, x (ix2 (i 0) k) * w (ix3 (bt' (blk (i 0))) k (i 1)))
        + bb (ix3 (bt' (blk (i 0))) 0 (i 1))) (Stg.main_v89 a1)
      = Cert.Spec.out a0 a1 a2 a3 := by
  funext i
  rw [eq_ix3 i]
  have hI : 4096 * (i 0).val + (i 1).val < 16384 := by
    have h0 := (i 0).isLt; have h1 := (i 1).isLt
    have e0 : S4x4096x1024.size 0 = 4 := rfl
    have e1 : S4x4096x1024.size 1 = 4096 := rfl
    omega
  obtain ⟨j, hj⟩ := (Ws.sigma_bij a1).2 ⟨4096 * (i 0).val + (i 1).val, hI⟩
  have hbs : (Ws.sigma a1 j).val = 4096 * (i 0).val + (i 1).val := congrArg Fin.val hj
  have h20 := Wc.c20 a1
  have h24 := Wc.c24 a1
  have hD := Tt.dest_lt a1 hR j
  refine (Wp.tail_apply a1 hR h20 h24 _ j (i 0) (i 1) hbs (i 2)).trans ?_
  have hp : Cert.Grouped.dest (Tok.tyN a1) 1024 (Ws.sigma a1) j / 1024 < 24 := by omega
  have hbt : bt' (blk ⟨Cert.Grouped.dest (Tok.tyN a1) 1024 (Ws.sigma a1) j, hD⟩) = Cert.Spec.tyOf a1 (i 0) (i 1) :=
    Fin.ext ((hbt' _).trans (congrArg Fin.val (Tt.tile_type_eq a1 hR j (i 0) (i 1) hbs hp)))
  show (∑ k : Fin 1024, x (ix2 ⟨Cert.Grouped.dest (Tok.tyN a1) 1024 (Ws.sigma a1) j, hD⟩ k)
        * w (ix3 (bt' (blk ⟨Cert.Grouped.dest (Tok.tyN a1) 1024 (Ws.sigma a1) j, hD⟩)) k (i 2)))
      + bb (ix3 (bt' (blk ⟨Cert.Grouped.dest (Tok.tyN a1) 1024 (Ws.sigma a1) j, hD⟩)) 0 (i 2))
      = Cert.Spec.lin a0 a2 a3 (Cert.Spec.tyOf a1 (i 0) (i 1)) (i 0) (i 1) (i 2)
  rw [hbt]
  unfold Cert.Spec.lin
  refine congrArg₂ (· + ·) ?_ ?_
  · refine Finset.sum_congr rfl fun k _ => ?_
    rw [hx, hw, Wp.p69 a1 hR h20 h24 a0 j k, v90_apply, hj]
    exact congrArg₂ (· * ·) (v62_apply a0 (i 0) (i 1) k hI) rfl
  · rw [hb]; exact v91_apply a3 _ (i 2)

variable (m : (ℓ : Loc nD τ sig) → Buf (Elt Ideal) ℓ)

/-- Where the precondition holds, the kernel program's result is the per-type linear layer of its arguments. -/
theorem kernel_value (hO : Ok m) (hpre : Cert.Pre_KernelIdeal m) (c : Dev nD) :
    Cert.KernelSide.tail (Cert.KernelSide.outPadded m hO c) (V0 m c (Proc.devRef .tc main_v89))
      = Cert.Spec.out (m ((c.tc : Thread nD τ).loc main_arg0)) (m ((c.tc : Thread nD τ).loc main_arg1)) (m ((c.tc : Thread nD τ).loc main_arg2)) (m ((c.tc : Thread nD τ).loc main_arg3)) := by
  obtain rfl : c = 0 := Subsingleton.elim _ _
  obtain ⟨e81, e69, e90, e91, e89⟩ := Cert.KernelIdeal.StgV.stages m 0
  have hR : Tok.InRange (m (((0 : Dev nD).tc : Thread nD τ).loc main_arg1)) := fun i => Cert.PreTypes.types_in_range _ _ _ _ (hpre 0) i
  have e89' : V0 m 0 (Proc.devRef .tc main_v89) = Stg.main_v89 (m (((0 : Dev nD).tc : Thread nD τ).loc main_arg1)) := e89
  rw [e89']
  exact value_core _ _ _ _ hR (Cert.KernelSide.xArr m 0) (Cert.KernelSide.wArr m 0) (Cert.KernelSide.bArr m 0) (Cert.KernelSide.bt m)
    (fun i => congrFun e69 i) (fun i => congrFun e90 i) (fun i => congrFun e91 i)
    (fun p => by
      show min ((tbl m 0 : S24.Idx → BitVec 32) (ix1 p)).toNat 7 = _
      rw [show (tbl m 0 : S24.Idx → BitVec 32) = Stg.main_v81 (m (((0 : Dev nD).tc : Thread nD τ).loc main_arg1)) from e81])

end Cert.Bridge

end
-- ==== Proof.RefSide.lean ====
/-
  The reference program, index by index, is the per-type linear layer of the specification.

  The program runs over the eight types t = 0, …, 7 in order: it forms y_t = x · W[t] + bias[t] for every token and
  overwrites the running result with y_t at the tokens whose type word equals t. At a token whose type word is below 8
  the last overwrite that fires is the one of its own type, so the result there is the specification's row.
-/
import proofs.«167811_j5703716569224_2_alg».proof.Proof.Spec
import proofs.«167811_j5703716569224_2_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx
open Cert.Spec

/-- A select on "the two words are equal" is the `if` on their equality. -/
theorem select_cmpi_eq {α : Type} (a c : BitVec 32) (A B : α) :
    Scalar.select (IntOp.cmpi .eq a c) A B = if a = c then A else B := by
  unfold Scalar.select IntOp.cmpi
  by_cases h : a = c
  · subst h; simp
  · have hb : (a == c) = false := beq_eq_false_iff_ne.mpr h
    simp [h, hb]

/-- Eight nested overwrites, the last one first: at a word below 8 the one that fires is the word's own. -/
theorem pick8 {α : Type} (w : BitVec 32) (hw : w.toNat < 8) (f : Fin 8 → α) (z : α) :
    (if w = 7#32 then f ⟨7, by norm_num⟩ else if w = 6#32 then f ⟨6, by norm_num⟩ else
      if w = 5#32 then f ⟨5, by norm_num⟩ else if w = 4#32 then f ⟨4, by norm_num⟩ else
      if w = 3#32 then f ⟨3, by norm_num⟩ else if w = 2#32 then f ⟨2, by norm_num⟩ else
      if w = 1#32 then f ⟨1, by norm_num⟩ else if w = 0#32 then f ⟨0, by norm_num⟩ else z)
      = f ⟨w.toNat % 8, Nat.mod_lt _ (by norm_num)⟩ := by
  obtain ⟨j, hj, rfl⟩ : ∃ j, j < 8 ∧ w = BitVec.ofNat 32 j := ⟨w.toNat, hw, by simp⟩
  interval_cases j <;> simp

/-- Type 0's linear map and bias at a token. -/
theorem y0 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v8 (F := Ideal) x0 x2 x3 (ix3 b s o) = lin x0 x2 x3 ⟨0, by norm_num⟩ b s o := by
  rw [val_main_v8_apply, val_main_v3_apply, val_main_v7_apply, val_main_v6_apply, val_main_v5_apply,
    val_main_v4_apply, Ideal.addf_def]
  unfold lin
  congr 1
  · refine Finset.sum_congr rfl fun k _ => ?_
    rw [val_main_v2_apply, val_main_v1_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 0: type 0's row where the type word is 0, the earlier result elsewhere. -/
theorem sel0 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v12 (F := Ideal) x0 x1 x2 x3 (ix3 b s o) =
      if x1 (ix2 b s) = 0#32 then lin x0 x2 x3 ⟨0, by norm_num⟩ b s o
      else val_main_v0 (F := Ideal) (ix3 b s o) := by
  rw [val_main_v12_apply, val_main_call0_v0_apply, val_main_v11_apply, val_main_v10_apply, val_main_v9_apply,
    val_main_c_apply, y0, select_cmpi_eq,
    show idx_main_v11 (idx_main_call0_v0 (ix3 b s o)) = ix2 b s from
      funext fun a => match a with | ⟨0, _⟩ => rfl | ⟨1, _⟩ => rfl]

/-- Type 1's linear map and bias at a token. -/
theorem y1 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v20 (F := Ideal) x0 x2 x3 (ix3 b s o) = lin x0 x2 x3 ⟨1, by norm_num⟩ b s o := by
  rw [val_main_v20_apply, val_main_v15_apply, val_main_v19_apply, val_main_v18_apply, val_main_v17_apply,
    val_main_v16_apply, Ideal.addf_def]
  unfold lin
  congr 1
  · refine Finset.sum_congr rfl fun k _ => ?_
    rw [val_main_v14_apply, val_main_v13_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 1: type 1's row where the type word is 1, the earlier result elsewhere. -/
theorem sel1 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v24 (F := Ideal) x0 x1 x2 x3 (ix3 b s o) =
      if x1 (ix2 b s) = 1#32 then lin x0 x2 x3 ⟨1, by norm_num⟩ b s o
      else val_main_v12 (F := Ideal) x0 x1 x2 x3 (ix3 b s o) := by
  rw [val_main_v24_apply, val_main_call1_v0_apply, val_main_v23_apply, val_main_v22_apply, val_main_v21_apply,
    val_main_c_0_apply, y1, select_cmpi_eq,
    show idx_main_v23 (idx_main_call1_v0 (ix3 b s o)) = ix2 b s from
      funext fun a => match a with | ⟨0, _⟩ => rfl | ⟨1, _⟩ => rfl]

/-- Type 2's linear map and bias at a token. -/
theorem y2 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v32 (F := Ideal) x0 x2 x3 (ix3 b s o) = lin x0 x2 x3 ⟨2, by norm_num⟩ b s o := by
  rw [val_main_v32_apply, val_main_v27_apply, val_main_v31_apply, val_main_v30_apply, val_main_v29_apply,
    val_main_v28_apply, Ideal.addf_def]
  unfold lin
  congr 1
  · refine Finset.sum_congr rfl fun k _ => ?_
    rw [val_main_v26_apply, val_main_v25_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 2: type 2's row where the type word is 2, the earlier result elsewhere. -/
theorem sel2 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v36 (F := Ideal) x0 x1 x2 x3 (ix3 b s o) =
      if x1 (ix2 b s) = 2#32 then lin x0 x2 x3 ⟨2, by norm_num⟩ b s o
      else val_main_v24 (F := Ideal) x0 x1 x2 x3 (ix3 b s o) := by
  rw [val_main_v36_apply, val_main_call2_v0_apply, val_main_v35_apply, val_main_v34_apply, val_main_v33_apply,
    val_main_c_1_apply, y2, select_cmpi_eq,
    show idx_main_v35 (idx_main_call2_v0 (ix3 b s o)) = ix2 b s from
      funext fun a => match a with | ⟨0, _⟩ => rfl | ⟨1, _⟩ => rfl]

/-- Type 3's linear map and bias at a token. -/
theorem y3 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v44 (F := Ideal) x0 x2 x3 (ix3 b s o) = lin x0 x2 x3 ⟨3, by norm_num⟩ b s o := by
  rw [val_main_v44_apply, val_main_v39_apply, val_main_v43_apply, val_main_v42_apply, val_main_v41_apply,
    val_main_v40_apply, Ideal.addf_def]
  unfold lin
  congr 1
  · refine Finset.sum_congr rfl fun k _ => ?_
    rw [val_main_v38_apply, val_main_v37_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 3: type 3's row where the type word is 3, the earlier result elsewhere. -/
theorem sel3 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v48 (F := Ideal) x0 x1 x2 x3 (ix3 b s o) =
      if x1 (ix2 b s) = 3#32 then lin x0 x2 x3 ⟨3, by norm_num⟩ b s o
      else val_main_v36 (F := Ideal) x0 x1 x2 x3 (ix3 b s o) := by
  rw [val_main_v48_apply, val_main_call3_v0_apply, val_main_v47_apply, val_main_v46_apply, val_main_v45_apply,
    val_main_c_2_apply, y3, select_cmpi_eq,
    show idx_main_v47 (idx_main_call3_v0 (ix3 b s o)) = ix2 b s from
      funext fun a => match a with | ⟨0, _⟩ => rfl | ⟨1, _⟩ => rfl]

/-- Type 4's linear map and bias at a token. -/
theorem y4 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v56 (F := Ideal) x0 x2 x3 (ix3 b s o) = lin x0 x2 x3 ⟨4, by norm_num⟩ b s o := by
  rw [val_main_v56_apply, val_main_v51_apply, val_main_v55_apply, val_main_v54_apply, val_main_v53_apply,
    val_main_v52_apply, Ideal.addf_def]
  unfold lin
  congr 1
  · refine Finset.sum_congr rfl fun k _ => ?_
    rw [val_main_v50_apply, val_main_v49_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 4: type 4's row where the type word is 4, the earlier result elsewhere. -/
theorem sel4 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v60 (F := Ideal) x0 x1 x2 x3 (ix3 b s o) =
      if x1 (ix2 b s) = 4#32 then lin x0 x2 x3 ⟨4, by norm_num⟩ b s o
      else val_main_v48 (F := Ideal) x0 x1 x2 x3 (ix3 b s o) := by
  rw [val_main_v60_apply, val_main_call4_v0_apply, val_main_v59_apply, val_main_v58_apply, val_main_v57_apply,
    val_main_c_3_apply, y4, select_cmpi_eq,
    show idx_main_v59 (idx_main_call4_v0 (ix3 b s o)) = ix2 b s from
      funext fun a => match a with | ⟨0, _⟩ => rfl | ⟨1, _⟩ => rfl]

/-- Type 5's linear map and bias at a token. -/
theorem y5 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v68 (F := Ideal) x0 x2 x3 (ix3 b s o) = lin x0 x2 x3 ⟨5, by norm_num⟩ b s o := by
  rw [val_main_v68_apply, val_main_v63_apply, val_main_v67_apply, val_main_v66_apply, val_main_v65_apply,
    val_main_v64_apply, Ideal.addf_def]
  unfold lin
  congr 1
  · refine Finset.sum_congr rfl fun k _ => ?_
    rw [val_main_v62_apply, val_main_v61_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 5: type 5's row where the type word is 5, the earlier result elsewhere. -/
theorem sel5 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v72 (F := Ideal) x0 x1 x2 x3 (ix3 b s o) =
      if x1 (ix2 b s) = 5#32 then lin x0 x2 x3 ⟨5, by norm_num⟩ b s o
      else val_main_v60 (F := Ideal) x0 x1 x2 x3 (ix3 b s o) := by
  rw [val_main_v72_apply, val_main_call5_v0_apply, val_main_v71_apply, val_main_v70_apply, val_main_v69_apply,
    val_main_c_4_apply, y5, select_cmpi_eq,
    show idx_main_v71 (idx_main_call5_v0 (ix3 b s o)) = ix2 b s from
      funext fun a => match a with | ⟨0, _⟩ => rfl | ⟨1, _⟩ => rfl]

/-- Type 6's linear map and bias at a token. -/
theorem y6 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v80 (F := Ideal) x0 x2 x3 (ix3 b s o) = lin x0 x2 x3 ⟨6, by norm_num⟩ b s o := by
  rw [val_main_v80_apply, val_main_v75_apply, val_main_v79_apply, val_main_v78_apply, val_main_v77_apply,
    val_main_v76_apply, Ideal.addf_def]
  unfold lin
  congr 1
  · refine Finset.sum_congr rfl fun k _ => ?_
    rw [val_main_v74_apply, val_main_v73_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 6: type 6's row where the type word is 6, the earlier result elsewhere. -/
theorem sel6 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v84 (F := Ideal) x0 x1 x2 x3 (ix3 b s o) =
      if x1 (ix2 b s) = 6#32 then lin x0 x2 x3 ⟨6, by norm_num⟩ b s o
      else val_main_v72 (F := Ideal) x0 x1 x2 x3 (ix3 b s o) := by
  rw [val_main_v84_apply, val_main_call6_v0_apply, val_main_v83_apply, val_main_v82_apply, val_main_v81_apply,
    val_main_c_5_apply, y6, select_cmpi_eq,
    show idx_main_v83 (idx_main_call6_v0 (ix3 b s o)) = ix2 b s from
      funext fun a => match a with | ⟨0, _⟩ => rfl | ⟨1, _⟩ => rfl]

/-- Type 7's linear map and bias at a token. -/
theorem y7 (x0 : (⟨S4x4096x1024, .f32⟩ : BufTy).Contents (Elt Ideal)) (x2 : (⟨S8x1024x1024, .f32⟩ : BufTy).Contents (Elt Ideal))
    (x3 : (⟨S8x1024, .f32⟩ : BufTy).Contents (Elt Ideal)) (b : Fin 4) (s : Fin 4096) (o : Fin 1024) :
    val_main_v92 (F := Ideal) x0 x2 x3 (ix3 b s o) = lin x0 x2 x3 ⟨7, by norm_num⟩ b s o := by
  rw [val_main_v92_apply, val_main_v87_apply, val_main_v91_apply, val_main_v90_apply, val_main_v89_apply,
    val_main_v88_apply, Ideal.addf_def]
  unfold lin
  congr 1
  · refine Finset.sum_congr rfl fun k _ => ?_
    rw [val_main_v86_apply, val_main_v85_apply]
    have hk := k.isLt
    have ho := o.isLt
    congr 2
    · funext a; match a with | ⟨0, _⟩ => rfl | ⟨1, _⟩ => rfl | ⟨2, _⟩ => rfl
    · funext a
      match a with
      | ⟨0, _⟩ => rfl
      | ⟨1, _⟩ => exact Fin.ext (by show (k.val * 1024 + o.val) / 1024 % 1024 = k.val; omega)
      | ⟨2, _⟩ => exact Fin.ext (by show (k.val * 1024 + o.val) % 1024 = o.val; omega)
  · congr 1
    funext a
    match a with
    | ⟨0, _⟩ => rfl
    | ⟨1, _⟩ => exact Fin.ext (by show o.val % 1024 = o.val; have := o.isLt; omega)

/-- Overwrite 7: type 7's row where the type word is 7, the earlier result elsewhere. -/
theorem sel7 (x0 : (⟨S4x4096x1024, .f32⟩ : BufTy).Contents (Elt Ideal)) (x1 : (⟨S4x4096, .i32⟩ : BufTy).Contents (Elt Ideal))
    (x2 : (⟨S8x1024x1024, .f32⟩ : BufTy).Contents (Elt Ideal)) (x3 : (⟨S8x1024, .f32⟩ : BufTy).Contents (Elt Ideal))
    (b : Fin 4) (s : Fin 4096) (o : Fin 1024) :
    val_main_v96 (F := Ideal) x0 x1 x2 x3 (ix3 b s o) =
      if x1 (ix2 b s) = 7#32 then lin x0 x2 x3 ⟨7, by norm_num⟩ b s o
      else val_main_v84 (F := Ideal) x0 x1 x2 x3 (ix3 b s o) := by
  rw [val_main_v96_apply, val_main_call7_v0_apply, val_main_v95_apply, val_main_v94_apply, val_main_v93_apply,
    val_main_c_6_apply, y7, select_cmpi_eq,
    show idx_main_v95 (idx_main_call7_v0 (ix3 b s o)) = ix2 b s from
      funext fun a => match a with | ⟨0, _⟩ => rfl | ⟨1, _⟩ => rfl]

/-- The reference's result is the specification's, at type words below 8. -/
theorem ref_eq_spec (x0 : FVec Ideal ⟨3, ![4, 4096, 1024]⟩ .f32) (x1 : IVec ⟨2, ![4, 4096]⟩ 32)
    (x2 : FVec Ideal ⟨3, ![8, 1024, 1024]⟩ .f32) (x3 : FVec Ideal ⟨2, ![8, 1024]⟩ .f32)
    (hty : ∀ b s, (x1 (ix2 b s)).toNat < 8) :
    val_main_v96 (F := Ideal) x0 x1 x2 x3 = Cert.Spec.out x0 x1 x2 x3 := by
  refine funext fun (i : (⟨3, ![4, 4096, 1024]⟩ : Shape).Idx) => ?_
  obtain ⟨b, s, o, rfl⟩ : ∃ (b : Fin 4) (s : Fin 4096) (o : Fin 1024), i = ix3 b s o :=
    ⟨i 0, i 1, i 2, eq_ix3 (n0 := 4) (n1 := 4096) (n2 := 1024) i⟩
  rw [out_apply, sel7, sel6, sel5, sel4, sel3, sel2, sel1, sel0]
  exact pick8 (x1 (ix2 b s)) (hty b s) (fun τ => lin x0 x2 x3 τ b s o) _

end Cert.RefSide

end
-- ==== Proof.lean ====
/-
  A grouped matrix product against a masked sum of eight dense ones.

  The kernel sorts the 16384 tokens by their type (one of 8), pads each type's run of the sorted order to a multiple
  of 1024 rows, multiplies every 1024-row tile by the one matrix of its type and adds that type's bias, and gathers
  the rows back into token order. The reference applies all eight matrices to every token and keeps, per token, the
  result of its own type. On the extended reals both are, at (b, s, o),
      Σ_k x[b, s, k] · W[τ, k, o] + bias[τ, o]      with τ the type of token (b, s),
  provided every type word lies in [0, 8) — which the precondition states, beside the finiteness of the float inputs
  (not needed: both sides are the same sum of the same products).

  The pieces: the host operations before the launch as pure functions of the arguments (Stages, StagesRun); the counts,
  the padded boundaries and the tile types (WordsCounts); the sorting permutation and each token's padded slot
  (WordsSort); the two scatters and the row gathers (WordsPlace); that a slot's tile has the token's type (TileType,
  over the combinatorics of LibGroupedPlacement); the region's output array and the operations after it (KernelSpec,
  KernelBody, KernelBlocks, KernelRun); the reference read index by index (RefSide); the launch's side condition, which
  holds for every input because the table is capped at 7 by the program itself (OkKernel, OkKernelIdeal).
-/
import proofs.«167811_j5703716569224_2_alg».proof.Defs
import proofs.«167811_j5703716569224_2_alg».proof.Proof.Gen.Kernel
import proofs.«167811_j5703716569224_2_alg».proof.Proof.Gen.Kernel.Skeleton
import proofs.«167811_j5703716569224_2_alg».proof.Proof.Gen.Kernel.Launch
import proofs.«167811_j5703716569224_2_alg».proof.Proof.Gen.Kernel.Points
import proofs.«167811_j5703716569224_2_alg».proof.Proof.Gen.Kernel.Frame
import proofs.«167811_j5703716569224_2_alg».proof.Proof.Gen.KernelIdeal
import proofs.«167811_j5703716569224_2_alg».proof.Proof.Gen.KernelIdeal.Skeleton
import proofs.«167811_j5703716569224_2_alg».proof.Proof.Gen.KernelIdeal.Launch
import proofs.«167811_j5703716569224_2_alg».proof.Proof.Gen.KernelIdeal.Points
import proofs.«167811_j5703716569224_2_alg».proof.Proof.Gen.KernelIdeal.Frame
import proofs.«167811_j5703716569224_2_alg».proof.Proof.Gen.ReferenceIdeal
import proofs.«167811_j5703716569224_2_alg».proof.Proof.Gen.ReferenceIdeal.Run
import proofs.«167811_j5703716569224_2_alg».proof.Proof.Gen.ReferenceIdeal.Read
import proofs.«167811_j5703716569224_2_alg».proof.Proof.Gen.Pre_finite_inputs
import proofs.«167811_j5703716569224_2_alg».proof.Proof.OkKernel
import proofs.«167811_j5703716569224_2_alg».proof.Proof.OkKernelIdeal
import proofs.«167811_j5703716569224_2_alg».proof.Proof.Bridge
import proofs.«167811_j5703716569224_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments: the launch's side condition holds for every input. -/
theorem frame_k : Cert.frame_Kernel := fun m ρ _ => Cert.Kernel.Gen.frame m ρ (Cert.Kernel.OkOf.ok m)

/-- So does the idealized kernel. -/
theorem frame_ki : Cert.frame_KernelIdeal := fun m ρ _ => Cert.KernelIdeal.Gen.frame m ρ (Cert.KernelIdeal.OkOf.ok m)

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end at the per-type linear layer of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.kernel_value m (Cert.KernelIdeal.OkOf.ok m) hpre c), (h c).2⟩)
      (Cert.KernelSide.kernel_run m ρ (Cert.KernelIdeal.OkOf.ok m))
  · refine (θ_run Cert.ReferenceIdeal.defs _ _).mono (fun r h c => ⟨?_, (h c).2⟩)
      (Cert.ReferenceIdeal.Value.run (F := Ideal) m' ρ')
    have hty : ∀ b s, ((m ((c.tc : Thread Cert.KernelIdeal.nD Cert.KernelIdeal.τ).loc Cert.KernelIdeal.main_arg1)) (ValueIdx.ix2 b s)).toNat < 8 :=
      fun b s => Cert.PreTypes.types_in_range _ _ _ _ (hpre c) _
    rw [(h c).1, Cert.ReferenceIdeal.Read.val_main_v96_eq, (hagree c).1, (hagree c).2.1, (hagree c).2.2.1, (hagree c).2.2.2]
    exact Cert.RefSide.ref_eq_spec _ _ _ _ hty

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
